-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048x64 : Shape := ⟨3, ![2048, 2048, 64]⟩
abbrev S128x8 : Shape := ⟨2, ![128, 8]⟩
abbrev S8 : Shape := ⟨1, ![8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S2048x64 : Shape := ⟨2, ![2048, 64]⟩
abbrev S1x64 : Shape := ⟨2, ![1, 64]⟩
abbrev S64x2048 : Shape := ⟨2, ![64, 2048]⟩
abbrev S2048x2048 : Shape := ⟨2, ![2048, 2048]⟩
abbrev S4194304x64 : Shape := ⟨2, ![4194304, 64]⟩
abbrev S4194304x1 : Shape := ⟨2, ![4194304, 1]⟩
abbrev S1x1 : Shape := ⟨2, ![1, 1]⟩
abbrev S2048 : Shape := ⟨1, ![2048]⟩
abbrev S1x2048 : Shape := ⟨2, ![1, 2048]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2048x64 : S_.BroadcastsInDim S2048x2048x64 (![] : Fin 0 → Fin S2048x2048x64.rank)
  reducesTo_S2048x2048x64_S_d0_1_2 : S2048x2048x64.ReducesTo [0, 1, 2] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S2048x64_S64x2048_1_0 : S2048x64.Transposes [1, 0] S64x2048
  bcast_S_S2048x2048 : S_.BroadcastsInDim S2048x2048 (![] : Fin 0 → Fin S2048x2048.rank)
  shapeCasts_S2048x2048x64_S4194304x64 : S2048x2048x64.ShapeCasts S4194304x64
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  shapeCasts_S4194304x1_S2048x2048 : S4194304x1.ShapeCasts S2048x2048
  reducesTo_S2048x2048_S2048_d0 : S2048x2048.ReducesTo [0] S2048
  bcast_S2048_S1x2048_1 : S2048.BroadcastsInDim S1x2048 (![1] : Fin 1 → Fin S1x2048.rank)
  bcast_S_S1x2048 : S_.BroadcastsInDim S1x2048 (![] : Fin 0 → Fin S1x2048.rank)
  reducesTo_S1x2048_S_d0_1 : S1x2048.ReducesTo [0, 1] S_
  dot_S2048x128_S128x64_S2048x64_1_0_0_1_n_n_wf : DotDims.WF S2048x128 S128x64 S2048x64 [1] [0] [0] [1] [] []
  dot_S2048x64_S64x2048_S2048x2048_1_0_0_1_n_n_wf : DotDims.WF S2048x64 S64x2048 S2048x2048 [1] [0] [0] [1] [] []
  dot_S4194304x64_S64x1_S4194304x1_1_0_0_1_n_n_wf : DotDims.WF S4194304x64 S64x1 S4194304x1 [1] [0] [0] [1] [] []

variable [Facts]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S4194304x64_S64x1_S4194304x1_1_0_0_1_n_n : DotDims S4194304x64 S64x1 S4194304x1 where
  lhsContracting := [1]
  rhsContracting := [0]
  lhsNonContracting := [0]
  rhsNonContracting := [1]
  lhsBatch := []
  rhsBatch := []
  wf := dot_S4194304x64_S64x1_S4194304x1_1_0_0_1_n_n_wf
def fn_part4 {F : FTy → Type} [FloatOps F] (main_v48 : IVec S_ 1) (main_v72 : FVec F S2048x2048 .f32) : IVec S_ 1 :=
  let main_cst_21 : FVec F S_ .f32 := constant S_ .f32 0x00000000#32
  let main_v73 : FVec F S2048 .f32 := (fun x v => Host.reduceAdd x v reducesTo_S2048x2048_S2048_d0 h_S_) main_v72 main_cst_21
  let main_v74 : FVec F S1x2048 .f32 := broadcastInDim S1x2048 ![1] bcast_S2048_S1x2048_1 main_v73
  let main_cst_22 : FVec F S_ .f32 := constant S_ .f32 0x00000000#32
  let main_v75 : FVec F S1x2048 .f32 := broadcastInDim S1x2048 ![] bcast_S_S1x2048 main_cst_22
  let main_v76 : IVec S1x2048 1 := cmpf .une main_v74 main_v75
  let main_c_23 : IVec S_ 1 := constantI S_ 1 1#1
  let main_v77 : IVec S_ 1 := (fun x v => Host.reduce IntOp.andi x v reducesTo_S1x2048_S_d0_1 h_S_) main_v76 main_c_23
  let main_v78 : IVec S_ 1 := andi main_v48 main_v77
  main_v78

def fn_part3 {F : FTy → Type} [FloatOps F] (main_arg0 : FVec F S2048x128 .f32) (main_arg1 : FVec F S2048x2048x64 .f32) (main_arg6 : FVec F S128x64 .f32) (main_arg7 : FVec F S64 .f32) (main_arg8 : FVec F S64x1 .f32) (main_arg9 : FVec F S1 .f32) (main_v48 : IVec S_ 1) (main_v49 : FVec F S2048x64 .f32) (main_v51 : FVec F S2048x64 .f32) : IVec S_ 1 :=
  let main_v52 : FVec F S2048x64 .f32 := addf main_v49 main_v51
  let main_v53 : FVec F S2048x64 .f32 := (fun l r => Host.dotGeneral dot_S2048x128_S128x64_S2048x64_1_0_0_1_n_n none l r) main_arg0 main_arg6
  let main_v54 : FVec F S1x64 .f32 := broadcastInDim S1x64 ![1] bcast_S64_S1x64_1 main_arg7
  let main_v55 : FVec F S2048x64 .f32 := broadcastInDim S2048x64 ![0, 1] bcast_S1x64_S2048x64_0_1 main_v54
  let main_v56 : FVec F S2048x64 .f32 := addf main_v53 main_v55
  let main_v57 : FVec F S64x2048 .f32 := (transpose S64x2048 [1, 0] · transposes_S2048x64_S64x2048_1_0) main_v56
  let main_v58 : FVec F S2048x2048 .f32 := (fun l r => Host.dotGeneral dot_S2048x64_S64x2048_S2048x2048_1_0_0_1_n_n none l r) main_v52 main_v57
  let main_cst_18 : FVec F S_ .f32 := constant S_ .f32 0x42800000#32
  let main_v59 : FVec F S_ .f32 := Host.sqrt main_cst_18
  let main_cst_19 : FVec F S_ .f32 := constant S_ .f32 0x3F800000#32
  let main_v60 : FVec F S_ .f32 := Host.divf main_cst_19 main_v59
  let main_v61 : FVec F S2048x2048 .f32 := broadcastInDim S2048x2048 ![] bcast_S_S2048x2048 main_v60
  let main_v62 : FVec F S2048x2048 .f32 := mulf main_v58 main_v61
  let main_v63 : FVec F S4194304x64 .f32 := shapeCast S4194304x64 main_arg1 shapeCasts_S2048x2048x64_S4194304x64
  let main_v64 : FVec F S4194304x1 .f32 := (fun l r => Host.dotGeneral dot_S4194304x64_S64x1_S4194304x1_1_0_0_1_n_n none l r) main_v63 main_arg8
  let main_v65 : FVec F S1x1 .f32 := broadcastInDim S1x1 ![1] bcast_S1_S1x1_1 main_arg9
  let main_v66 : FVec F S4194304x1 .f32 := broadcastInDim S4194304x1 ![0, 1] bcast_S1x1_S4194304x1_0_1 main_v65
  let main_v67 : FVec F S4194304x1 .f32 := addf main_v64 main_v66
  let main_v68 : FVec F S2048x2048 .f32 := shapeCast S2048x2048 main_v67 shapeCasts_S4194304x1_S2048x2048
  let main_cst_20 : FVec F S_ .f32 := constant S_ .f32 0x00000000#32
  let main_v69 : FVec F S2048x2048 .f32 := broadcastInDim S2048x2048 ![] bcast_S_S2048x2048 main_cst_20
  let main_v70 : FVec F S2048x2048 .f32 := maximumf main_v68 main_v69
  let main_v71 : FVec F S2048x2048 .f32 := Host.exp main_v62
  let main_v72 : FVec F S2048x2048 .f32 := mulf main_v70 main_v71
  fn_part4 (F := F) main_v48 main_v72

def fn_part2 {F : FTy → Type} [FloatOps F] (main_arg0 : FVec F S2048x128 .f32) (main_arg1 : FVec F S2048x2048x64 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2048x64 .f32 := (fun l r => Host.dotGeneral dot_S2048x128_S128x64_S2048x64_1_0_0_1_n_n none l r) main_arg0 main_arg4
  let main_v50 : FVec F S1x64 .f32 := broadcastInDim S1x64 ![1] bcast_S64_S1x64_1 main_arg5
  let main_v51 : FVec F S2048x64 .f32 := broadcastInDim S2048x64 ![0, 1] bcast_S1x64_S2048x64_0_1 main_v50
  fn_part3 (F := F) main_arg0 main_arg1 main_arg6 main_arg7 main_arg8 main_arg9 main_v48 main_v49 main_v51

def fn_part1 {F : FTy → Type} [FloatOps F] (main_arg0 : FVec F S2048x128 .f32) (main_arg1 : FVec F S2048x2048x64 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg1 main_arg4 main_arg5 main_arg6 main_arg7 main_arg8 main_arg9 main_v33

def fn {F : FTy → Type} [FloatOps F] (main_arg0 : FVec F S2048x128 .f32) (main_arg1 : FVec F S2048x2048x64 .f32) (main_arg2 : FVec F S128x8 .f32) (main_arg3 : FVec F S8 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2048x64 .f32 := Host.absf main_arg1
  let main_cst_0 : FVec F S_ .f32 := constant S_ .f32 0x7F800000#32
  let main_v5 : FVec F S2048x2048x64 .f32 := broadcastInDim S2048x2048x64 ![] bcast_S_S2048x2048x64 main_cst_0
  let main_v6 : IVec S2048x2048x64 1 := cmpf .olt main_v4 main_v5
  let main_c_1 : IVec S_ 1 := constantI S_ 1 1#1
  let main_v7 : IVec S_ 1 := (fun x v => Host.reduce IntOp.andi x v reducesTo_S2048x2048x64_S_d0_1_2 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg0 main_arg1 main_arg4 main_arg5 main_arg6 main_arg7 main_arg8 main_arg9 main_v13 main_v16
-- ==== Kernel.lean ====
abbrev S2048x128 : Shape := ⟨2, ![2048, 128]⟩
abbrev S2048x2048x64 : Shape := ⟨3, ![2048, 2048, 64]⟩
abbrev S128x8 : Shape := ⟨2, ![128, 8]⟩
abbrev S8 : Shape := ⟨1, ![8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x8 : Shape := ⟨2, ![2048, 8]⟩
abbrev S1x8 : Shape := ⟨2, ![1, 8]⟩
abbrev S2048x64 : Shape := ⟨2, ![2048, 64]⟩
abbrev S1x64 : Shape := ⟨2, ![1, 64]⟩
abbrev S1x1 : Shape := ⟨2, ![1, 1]⟩
abbrev S2048x2048 : Shape := ⟨2, ![2048, 2048]⟩
abbrev S1x2048 : Shape := ⟨2, ![1, 2048]⟩
abbrev S128x256x64 : Shape := ⟨3, ![128, 256, 64]⟩
abbrev S256x64 : Shape := ⟨2, ![256, 64]⟩
abbrev S128x256 : Shape := ⟨2, ![128, 256]⟩
abbrev S1x256 : Shape := ⟨2, ![1, 256]⟩
abbrev S1x1x64 : Shape := ⟨3, ![1, 1, 64]⟩
abbrev S64x256 : Shape := ⟨2, ![64, 256]⟩
abbrev S1x128 : Shape := ⟨2, ![1, 128]⟩
abbrev S2048x1 : Shape := ⟨2, ![2048, 1]⟩
abbrev S512x2048 : Shape := ⟨2, ![512, 2048]⟩
abbrev S512x8 : Shape := ⟨2, ![512, 8]⟩

abbrev nBuf : Space → Nat
  | .hbm => 30
  | .vmem => 18
  | .smem => 0
  | _ => 0

abbrev bufTy : (tb : Table) → Fin (tcTables nBuf tb) → BufTy
  | .hbm, ⟨0, _⟩ => ⟨S2048x128, .f32⟩
  | .hbm, ⟨1, _⟩ => ⟨S2048x2048x64, .f32⟩
  | .hbm, ⟨2, _⟩ => ⟨S128x8, .f32⟩
  | .hbm, ⟨3, _⟩ => ⟨S8, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2048x8, .f32⟩
  | .hbm, ⟨11, _⟩ => ⟨S1x8, .f32⟩
  | .hbm, ⟨12, _⟩ => ⟨S2048x8, .f32⟩
  | .hbm, ⟨13, _⟩ => ⟨S2048x8, .f32⟩
  | .hbm, ⟨14, _⟩ => ⟨S2048x64, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S1x64, .f32⟩
  | .hbm, ⟨23, _⟩ => ⟨S1x1, .f32⟩
  | .hbm, ⟨24, _⟩ => ⟨S2048x2048, .f32⟩
  | .hbm, ⟨25, _⟩ => ⟨S1x2048, .f32⟩
  | .hbm, ⟨26, _⟩ => ⟨S2048x1, .f32⟩
  | .hbm, ⟨27, _⟩ => ⟨S2048x8, .f32⟩
  | .hbm, ⟨28, _⟩ => ⟨S2048x8, .f32⟩
  | .hbm, ⟨29, _⟩ => ⟨S2048x8, .f32⟩
  | .local _ .vmem, ⟨0, _⟩ => ⟨S128x256x64, .f32⟩
  | .local _ .vmem, ⟨1, _⟩ => ⟨S128x256x64, .f32⟩
  | .local _ .vmem, ⟨2, _⟩ => ⟨S128x64, .f32⟩
  | .local _ .vmem, ⟨3, _⟩ => ⟨S128x64, .f32⟩
  | .local _ .vmem, ⟨4, _⟩ => ⟨S256x64, .f32⟩
  | .local _ .vmem, ⟨5, _⟩ => ⟨S256x64, .f32⟩
  | .local _ .vmem, ⟨6, _⟩ => ⟨S1x64, .f32⟩
  | .local _ .vmem, ⟨7, _⟩ => ⟨S1x1, .f32⟩
  | .local _ .vmem, ⟨8, _⟩ => ⟨S128x256, .f32⟩
  | .local _ .vmem, ⟨9, _⟩ => ⟨S128x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S512x2048, .f32⟩
  | .local _ .vmem, ⟨14, _⟩ => ⟨S512x2048, .f32⟩
  | .local _ .vmem, ⟨15, _⟩ => ⟨S2048x8, .f32⟩
  | .local _ .vmem, ⟨16, _⟩ => ⟨S512x8, .f32⟩
  | .local _ .vmem, ⟨17, _⟩ => ⟨S512x8, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_22 : BitVec 32 := 0#32
  let v38 : BitVec 1 := Scalar.cmpi .ne v37 c0_i32_22
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S64x1_S1x64_1_0 : S64x1.Transposes [1, 0] S1x64
  shapeCasts_S1_S1x1 : S1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S128x256x64_S128x256x64_0_0_0 : ∀ a, (![0, 0, 0] : Fin 3 → Nat) a + S128x256x64.size a ≤ S128x256x64.size a
  h_S128x256x64 : 0 < S128x256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x1x64_S128x256x64 : S1x1x64.Broadcasts S128x256x64
  reduces_S128x256x64_S128x256 : S128x256x64.Reduces [2] S128x256
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S128x256_S128x256_0_0 : ∀ a, (![0, 0] : Fin 2 → Nat) a + S128x256.size a ≤ S128x256.size a
  h_S128x256 : 0 < S128x256.numel
  transposes_S1x2048_S2048x1_1_0 : S1x2048.Transposes [1, 0] S2048x1
  bcast_S2048x1_S2048x8_0_1 : S2048x1.BroadcastsInDim S2048x8 (![0, 1] : Fin 2 → Fin S2048x8.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S512x8_S512x8_0_0 : ∀ a, (![0, 0] : Fin 2 → Nat) a + S512x8.size a ≤ S512x8.size a
  h_S512x8 : 0 < S512x8.numel
  dot_S2048x128_S128x8_S2048x8_1_0_0_1_n_n_wf : DotDims.WF S2048x128 S128x8 S2048x8 [1] [0] [0] [1] [] []
  dot_S2048x128_S128x64_S2048x64_1_0_0_1_n_n_wf : DotDims.WF S2048x128 S128x64 S2048x64 [1] [0] [0] [1] [] []
  dot_S128x64_S64x256_S128x256_1_0_0_1_n_n_wf : DotDims.WF S128x64 S64x256 S128x256 [1] [0] [0] [1] [] []
  dot_S1x128_S128x256_S1x256_1_0_0_1_n_n_wf : DotDims.WF S1x128 S128x256 S1x256 [1] [0] [0] [1] [] []
  dot_S512x2048_S2048x8_S512x8_1_0_0_1_n_n_wf : DotDims.WF S512x2048 S2048x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x64.size a ≤ S2048x2048x64.size a
  hwx0_0 : ∀ i : grid0.Coords, EltTy.bits .f32 = 32 ∨ (Rect.block (s := S2048x2048x64) S128x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S2048x64.size a
  hwx0_1 : ∀ i : grid0.Coords, EltTy.bits .f32 = 32 ∨ (Rect.block (s := S2048x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S2048x2048.size a
  hwx0_5 : ∀ i : grid0.Coords, EltTy.bits .f32 = 32 ∨ (Rect.block (s := S2048x2048) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .f32 = 32 ∨ (Rect.block (s := S2048x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S2048x8.size a
  hwx1_1 : ∀ i : grid1.Coords, EltTy.bits .f32 = 32 ∨ (Rect.block (s := S2048x8) S2048x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x8.size a ≤ S2048x8.size a
  hwx1_2 : ∀ i : grid1.Coords, EltTy.bits .f32 = 32 ∨ (Rect.block (s := S2048x8) S512x8.size (cc1_transform_2 i) (hinb1_2 i)).WholeWords (EltTy.packing .f32)

variable [Facts₀]

def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S512x2048_S2048x8_S512x8_1_0_0_1_n_n : DotDims S512x2048 S2048x8 S512x8 where
  lhsContracting := [1]
  rhsContracting := [0]
  lhsNonContracting := [0]
  rhsNonContracting := [1]
  lhsBatch := []
  rhsBatch := []
  wf := dot_S512x2048_S2048x8_S512x8_1_0_0_1_n_n_wf

abbrev win0_0 : Pipeline.Window sig grid0 :=
  Pipeline.Window.ofSpec (Memref.whole main_arg1) S128x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S128x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v14_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2048x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S512x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x128 : Shape := ⟨2, ![2048, 128]⟩
abbrev S2048x2048x64 : Shape := ⟨3, ![2048, 2048, 64]⟩
abbrev S128x8 : Shape := ⟨2, ![128, 8]⟩
abbrev S8 : Shape := ⟨1, ![8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x8 : Shape := ⟨2, ![2048, 8]⟩
abbrev S1x8 : Shape := ⟨2, ![1, 8]⟩
abbrev S2048x64 : Shape := ⟨2, ![2048, 64]⟩
abbrev S1x64 : Shape := ⟨2, ![1, 64]⟩
abbrev S64x2048 : Shape := ⟨2, ![64, 2048]⟩
abbrev S2048x2048 : Shape := ⟨2, ![2048, 2048]⟩
abbrev S_ : Shape := ⟨0, ![]⟩
abbrev S4194304x64 : Shape := ⟨2, ![4194304, 64]⟩
abbrev S4194304x1 : Shape := ⟨2, ![4194304, 1]⟩
abbrev S1x1 : Shape := ⟨2, ![1, 1]⟩
abbrev S2048 : Shape := ⟨1, ![2048]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x2048x64, .f32⟩
  | .hbm, ⟨2, _⟩ => ⟨S128x8, .f32⟩
  | .hbm, ⟨3, _⟩ => ⟨S8, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2048x8, .f32⟩
  | .hbm, ⟨11, _⟩ => ⟨S1x8, .f32⟩
  | .hbm, ⟨12, _⟩ => ⟨S2048x8, .f32⟩
  | .hbm, ⟨13, _⟩ => ⟨S2048x8, .f32⟩
  | .hbm, ⟨14, _⟩ => ⟨S2048x64, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S64x2048, .f32⟩
  | .hbm, ⟨23, _⟩ => ⟨S2048x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S4194304x64, .f32⟩
  | .hbm, ⟨31, _⟩ => ⟨S4194304x1, .f32⟩
  | .hbm, ⟨32, _⟩ => ⟨S1x1, .f32⟩
  | .hbm, ⟨33, _⟩ => ⟨S4194304x1, .f32⟩
  | .hbm, ⟨34, _⟩ => ⟨S4194304x1, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S2048x8, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S2048x64_S64x2048_1_0 : S2048x64.Transposes [1, 0] S64x2048
  bcast_S_S2048x2048 : S_.BroadcastsInDim S2048x2048 (![] : Fin 0 → Fin S2048x2048.rank)
  shapeCasts_S2048x2048x64_S4194304x64 : S2048x2048x64.ShapeCasts S4194304x64
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  shapeCasts_S4194304x1_S2048x2048 : S4194304x1.ShapeCasts S2048x2048
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  dot_S2048x128_S128x8_S2048x8_1_0_0_1_n_n_wf : DotDims.WF S2048x128 S128x8 S2048x8 [1] [0] [0] [1] [] []
  dot_S2048x128_S128x64_S2048x64_1_0_0_1_n_n_wf : DotDims.WF S2048x128 S128x64 S2048x64 [1] [0] [0] [1] [] []
  dot_S2048x64_S64x2048_S2048x2048_1_0_0_1_n_n_wf : DotDims.WF S2048x64 S64x2048 S2048x2048 [1] [0] [0] [1] [] []
  dot_S4194304x64_S64x1_S4194304x1_1_0_0_1_n_n_wf : DotDims.WF S4194304x64 S64x1 S4194304x1 [1] [0] [0] [1] [] []
  dot_S2048x2048_S2048x8_S2048x8_1_0_0_1_n_n_wf : DotDims.WF S2048x2048 S2048x8 S2048x8 [1] [0] [0] [1] [] []

variable [Facts₀]

def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S4194304x64_S64x1_S4194304x1_1_0_0_1_n_n : DotDims S4194304x64 S64x1 S4194304x1 where
  lhsContracting := [1]
  rhsContracting := [0]
  lhsNonContracting := [0]
  rhsNonContracting := [1]
  lhsBatch := []
  rhsBatch := []
  wf := dot_S4194304x64_S64x1_S4194304x1_1_0_0_1_n_n_wf
def dot_S2048x2048_S2048x8_S2048x8_1_0_0_1_n_n : DotDims S2048x2048 S2048x8 S2048x8 where
  lhsContracting := [1]
  rhsContracting := [0]
  lhsNonContracting := [0]
  rhsNonContracting := [1]
  lhsBatch := []
  rhsBatch := []
  wf := dot_S2048x2048_S2048x8_S2048x8_1_0_0_1_n_n_wf

class Facts : Prop extends Facts₀ where

variable [Facts]
-- ==== Proof.KB.Base.lean ====
/-
  What both pallas_calls' frame proofs are stated over: the blocks the windows read off the arrays as a call finds
  them, the two branch conditions of the first call's body in closed form over its 8 × 16 grid (the accumulator row
  is zeroed where the inner coordinate is 0 and copied to the denominator's block where it is 15), where the
  denominator's window is idle, and the staging and scratch memrefs.
-/
import proofs.«103395_j30580167147772_2_alg».proof.Proof.Gen.Kernel.Launch
import proofs.«103395_j30580167147772_2_alg».proof.Proof.Gen.Kernel.Skeleton
import proofs.«103395_j30580167147772_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block of the first call at grid point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second call at grid point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 0: whatever proof data has the entry contents as its array and leaves the block in place,
    the window's current staging buffer holds that block at every grid point, fetched there or not (where it is not
    fetched the block index has not moved). -/
theorem keep0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1 of call 0: whatever proof data has the entry contents as its array and leaves the block in place,
    the window's current staging buffer holds that block at every grid point, fetched there or not (where it is not
    fetched the block index has not moved). -/
theorem keep0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2 of call 0: whatever proof data has the entry contents as its array and leaves the block in place,
    the window's current staging buffer holds that block at every grid point, fetched there or not (where it is not
    fetched the block index has not moved). -/
theorem keep0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3 of call 0: whatever proof data has the entry contents as its array and leaves the block in place,
    the window's current staging buffer holds that block at every grid point, fetched there or not (where it is not
    fetched the block index has not moved). -/
theorem keep0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4 of call 0: whatever proof data has the entry contents as its array and leaves the block in place,
    the window's current staging buffer holds that block at every grid point, fetched there or not (where it is not
    fetched the block index has not moved). -/
theorem keep0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 0 of call 1: whatever proof data has the entry contents as its array and leaves the block in place,
    the window's current staging buffer holds that block at every grid point, fetched there or not (where it is not
    fetched the block index has not moved). -/
theorem keep1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1 of call 1: whatever proof data has the entry contents as its array and leaves the block in place,
    the window's current staging buffer holds that block at every grid point, fetched there or not (where it is not
    fetched the block index has not moved). -/
theorem keep1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end Blocks

/-! ## The first call's two branch conditions -/

/-- The body zeroes its accumulator row: the inner grid coordinate is 0. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body copies the accumulator row to the denominator's block: the inner grid coordinate is 15. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the first call's windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from the last inner coordinate the denominator's window is idle and not written back; there it is live. -/
theorem idle0_6 : ∀ t : Fin cfg0.N, ¬atLast (grid0.coords t) → cfg0.idle 6 (grid0.coords t) = true := by decide +kernel
theorem noFlush0_6 : ∀ t : Fin cfg0.N, ¬atLast (grid0.coords t) → (cfg0.win 6).flush t = false := by decide +kernel
theorem live0_6 : ∀ t : Fin cfg0.N, atLast (grid0.coords t) → cfg0.idle 6 (grid0.coords t) = false := by decide +kernel
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

/-! ## The memrefs the bodies are called with -/

abbrev m0_0 (t : Fin cfg0.N) : Memref sig .tc .vmem S128x256x64 .f32 := win0_0.stage (cfg0.slots t 0)
abbrev h0_0 (t : Fin cfg0.N) : (m0_0 t).IsWhole := hstage0_0 ((cfg0.slots t 0).cast nbuf0_0)
abbrev m0_1 (t : Fin cfg0.N) : Memref sig .tc .vmem S128x64 .f32 := win0_1.stage (cfg0.slots t 1)
abbrev h0_1 (t : Fin cfg0.N) : (m0_1 t).IsWhole := hstage0_1 ((cfg0.slots t 1).cast nbuf0_1)
abbrev m0_2 (t : Fin cfg0.N) : Memref sig .tc .vmem S256x64 .f32 := win0_2.stage (cfg0.slots t 2)
abbrev h0_2 (t : Fin cfg0.N) : (m0_2 t).IsWhole := hstage0_2 ((cfg0.slots t 2).cast nbuf0_2)
abbrev m0_3 (t : Fin cfg0.N) : Memref sig .tc .vmem S1x64 .f32 := win0_3.stage (cfg0.slots t 3)
abbrev h0_3 (t : Fin cfg0.N) : (m0_3 t).IsWhole := hstage0_3 ((cfg0.slots t 3).cast nbuf0_3)
abbrev m0_4 (t : Fin cfg0.N) : Memref sig .tc .vmem S1x1 .f32 := win0_4.stage (cfg0.slots t 4)
abbrev h0_4 (t : Fin cfg0.N) : (m0_4 t).IsWhole := hstage0_4 ((cfg0.slots t 4).cast nbuf0_4)
abbrev m0_5 (t : Fin cfg0.N) : Memref sig .tc .vmem S128x256 .f32 := win0_5.stage (cfg0.slots t 5)
abbrev h0_5 (t : Fin cfg0.N) : (m0_5 t).IsWhole := hstage0_5 ((cfg0.slots t 5).cast nbuf0_5)
abbrev m0_6 (t : Fin cfg0.N) : Memref sig .tc .vmem S1x256 .f32 := win0_6.stage (cfg0.slots t 6)
abbrev h0_6 (t : Fin cfg0.N) : (m0_6 t).IsWhole := hstage0_6 ((cfg0.slots t 6).cast nbuf0_6)
abbrev m1_0 (t : Fin cfg1.N) : Memref sig .tc .vmem S512x2048 .f32 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S2048x8 .f32 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S512x8 .f32 := win1_2.stage (cfg1.slots t 2)
abbrev h1_2 (t : Fin cfg1.N) : (m1_2 t).IsWhole := hstage1_2 ((cfg1.slots t 2).cast nbuf1_2)

/-- The accumulator row: the first call's scratch operand, a whole scoped buffer. -/
abbrev accM : Memref sig .tc .vmem S1x256 .f32 := Memref.whole cc0_scratch0
abbrev accV : View sig .tc .vmem S1x256 .f32 := accM.view
/-- One staging buffer of each output window of the first call: what a window holds is stated through it. -/
abbrev outV5 : View sig .tc .vmem S128x256 .f32 := (Memref.whole cc0_stg5_0 : Memref sig .tc .vmem S128x256 .f32).view
abbrev outV6 : View sig .tc .vmem S1x256 .f32 := (Memref.whole cc0_stg6_0 : Memref sig .tc .vmem S1x256 .f32).view

/-- The scoped buffers the first call neither stages nor uses: the second call's staging buffers, each at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The first call's invariant before its first point: the accumulator row at anything, the other scoped buffers at
    anything, the generator register at some state. -/
theorem PhiA0_eq (c : Dev nD) :
    (Pipeline.ΦA spec0 c : sProp 𝕄)
      = iprop(iprop((∃ d, owns (c : Thread nD τ) accM fullShare d) ∗ rest0 c) ∗ (∃ r, prngReg c r)) := by
  unfold Pipeline.ΦA; rw [scopedRest0_eq]; simp only [accM, owns_whole]; try rfl

end Cert.Kernel.Hand

end
-- ==== Proof.KB.RunFirst.lean ====
/-
  The first call's body where the inner grid coordinate is 0: the accumulator row, found at anything, is zeroed, the block of gated exponentials is stored, its column sums are added to the row; the denominator's block is not touched.
-/
import proofs.«103395_j30580167147772_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block(s) and in the accumulator row (last store first), with the
    proof that from whole staging memrefs at the stated contents the body runs to the continuation holding the inputs
    as they were and every stored buffer with its pieces written. -/
noncomputable def runFirst (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) :
    Σ' (L5 : List (View.Piece (Elt F) S128x256 .f32)), { LS : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6;
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

/-- The stores into the block of gated exponentials tile it (one whole store), so they cover it. -/
theorem runFirst_cover5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) (y : S128x256.Idx) :
    ∃ pc ∈ (runFirst c i arg2 harg2 arg3 harg3 arg4 harg4 arg5 harg5 arg6 harg6 arg7 harg7 arg8 harg8 arg9 harg9 hcF hcL x0 x1 x2 x3 x4).1, y ∈ pc.1.set :=
  View.cover_of_tiledL (runFirst c i arg2 harg2 arg3 harg3 arg4 harg4 arg5 harg5 arg6 harg6 arg7 harg7 arg8 harg8 arg9 harg9 hcF hcL x0 x1 x2 x3 x4).1 S128x256.size (by sl_kernel_rfl) y

/-- The stores into the accumulator row cover it. -/
theorem runFirst_coverS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) (y : S1x256.Idx) :
    ∃ pc ∈ (runFirst c i arg2 harg2 arg3 harg3 arg4 harg4 arg5 harg5 arg6 harg6 arg7 harg7 arg8 harg8 arg9 harg9 hcF hcL x0 x1 x2 x3 x4).2.1, y ∈ pc.1.set :=
  View.cover_of_tiledL (runFirst c i arg2 harg2 arg3 harg3 arg4 harg4 arg5 harg5 arg6 harg6 arg7 harg7 arg8 harg8 arg9 harg9 hcF hcL x0 x1 x2 x3 x4).2.1 S1x256.size (by sl_kernel_rfl) y

end Cert.Kernel.Hand

end
-- ==== Proof.KB.RunMid.lean ====
/-
  The first call's body where the inner grid coordinate is strictly between 0 and 15: the block of gated exponentials is stored and its column sums are added to the accumulator row, found at what the point before left; the denominator's block is not touched.
-/
import proofs.«103395_j30580167147772_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block(s) and in the accumulator row (last store first), with the
    proof that from whole staging memrefs at the stated contents the body runs to the continuation holding the inputs
    as they were and every stored buffer with its pieces written. -/
noncomputable def runMid (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) :
    Σ' (L5 : List (View.Piece (Elt F) S128x256 .f32)), { LS : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

/-- The stores into the block of gated exponentials tile it (one whole store), so they cover it. -/
theorem runMid_cover5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) (y : S128x256.Idx) :
    ∃ pc ∈ (runMid c i arg2 harg2 arg3 harg3 arg4 harg4 arg5 harg5 arg6 harg6 arg7 harg7 arg8 harg8 arg9 harg9 hcF hcL x0 x1 x2 x3 x4 xs).1, y ∈ pc.1.set :=
  View.cover_of_tiledL (runMid c i arg2 harg2 arg3 harg3 arg4 harg4 arg5 harg5 arg6 harg6 arg7 harg7 arg8 harg8 arg9 harg9 hcF hcL x0 x1 x2 x3 x4 xs).1 S128x256.size (by sl_kernel_rfl) y

/-- The stores into the accumulator row cover it. -/
theorem runMid_coverS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) (y : S1x256.Idx) :
    ∃ pc ∈ (runMid c i arg2 harg2 arg3 harg3 arg4 harg4 arg5 harg5 arg6 harg6 arg7 harg7 arg8 harg8 arg9 harg9 hcF hcL x0 x1 x2 x3 x4 xs).2.1, y ∈ pc.1.set :=
  View.cover_of_tiledL (runMid c i arg2 harg2 arg3 harg3 arg4 harg4 arg5 harg5 arg6 harg6 arg7 harg7 arg8 harg8 arg9 harg9 hcF hcL x0 x1 x2 x3 x4 xs).2.1 S1x256.size (by sl_kernel_rfl) y

end Cert.Kernel.Hand

end
-- ==== Proof.KB.RunLast.lean ====
/-
  The first call's body where the inner grid coordinate is 15: the block of gated exponentials is stored, its column sums are added to the accumulator row, found at what the point before left, and the row is copied to the denominator's block.
-/
import proofs.«103395_j30580167147772_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block(s) and in the accumulator row (last store first), with the
    proof that from whole staging memrefs at the stated contents the body runs to the continuation holding the inputs
    as they were and every stored buffer with its pieces written. -/
noncomputable def runLast (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) :
    Σ' (L5 : List (View.Piece (Elt F) S128x256 .f32)) (L6 : List (View.Piece (Elt F) S1x256 .f32)), { LS : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, ?_, fun E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

/-- The stores into the block of gated exponentials tile it (one whole store), so they cover it. -/
theorem runLast_cover5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) (y : S128x256.Idx) :
    ∃ pc ∈ (runLast c i arg2 harg2 arg3 harg3 arg4 harg4 arg5 harg5 arg6 harg6 arg7 harg7 arg8 harg8 arg9 harg9 hcF hcL x0 x1 x2 x3 x4 xs).1, y ∈ pc.1.set :=
  View.cover_of_tiledL (runLast c i arg2 harg2 arg3 harg3 arg4 harg4 arg5 harg5 arg6 harg6 arg7 harg7 arg8 harg8 arg9 harg9 hcF hcL x0 x1 x2 x3 x4 xs).1 S128x256.size (by sl_kernel_rfl) y

/-- The stores into the accumulator row cover it. -/
theorem runLast_coverS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) (y : S1x256.Idx) :
    ∃ pc ∈ (runLast c i arg2 harg2 arg3 harg3 arg4 harg4 arg5 harg5 arg6 harg6 arg7 harg7 arg8 harg8 arg9 harg9 hcF hcL x0 x1 x2 x3 x4 xs).2.2.1, y ∈ pc.1.set :=
  View.cover_of_tiledL (runLast c i arg2 harg2 arg3 harg3 arg4 harg4 arg5 harg5 arg6 harg6 arg7 harg7 arg8 harg8 arg9 harg9 hcF hcL x0 x1 x2 x3 x4 xs).2.2.1 S1x256.size (by sl_kernel_rfl) y

/-- The store into the denominator's block covers it. -/
theorem runLast_cover6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) (y : S1x256.Idx) :
    ∃ pc ∈ (runLast c i arg2 harg2 arg3 harg3 arg4 harg4 arg5 harg5 arg6 harg6 arg7 harg7 arg8 harg8 arg9 harg9 hcF hcL x0 x1 x2 x3 x4 xs).2.1, y ∈ pc.1.set :=
  View.cover_of_tiledL (runLast c i arg2 harg2 arg3 harg3 arg4 harg4 arg5 harg5 arg6 harg6 arg7 harg7 arg8 harg8 arg9 harg9 hcF hcL x0 x1 x2 x3 x4 xs).2.1 S1x256.size (by sl_kernel_rfl) y

end Cert.Kernel.Hand

end
-- ==== Proof.KB.Frame0.lean ====
/-
  The first call's proof data. After the body at grid point n (row block n % 16 of column block n / 16) the block of
  gated exponentials holds that point's store, the accumulator row holds the column sums of the row blocks 0 … n % 16
  of its column block (zeroed at n % 16 = 0, so nothing of the previous column block survives), and the denominator's
  block is stored only at n % 16 = 15, with the accumulator row. The body obligation follows the three cases.
-/
import proofs.«103395_j30580167147772_2_alg».proof.Proof.KB.RunFirst
import proofs.«103395_j30580167147772_2_alg».proof.Proof.KB.RunMid
import proofs.«103395_j30580167147772_2_alg».proof.Proof.KB.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a list of stores leaves in a block of gated exponentials, in a denominator block, in the accumulator row. -/
def rd5 (L : List (View.Piece (Elt F) S128x256 .f32)) : Vec F S128x256 .f32 := outV5.read (Elt F) (outV5.writes (Elt F) outV5.junk L)
def rd6 (L : List (View.Piece (Elt F) S1x256 .f32)) : Vec F S1x256 .f32 := outV6.read (Elt F) (outV6.writes (Elt F) outV6.junk L)
def rdS (L : List (View.Piece (Elt F) S1x256 .f32)) : Vec F S1x256 .f32 := accV.read (Elt F) (accV.writes (Elt F) accV.junk L)

/-- The three cases' runs at grid point `t`, on the memrefs the pipeline passes and the input blocks there. -/
def firstAt (c : Dev nD) (t : Fin cfg0.N) (hF : atFirst (grid0.coords t)) (hL : ¬atLast (grid0.coords t)) :=
  runFirst (F := F) c (grid0.coords t) (m0_0 t) (h0_0 t) (m0_1 t) (h0_1 t) (m0_2 t) (h0_2 t) (m0_3 t) (h0_3 t) (m0_4 t) (h0_4 t) (m0_5 t) (h0_5 t) (m0_6 t) (h0_6 t) accM (Memref.isWhole_whole _) hF hL (blk0 V c 0 t) (blk0 V c 1 t) (blk0 V c 2 t) (blk0 V c 3 t) (blk0 V c 4 t)
def midAt (c : Dev nD) (t : Fin cfg0.N) (hF : ¬atFirst (grid0.coords t)) (hL : ¬atLast (grid0.coords t)) (xs : Vec F S1x256 .f32) :=
  runMid (F := F) c (grid0.coords t) (m0_0 t) (h0_0 t) (m0_1 t) (h0_1 t) (m0_2 t) (h0_2 t) (m0_3 t) (h0_3 t) (m0_4 t) (h0_4 t) (m0_5 t) (h0_5 t) (m0_6 t) (h0_6 t) accM (Memref.isWhole_whole _) hF hL (blk0 V c 0 t) (blk0 V c 1 t) (blk0 V c 2 t) (blk0 V c 3 t) (blk0 V c 4 t) xs
def lastAt (c : Dev nD) (t : Fin cfg0.N) (hF : ¬atFirst (grid0.coords t)) (hL : atLast (grid0.coords t)) (xs : Vec F S1x256 .f32) :=
  runLast (F := F) c (grid0.coords t) (m0_0 t) (h0_0 t) (m0_1 t) (h0_1 t) (m0_2 t) (h0_2 t) (m0_3 t) (h0_3 t) (m0_4 t) (h0_4 t) (m0_5 t) (h0_5 t) (m0_6 t) (h0_6 t) accM (Memref.isWhole_whole _) hF hL (blk0 V c 0 t) (blk0 V c 1 t) (blk0 V c 2 t) (blk0 V c 3 t) (blk0 V c 4 t) xs

/-- THE ACCUMULATION: after the body at position `n`, the block of gated exponentials, the denominator's block (a
    placeholder where the point does not store it) and the accumulator row. -/
def held0 (c : Dev nD) : (n : ℕ) → n < cfg0.N → Vec F S128x256 .f32 × Vec F S1x256 .f32 × Vec F S1x256 .f32
  | 0, hn => (rd5 (firstAt V c ⟨0, hn⟩ ((atFirst_iff ⟨0, hn⟩).mpr (Nat.zero_mod _)) (fun h => by have := (atLast_iff ⟨0, hn⟩).mp h; simp at this)).1, rd6 [],
      rdS (firstAt V c ⟨0, hn⟩ ((atFirst_iff ⟨0, hn⟩).mpr (Nat.zero_mod _)) (fun h => by have := (atLast_iff ⟨0, hn⟩).mp h; simp at this)).2.1)
  | n + 1, hn =>
    if h0 : (n + 1) % 16 = 0 then
      (rd5 (firstAt V c ⟨n + 1, hn⟩ ((atFirst_iff ⟨n + 1, hn⟩).mpr h0) (fun h => by have := (atLast_iff ⟨n + 1, hn⟩).mp h; dsimp only at this; omega)).1, rd6 [],
        rdS (firstAt V c ⟨n + 1, hn⟩ ((atFirst_iff ⟨n + 1, hn⟩).mpr h0) (fun h => by have := (atLast_iff ⟨n + 1, hn⟩).mp h; dsimp only at this; omega)).2.1)
    else if h15 : (n + 1) % 16 = 15 then
      (rd5 (lastAt V c ⟨n + 1, hn⟩ (fun h => h0 ((atFirst_iff ⟨n + 1, hn⟩).mp h)) ((atLast_iff ⟨n + 1, hn⟩).mpr h15) (held0 c n (Nat.lt_of_succ_lt hn)).2.2).1,
        rd6 (lastAt V c ⟨n + 1, hn⟩ (fun h => h0 ((atFirst_iff ⟨n + 1, hn⟩).mp h)) ((atLast_iff ⟨n + 1, hn⟩).mpr h15) (held0 c n (Nat.lt_of_succ_lt hn)).2.2).2.1,
        rdS (lastAt V c ⟨n + 1, hn⟩ (fun h => h0 ((atFirst_iff ⟨n + 1, hn⟩).mp h)) ((atLast_iff ⟨n + 1, hn⟩).mpr h15) (held0 c n (Nat.lt_of_succ_lt hn)).2.2).2.2.1)
    else
      (rd5 (midAt V c ⟨n + 1, hn⟩ (fun h => h0 ((atFirst_iff ⟨n + 1, hn⟩).mp h)) (fun h => h15 ((atLast_iff ⟨n + 1, hn⟩).mp h)) (held0 c n (Nat.lt_of_succ_lt hn)).2.2).1, rd6 [],
        rdS (midAt V c ⟨n + 1, hn⟩ (fun h => h0 ((atFirst_iff ⟨n + 1, hn⟩).mp h)) (fun h => h15 ((atLast_iff ⟨n + 1, hn⟩).mp h)) (held0 c n (Nat.lt_of_succ_lt hn)).2.2).2.1)

/-- `held0` at a point whose inner coordinate is 0. -/
theorem held0_first (c : Dev nD) (t : Fin cfg0.N) (h0 : t.val % 16 = 0) (hF : atFirst (grid0.coords t)) (hL : ¬atLast (grid0.coords t)) :
    held0 V c t.val t.isLt = (rd5 (firstAt V c t hF hL).1, rd6 [], rdS (firstAt V c t hF hL).2.1) := by
  obtain ⟨n, hn⟩ := t
  cases n with
  | zero => rfl
  | succ n => exact (dif_pos h0).trans rfl

/-- `held0` at a point whose inner coordinate is 15: over the accumulator row the point before left. -/
theorem held0_last (c : Dev nD) (t : Fin cfg0.N) (h0 : ¬t.val % 16 = 0) (h15 : t.val % 16 = 15) (hF : ¬atFirst (grid0.coords t)) (hL : atLast (grid0.coords t)) :
    held0 V c t.val t.isLt = (rd5 (lastAt V c t hF hL (held0 V c (t.val - 1) (Nat.lt_of_le_of_lt (Nat.sub_le _ _) t.isLt)).2.2).1,
      rd6 (lastAt V c t hF hL (held0 V c (t.val - 1) (Nat.lt_of_le_of_lt (Nat.sub_le _ _) t.isLt)).2.2).2.1,
      rdS (lastAt V c t hF hL (held0 V c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_pos h15).trans rfl)

/-- `held0` at a point whose inner coordinate is strictly between: over the accumulator row the point before left. -/
theorem held0_mid (c : Dev nD) (t : Fin cfg0.N) (h0 : ¬t.val % 16 = 0) (h15 : ¬t.val % 16 = 15) (hF : ¬atFirst (grid0.coords t)) (hL : ¬atLast (grid0.coords t)) :
    held0 V c t.val t.isLt = (rd5 (midAt V c t hF hL (held0 V c (t.val - 1) (Nat.lt_of_le_of_lt (Nat.sub_le _ _) t.isLt)).2.2).1, rd6 [],
      rdS (midAt V c t hF hL (held0 V c (t.val - 1) (Nat.lt_of_le_of_lt (Nat.sub_le _ _) t.isLt)).2.2).2.1) := by
  obtain ⟨n, hn⟩ := t
  cases n with
  | zero => exact absurd (Nat.zero_mod _) h0
  | succ n => exact (dif_neg h0).trans ((dif_neg h15).trans rfl)

/-- The call's invariant before position `n`: before the first point every scoped buffer the call does not stage at
    anything; afterwards the accumulator row at what the point before left. -/
def Inv0 (c : Dev nD) : (n : ℕ) → n ≤ cfg0.N → sProp 𝕄
  | 0, _ => Pipeline.ΦA spec0 c
  | n + 1, hn => iprop(iprop(owns (c : Thread nD τ) accM fullShare ((held0 V c n hn).2.2) ∗ rest0 c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop(iprop(owns (c : Thread nD τ) accM fullShare ((held0 V c n hn).2.2) ∗ rest0 c) ∗ (∃ r, prngReg c r)) := rfl

theorem Inv0_pos (c : Dev nD) (n : ℕ) (h : n ≤ cfg0.N) (hz : n ≠ 0) :
    Inv0 V c n h = iprop(iprop(owns (c : Thread nD τ) accM fullShare ((held0 V c (n - 1) (by omega)).2.2) ∗ rest0 c) ∗ (∃ r, prngReg c r)) := by
  cases n with
  | zero => exact absurd rfl hz
  | succ n => rfl

/-- The first call's proof data on core `c`: the arrays as the call finds them; after the body each input's buffer at
    its block, the two outputs' at `held0`'s components; the invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => (held0 V c t.val t.isLt).1
    | ⟨6, _⟩ => (held0 V c t.val t.isLt).2.1
  Φ t := Inv0 V c t.val (Nat.le_of_lt_succ t.isLt)
  q _ := fullShare
  owed _ := 0

theorem A0_eq (c : Dev nD) (w : Fin cfg0.W) : (dat0 V c).A w = V c (Pipeline.arrRef spec0 w) := by
  dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = (held0 V c t.val t.isLt).1 := by dsimp only [dat0]
theorem after0_6 (c : Dev nD) (t : Fin cfg0.N) : (dat0 V c).after 6 t = (held0 V c t.val t.isLt).2.1 := by dsimp only [dat0]

theorem before0_0 (c : Dev nD) (t : Fin cfg0.N) (d) : (dat0 V c).before 0 t d = blk0 V c 0 t := keep0_0_of V (dat0 V c) (A0_eq V c 0) (after0_0 V c) t d
theorem before0_1 (c : Dev nD) (t : Fin cfg0.N) (d) : (dat0 V c).before 1 t d = blk0 V c 1 t := keep0_1_of V (dat0 V c) (A0_eq V c 1) (after0_1 V c) t d
theorem before0_2 (c : Dev nD) (t : Fin cfg0.N) (d) : (dat0 V c).before 2 t d = blk0 V c 2 t := keep0_2_of V (dat0 V c) (A0_eq V c 2) (after0_2 V c) t d
theorem before0_3 (c : Dev nD) (t : Fin cfg0.N) (d) : (dat0 V c).before 3 t d = blk0 V c 3 t := keep0_3_of V (dat0 V c) (A0_eq V c 3) (after0_3 V c) t d
theorem before0_4 (c : Dev nD) (t : Fin cfg0.N) (d) : (dat0 V c).before 4 t d = blk0 V c 4 t := keep0_4_of V (dat0 V c) (A0_eq V c 4) (after0_4 V c) t d

end Cert.Kernel.Hand

end
-- ==== Proof.KB.Body0.lean ====
/-
  The first call's body obligation at every grid point: which of the three cases the point is in is read off its
  position (inner coordinate 0, 15, or between); the accumulator row is handed to the body at what the point before
  left (at anything where it is about to be zeroed) and taken back at this point's contents.
-/
import proofs.«103395_j30580167147772_2_alg».proof.Proof.KB.Frame0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (m0_0 t) fullShare ((dat0 V c).before 0 t d))
    ∗ (∃ d, owns (c : Thread nD τ) (m0_1 t) fullShare ((dat0 V c).before 1 t d))
    ∗ (∃ d, owns (c : Thread nD τ) (m0_2 t) fullShare ((dat0 V c).before 2 t d))
    ∗ (∃ d, owns (c : Thread nD τ) (m0_3 t) fullShare ((dat0 V c).before 3 t d))
    ∗ (∃ d, owns (c : Thread nD τ) (m0_4 t) fullShare ((dat0 V c).before 4 t d))
    ∗ (∃ d, owns (c : Thread nD τ) (m0_5 t) fullShare ((dat0 V c).before 5 t d))
    ∗ (∃ d, owns (c : Thread nD τ) (m0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Inv0 V c (t.val + 1) t.isLt from rfl, Inv0_succ]
  have hN : t.val < 128 := lt_of_lt_of_eq t.isLt (show cfg0.N = 128 from N_0)
  rw [show (dat0 V c).leavesExact 0 t = owns (c : Thread nD τ) (m0_0 t) fullShare ((dat0 V c).after 0 t) from by
    unfold Dat.leavesExact; rw [live0_0 t], after0_0]
  rw [show (dat0 V c).leavesExact 1 t = owns (c : Thread nD τ) (m0_1 t) fullShare ((dat0 V c).after 1 t) from by
    unfold Dat.leavesExact; rw [live0_1 t], after0_1]
  rw [show (dat0 V c).leavesExact 2 t = owns (c : Thread nD τ) (m0_2 t) fullShare ((dat0 V c).after 2 t) from by
    unfold Dat.leavesExact; rw [live0_2 t], after0_2]
  rw [show (dat0 V c).leavesExact 3 t = owns (c : Thread nD τ) (m0_3 t) fullShare ((dat0 V c).after 3 t) from by
    unfold Dat.leavesExact; rw [live0_3 t], after0_3]
  rw [show (dat0 V c).leavesExact 4 t = owns (c : Thread nD τ) (m0_4 t) fullShare ((dat0 V c).after 4 t) from by
    unfold Dat.leavesExact; rw [live0_4 t], after0_4]
  rw [show (dat0 V c).leavesExact 5 t = owns (c : Thread nD τ) (m0_5 t) fullShare ((dat0 V c).after 5 t) from by
    unfold Dat.leavesExact; rw [live0_5 t], after0_5]
  by_cases h0 : t.val % 16 = 0
  · have hF : atFirst (grid0.coords t) := (atFirst_iff t).mpr h0
    have hL : ¬atLast (grid0.coords t) := fun h => by have := (atLast_iff t).mp h; omega
    rw [Dat.leavesExact_idle (dat0 V c) 6 t (idle0_6 t hL) (noFlush0_6 t hL)]
    rw [held0_first V c t h0 hF hL]
    unfold rd5 rdS firstAt; (try dsimp only)
    by_cases hz : t.val = 0
    · rw [Inv0_castSucc V c t, Inv0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst (F := F) c (grid0.coords t) _ _ _ _ _ _ _ _ _ _ _ _ _ _ _ _ hF hL (blk0 V c 0 t) (blk0 V c 1 t) (blk0 V c 2 t) (blk0 V c 3 t) (blk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (runFirst_coverS c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runFirst_cover5 c _ _ _ _ _ _ _ _ _ _ _ _ _ _ _ _ _ _ _ _ _ _ _ _)
      iexists _; iexact H6
    · rw [Inv0_castSucc V c t, Inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst (F := F) c (grid0.coords t) _ _ _ _ _ _ _ _ _ _ _ _ _ _ _ _ hF hL (blk0 V c 0 t) (blk0 V c 1 t) (blk0 V c 2 t) (blk0 V c 3 t) (blk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexists _; iexact HS
      iintro ⟨H0, H1, H2, H3, H4, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (runFirst_coverS c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runFirst_cover5 c _ _ _ _ _ _ _ _ _ _ _ _ _ _ _ _ _ _ _ _ _ _ _ _)
      iexists _; iexact H6
  · have hF : ¬atFirst (grid0.coords t) := fun h => h0 ((atFirst_iff t).mp h)
    have hz : t.val ≠ 0 := fun h => h0 (by rw [h])
    by_cases h15 : t.val % 16 = 15
    · have hL : atLast (grid0.coords t) := (atLast_iff t).mpr h15
      rw [show (dat0 V c).leavesExact 6 t = owns (c : Thread nD τ) (m0_6 t) fullShare ((dat0 V c).after 6 t) from by
        unfold Dat.leavesExact; rw [live0_6 t hL], after0_6]
      rw [held0_last V c t h0 h15 hF hL]
      unfold rd5 rd6 rdS lastAt; (try dsimp only)
      rw [Inv0_castSucc V c t, Inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast (F := F) c (grid0.coords t) _ _ _ _ _ _ _ _ _ _ _ _ _ _ _ _ hF hL (blk0 V c 0 t) (blk0 V c 1 t) (blk0 V c 2 t) (blk0 V c 3 t) (blk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, ⟨%e5, H5⟩, ⟨%e6, H6⟩, ⟨%es, HS⟩⟩
      isplitl [HS Hrest Hg]
      · isplitl [HS Hrest]
        · isplitl [HS]
          · unfold owns; iexists _; isplitr
            swap; · iexact HS
            ipureintro; exact View.read_writes_of_cover _ _ _ _ _ (runLast_coverS c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runLast_cover5 c _ _ _ _ _ _ _ _ _ _ _ _ _ _ _ _ _ _ _ _ _ _ _ _ _)
      unfold owns; iexists _; isplitr
      swap; · iexact H6
      ipureintro; exact View.read_writes_of_cover _ _ _ _ _ (runLast_cover6 c _ _ _ _ _ _ _ _ _ _ _ _ _ _ _ _ _ _ _ _ _ _ _ _ _)
    · have hL : ¬atLast (grid0.coords t) := fun h => h15 ((atLast_iff t).mp h)
      rw [Dat.leavesExact_idle (dat0 V c) 6 t (idle0_6 t hL) (noFlush0_6 t hL)]
      rw [held0_mid V c t h0 h15 hF hL]
      unfold rd5 rdS midAt; (try dsimp only)
      rw [Inv0_castSucc V c t, Inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid (F := F) c (grid0.coords t) _ _ _ _ _ _ _ _ _ _ _ _ _ _ _ _ hF hL (blk0 V c 0 t) (blk0 V c 1 t) (blk0 V c 2 t) (blk0 V c 3 t) (blk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (runMid_coverS c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runMid_cover5 c _ _ _ _ _ _ _ _ _ _ _ _ _ _ _ _ _ _ _ _ _ _ _ _ _)
      iexists _; iexact H6

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What a call is handed at entry is the invariant before the first point. -/
theorem inv0_in (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After any point but the first the invariant gives the scoped buffers back at anything: what the accumulator row
    holds is forgotten. -/
theorem inv0_back (c : Dev nD) (t : Fin (cfg0.N + 1)) (ht : t.val ≠ 0) : (dat0 V c).Φ t ⊢ Pipeline.ΦA spec0 c := by
  rw [show (dat0 V c).Φ t = Inv0 V c t.val (Nat.le_of_lt_succ t.isLt) from rfl, Inv0_pos V c _ _ ht, PhiA0_eq]
  iintro ⟨⟨HS, Hrest⟩, Hg⟩
  isplitl [HS Hrest]
  · isplitl [HS]
    · iexists _; iexact HS
    iexact Hrest
  iexact Hg

/-- The same after the last point. -/
theorem inv0_out (c : Dev nD) : (dat0 V c).Φ (Fin.last cfg0.N) ⊢ Pipeline.ΦA spec0 c :=
  inv0_back V c _ (by rw [Fin.val_last]; have : cfg0.N = 128 := N_0; omega)

end Cert.Kernel.Hand

end
-- ==== Proof.KB.RunW.lean ====
/-
  The second call's body on whole staging memrefs: one matrix product of the 512-row block of gated exponentials with
  the scaled value rows, stored whole into the output block.
-/
import proofs.«103395_j30580167147772_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rw0 : Rect S512x2048 := Rect.unit (s := S512x2048) ![0, 0] S512x2048.size inb_S512x2048_S512x2048_0_0
abbrev rw1 : Rect S2048x8 := Rect.unit (s := S2048x8) ![0, 0] S2048x8.size inb_S2048x8_S2048x8_0_0
abbrev rw2 : Rect S512x8 := Rect.unit (s := S512x8) ![0, 0] S512x8.size inb_S512x8_S512x8_0_0

/-- The output block after the body, from the two input blocks: its one store as a piece. -/
def outW (x0 : Vec F S512x2048 .f32) (x1 : Vec F S2048x8 .f32) : Vec F S512x8 .f32 :=
  View.canon [⟨rw2, k1_pay1 (View.ld x0 rw0) (View.ld x1 rw1)⟩]

/-- The one store tiles the block, so it covers it. -/
theorem coverW (p0 : Vec F S512x8 .f32) (y : S512x8.Idx) :
    ∃ pc ∈ ([⟨rw2, p0⟩] : List (View.Piece (Elt F) S512x8 .f32)), y ∈ pc.1.set :=
  View.cover_of_tiled [⟨rw2, p0⟩] S512x8.size (by rfl) y

set_option maxHeartbeats 2000000 in
/-- The body's triple: the inputs are handed back as found, the output block holds `outW` of them. -/
theorem soundW (c : Dev nD) (E : Set ℕ) (i : grid1.Coords) (arg1 : Memref sig .tc .vmem S512x2048 .f32) (harg1 : arg1.IsWhole) (arg2 : Memref sig .tc .vmem S2048x8 .f32) (harg2 : arg2.IsWhole) (arg3 : Memref sig .tc .vmem S512x8 .f32) (harg3 : arg3.IsWhole)
    (x0 : Vec F S512x2048 .f32) (x1 : Vec F S2048x8 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outW x0 x1)) -∗ K ⟨⟩))
      ⊢ wp frame (wpE (defs₀ (F := F)) Variants.none c none) E (cc1__wsum_kernel i arg1 harg1 arg2 harg2 arg3 harg3) K := by
  simp only [cc1__wsum_kernel_eq_skeleton]; unfold cc1__wsum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverW _)

end Cert.Kernel.Hand

end
-- ==== Proof.KB.Frame1.lean ====
/-
  The second call's proof data and body obligation: at each of its 4 grid points the body finds the 512-row block of
  gated exponentials and the whole array of scaled value rows, and leaves their matrix product in the output block.
-/
import proofs.«103395_j30580167147772_2_alg».proof.Proof.KB.RunW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second call's proof data on core `c`: the arrays as the call finds them; after the body each input's buffer
    at its block and the output's at the product of the two input blocks; the invariant the scoped buffers it does not
    stage at anything and the generator register at some state; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outW (blk1 V c 0 t) (blk1 V c 1 t)
  Φ _ := Pipeline.ΦA spec1 c
  q _ := fullShare
  owed _ := 0

theorem A1_eq (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outW (blk1 V c 0 t) (blk1 V c 1 t) := by dsimp only [dat1]

theorem before1_0 (c : Dev nD) (t : Fin cfg1.N) (d) : (dat1 V c).before 0 t d = blk1 V c 0 t := keep1_0_of V (dat1 V c) (A1_eq V c 0) (after1_0 V c) t d
theorem before1_1 (c : Dev nD) (t : Fin cfg1.N) (d) : (dat1 V c).before 1 t d = blk1 V c 1 t := keep1_1_of V (dat1 V c) (A1_eq V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (soundW c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The whole program as four segments — the host operations before the first call, the first call, the host operations
  between the calls, the second call — with the contents of every unscoped buffer named at each boundary: a host
  stretch leaves what its operations compute, a call leaves in its arrays what its write-backs fold to and everything
  else as found. Every weakly fair execution terminates with every unscoped buffer at the last boundary's contents;
  the argument arrays are among the buffers nothing writes.
-/
import proofs.«103395_j30580167147772_2_alg».proof.Proof.KB.Body0
import proofs.«103395_j30580167147772_2_alg».proof.Proof.KB.Frame1
import proofs.«103395_j30580167147772_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After the host operations before the first call. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first call: its arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem fin0 (c : Dev nD) (w : Fin cfg0.W) : (dat0 (E1 m ρ) c).arrAt w cfg0.N = E2 m ρ c (Pipeline.arrRef spec0 w) :=
  (B2_arr m ρ c w).symm
theorem keepOut0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the host operations between the calls. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the second call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem fin1 (c : Dev nD) (w : Fin cfg1.W) : (dat1 (E3 m ρ) c).arrAt w cfg1.N = E4 m ρ c (Pipeline.arrRef spec1 w) :=
  (B4_arr m ρ c w).symm
theorem keepOut1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ### No host operation and no call writes an argument array -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

/-- The geometric features are staged by the first call's first window and never written. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := (B2_arr m ρ c 0).trans (((dat0 (E1 m ρ) c).arrAt_in 0 rfl _).trans (A0_eq (E1 m ρ) c 0))
    _ = B0 m ρ c (Proc.devRef .tc main_arg1) := StableHlo.after_of_writes_sub hostOps0 _ hostOps0_writes (by decide)
    _ = m ((c : Thread nD τ).loc main_arg1) := rfl

theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

theorem B4_main_arg6 (c : Dev nD) : B4 m ρ c (Proc.devRef .tc main_arg6) = m ((c : Thread nD τ).loc main_arg6) :=
  calc B4 m ρ c (Proc.devRef .tc main_arg6)
    _ = B3 m ρ c (Proc.devRef .tc main_arg6) := B4_of_ne m ρ c main_arg6 (by decide)
    _ = B2 m ρ c (Proc.devRef .tc main_arg6) := StableHlo.after_of_writes_sub hostOps1 _ hostOps1_writes (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl

theorem B4_main_arg7 (c : Dev nD) : B4 m ρ c (Proc.devRef .tc main_arg7) = m ((c : Thread nD τ).loc main_arg7) :=
  calc B4 m ρ c (Proc.devRef .tc main_arg7)
    _ = B3 m ρ c (Proc.devRef .tc main_arg7) := B4_of_ne m ρ c main_arg7 (by decide)
    _ = B2 m ρ c (Proc.devRef .tc main_arg7) := StableHlo.after_of_writes_sub hostOps1 _ hostOps1_writes (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl

theorem B4_main_arg8 (c : Dev nD) : B4 m ρ c (Proc.devRef .tc main_arg8) = m ((c : Thread nD τ).loc main_arg8) :=
  calc B4 m ρ c (Proc.devRef .tc main_arg8)
    _ = B3 m ρ c (Proc.devRef .tc main_arg8) := B4_of_ne m ρ c main_arg8 (by decide)
    _ = B2 m ρ c (Proc.devRef .tc main_arg8) := StableHlo.after_of_writes_sub hostOps1 _ hostOps1_writes (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl

theorem B4_main_arg9 (c : Dev nD) : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := StableHlo.after_of_writes_sub hostOps1 _ hostOps1_writes (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl

/-! ## The proof data family and the thread state -/

abbrev admT : (p : Fin 2) → (pcfgs (F := F) p).Adm := fun p => (cfgs p).toPCfg_adm
/-- Both calls' proof data, each at the contents its call is entered from. -/
def pdats : (p : Fin 2) → (c : Dev nD) → Dat τ (Elt F) Unit ℕ (UR sig nD τ) ℕ (Pipeline.pin (pcfgs (F := F)) admT p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The calls as segments -/

set_option backward.isDefEq.respectTransparency.types false in
/-- Call 0 over the thread state: entered from every unscoped buffer at the contents before it, left at the contents
    after it; its arrays split out of the unscoped buffers and put back at what the write-backs leave; the scoped
    buffers and the generator register into the call's invariant and out; nothing owed; no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (admT (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h1.trans (inv0_in (E1 m ρ) c)
  hout c := by
    rw [Pipeline.ownSems0_none]
    have h1 : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (inv0_out (E1 m ρ) c).trans h1
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (fin0 m ρ c) (keepOut0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the contents
    after it; its arrays split out of the unscoped buffers and put back at what the write-backs leave; the scoped
    buffers and the generator register into the call's invariant and out; nothing owed; no semaphore of its own. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (fin1 m ρ c) (keepOut1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) admT (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, and every final memory holds each
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) admT (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B4_main_arg0 m ρ c),
      (h c _ (mem_uc main_arg1 (by decide))).trans (B4_main_arg1 m ρ c),
      (h c _ (mem_uc main_arg2 (by decide))).trans (B4_main_arg2 m ρ c),
      (h c _ (mem_uc main_arg3 (by decide))).trans (B4_main_arg3 m ρ c),
      (h c _ (mem_uc main_arg4 (by decide))).trans (B4_main_arg4 m ρ c),
      (h c _ (mem_uc main_arg5 (by decide))).trans (B4_main_arg5 m ρ c),
      (h c _ (mem_uc main_arg6 (by decide))).trans (B4_main_arg6 m ρ c),
      (h c _ (mem_uc main_arg7 (by decide))).trans (B4_main_arg7 m ρ c),
      (h c _ (mem_uc main_arg8 (by decide))).trans (B4_main_arg8 m ρ c),
      (h c _ (mem_uc main_arg9 (by decide))).trans (B4_main_arg9 m ρ c)⟩) (run_all m ρ)

end Cert.Kernel.Hand

end
-- ==== Proof.KI.Base.lean ====
/-
  What both pallas_calls' frame proofs are stated over: the blocks the windows read off the arrays as a call finds
  them, the two branch conditions of the first call's body in closed form over its 8 × 16 grid (the accumulator row
  is zeroed where the inner coordinate is 0 and copied to the denominator's block where it is 15), where the
  denominator's window is idle, and the staging and scratch memrefs.
-/
import proofs.«103395_j30580167147772_2_alg».proof.Proof.Gen.KernelIdeal.Launch
import proofs.«103395_j30580167147772_2_alg».proof.Proof.Gen.KernelIdeal.Skeleton
import proofs.«103395_j30580167147772_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block of the first call at grid point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second call at grid point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 0: whatever proof data has the entry contents as its array and leaves the block in place,
    the window's current staging buffer holds that block at every grid point, fetched there or not (where it is not
    fetched the block index has not moved). -/
theorem keep0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1 of call 0: whatever proof data has the entry contents as its array and leaves the block in place,
    the window's current staging buffer holds that block at every grid point, fetched there or not (where it is not
    fetched the block index has not moved). -/
theorem keep0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2 of call 0: whatever proof data has the entry contents as its array and leaves the block in place,
    the window's current staging buffer holds that block at every grid point, fetched there or not (where it is not
    fetched the block index has not moved). -/
theorem keep0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3 of call 0: whatever proof data has the entry contents as its array and leaves the block in place,
    the window's current staging buffer holds that block at every grid point, fetched there or not (where it is not
    fetched the block index has not moved). -/
theorem keep0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4 of call 0: whatever proof data has the entry contents as its array and leaves the block in place,
    the window's current staging buffer holds that block at every grid point, fetched there or not (where it is not
    fetched the block index has not moved). -/
theorem keep0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 0 of call 1: whatever proof data has the entry contents as its array and leaves the block in place,
    the window's current staging buffer holds that block at every grid point, fetched there or not (where it is not
    fetched the block index has not moved). -/
theorem keep1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1 of call 1: whatever proof data has the entry contents as its array and leaves the block in place,
    the window's current staging buffer holds that block at every grid point, fetched there or not (where it is not
    fetched the block index has not moved). -/
theorem keep1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end Blocks

/-! ## The first call's two branch conditions -/

/-- The body zeroes its accumulator row: the inner grid coordinate is 0. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body copies the accumulator row to the denominator's block: the inner grid coordinate is 15. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the first call's windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from the last inner coordinate the denominator's window is idle and not written back; there it is live. -/
theorem idle0_6 : ∀ t : Fin cfg0.N, ¬atLast (grid0.coords t) → cfg0.idle 6 (grid0.coords t) = true := by decide +kernel
theorem noFlush0_6 : ∀ t : Fin cfg0.N, ¬atLast (grid0.coords t) → (cfg0.win 6).flush t = false := by decide +kernel
theorem live0_6 : ∀ t : Fin cfg0.N, atLast (grid0.coords t) → cfg0.idle 6 (grid0.coords t) = false := by decide +kernel
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

/-! ## The memrefs the bodies are called with -/

abbrev m0_0 (t : Fin cfg0.N) : Memref sig .tc .vmem S128x256x64 .f32 := win0_0.stage (cfg0.slots t 0)
abbrev h0_0 (t : Fin cfg0.N) : (m0_0 t).IsWhole := hstage0_0 ((cfg0.slots t 0).cast nbuf0_0)
abbrev m0_1 (t : Fin cfg0.N) : Memref sig .tc .vmem S128x64 .f32 := win0_1.stage (cfg0.slots t 1)
abbrev h0_1 (t : Fin cfg0.N) : (m0_1 t).IsWhole := hstage0_1 ((cfg0.slots t 1).cast nbuf0_1)
abbrev m0_2 (t : Fin cfg0.N) : Memref sig .tc .vmem S256x64 .f32 := win0_2.stage (cfg0.slots t 2)
abbrev h0_2 (t : Fin cfg0.N) : (m0_2 t).IsWhole := hstage0_2 ((cfg0.slots t 2).cast nbuf0_2)
abbrev m0_3 (t : Fin cfg0.N) : Memref sig .tc .vmem S1x64 .f32 := win0_3.stage (cfg0.slots t 3)
abbrev h0_3 (t : Fin cfg0.N) : (m0_3 t).IsWhole := hstage0_3 ((cfg0.slots t 3).cast nbuf0_3)
abbrev m0_4 (t : Fin cfg0.N) : Memref sig .tc .vmem S1x1 .f32 := win0_4.stage (cfg0.slots t 4)
abbrev h0_4 (t : Fin cfg0.N) : (m0_4 t).IsWhole := hstage0_4 ((cfg0.slots t 4).cast nbuf0_4)
abbrev m0_5 (t : Fin cfg0.N) : Memref sig .tc .vmem S128x256 .f32 := win0_5.stage (cfg0.slots t 5)
abbrev h0_5 (t : Fin cfg0.N) : (m0_5 t).IsWhole := hstage0_5 ((cfg0.slots t 5).cast nbuf0_5)
abbrev m0_6 (t : Fin cfg0.N) : Memref sig .tc .vmem S1x256 .f32 := win0_6.stage (cfg0.slots t 6)
abbrev h0_6 (t : Fin cfg0.N) : (m0_6 t).IsWhole := hstage0_6 ((cfg0.slots t 6).cast nbuf0_6)
abbrev m1_0 (t : Fin cfg1.N) : Memref sig .tc .vmem S512x2048 .f32 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S2048x8 .f32 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S512x8 .f32 := win1_2.stage (cfg1.slots t 2)
abbrev h1_2 (t : Fin cfg1.N) : (m1_2 t).IsWhole := hstage1_2 ((cfg1.slots t 2).cast nbuf1_2)

/-- The accumulator row: the first call's scratch operand, a whole scoped buffer. -/
abbrev accM : Memref sig .tc .vmem S1x256 .f32 := Memref.whole cc0_scratch0
abbrev accV : View sig .tc .vmem S1x256 .f32 := accM.view
/-- One staging buffer of each output window of the first call: what a window holds is stated through it. -/
abbrev outV5 : View sig .tc .vmem S128x256 .f32 := (Memref.whole cc0_stg5_0 : Memref sig .tc .vmem S128x256 .f32).view
abbrev outV6 : View sig .tc .vmem S1x256 .f32 := (Memref.whole cc0_stg6_0 : Memref sig .tc .vmem S1x256 .f32).view

/-- The scoped buffers the first call neither stages nor uses: the second call's staging buffers, each at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The first call's invariant before its first point: the accumulator row at anything, the other scoped buffers at
    anything, the generator register at some state. -/
theorem PhiA0_eq (c : Dev nD) :
    (Pipeline.ΦA spec0 c : sProp 𝕄)
      = iprop(iprop((∃ d, owns (c : Thread nD τ) accM fullShare d) ∗ rest0 c) ∗ (∃ r, prngReg c r)) := by
  unfold Pipeline.ΦA; rw [scopedRest0_eq]; simp only [accM, owns_whole]; try rfl

end Cert.KernelIdeal.Hand

end
-- ==== Proof.KI.RunFirst.lean ====
/-
  The first call's body where the inner grid coordinate is 0: the accumulator row, found at anything, is zeroed, the block of gated exponentials is stored, its column sums are added to the row; the denominator's block is not touched.
-/
import proofs.«103395_j30580167147772_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block(s) and in the accumulator row (last store first), with the
    proof that from whole staging memrefs at the stated contents the body runs to the continuation holding the inputs
    as they were and every stored buffer with its pieces written. -/
noncomputable def runFirst (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) :
    Σ' (L5 : List (View.Piece (Elt F) S128x256 .f32)), { LS : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6;
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

/-- The stores into the block of gated exponentials tile it (one whole store), so they cover it. -/
theorem runFirst_cover5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) (y : S128x256.Idx) :
    ∃ pc ∈ (runFirst c i arg2 harg2 arg3 harg3 arg4 harg4 arg5 harg5 arg6 harg6 arg7 harg7 arg8 harg8 arg9 harg9 hcF hcL x0 x1 x2 x3 x4).1, y ∈ pc.1.set :=
  View.cover_of_tiledL (runFirst c i arg2 harg2 arg3 harg3 arg4 harg4 arg5 harg5 arg6 harg6 arg7 harg7 arg8 harg8 arg9 harg9 hcF hcL x0 x1 x2 x3 x4).1 S128x256.size (by sl_kernel_rfl) y

/-- The stores into the accumulator row cover it. -/
theorem runFirst_coverS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) (y : S1x256.Idx) :
    ∃ pc ∈ (runFirst c i arg2 harg2 arg3 harg3 arg4 harg4 arg5 harg5 arg6 harg6 arg7 harg7 arg8 harg8 arg9 harg9 hcF hcL x0 x1 x2 x3 x4).2.1, y ∈ pc.1.set :=
  View.cover_of_tiledL (runFirst c i arg2 harg2 arg3 harg3 arg4 harg4 arg5 harg5 arg6 harg6 arg7 harg7 arg8 harg8 arg9 harg9 hcF hcL x0 x1 x2 x3 x4).2.1 S1x256.size (by sl_kernel_rfl) y

end Cert.KernelIdeal.Hand

end
-- ==== Proof.KI.RunMid.lean ====
/-
  The first call's body where the inner grid coordinate is strictly between 0 and 15: the block of gated exponentials is stored and its column sums are added to the accumulator row, found at what the point before left; the denominator's block is not touched.
-/
import proofs.«103395_j30580167147772_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block(s) and in the accumulator row (last store first), with the
    proof that from whole staging memrefs at the stated contents the body runs to the continuation holding the inputs
    as they were and every stored buffer with its pieces written. -/
noncomputable def runMid (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) :
    Σ' (L5 : List (View.Piece (Elt F) S128x256 .f32)), { LS : List (View.Piece (Elt F) S1x256 .f32) //
      ∀ (xi6 : Vec F S1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, fun xi6 E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

/-- The stores into the block of gated exponentials tile it (one whole store), so they cover it. -/
theorem runMid_cover5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) (y : S128x256.Idx) :
    ∃ pc ∈ (runMid c i arg2 harg2 arg3 harg3 arg4 harg4 arg5 harg5 arg6 harg6 arg7 harg7 arg8 harg8 arg9 harg9 hcF hcL x0 x1 x2 x3 x4 xs).1, y ∈ pc.1.set :=
  View.cover_of_tiledL (runMid c i arg2 harg2 arg3 harg3 arg4 harg4 arg5 harg5 arg6 harg6 arg7 harg7 arg8 harg8 arg9 harg9 hcF hcL x0 x1 x2 x3 x4 xs).1 S128x256.size (by sl_kernel_rfl) y

/-- The stores into the accumulator row cover it. -/
theorem runMid_coverS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) (y : S1x256.Idx) :
    ∃ pc ∈ (runMid c i arg2 harg2 arg3 harg3 arg4 harg4 arg5 harg5 arg6 harg6 arg7 harg7 arg8 harg8 arg9 harg9 hcF hcL x0 x1 x2 x3 x4 xs).2.1, y ∈ pc.1.set :=
  View.cover_of_tiledL (runMid c i arg2 harg2 arg3 harg3 arg4 harg4 arg5 harg5 arg6 harg6 arg7 harg7 arg8 harg8 arg9 harg9 hcF hcL x0 x1 x2 x3 x4 xs).2.1 S1x256.size (by sl_kernel_rfl) y

end Cert.KernelIdeal.Hand

end
-- ==== Proof.KI.RunLast.lean ====
/-
  The first call's body where the inner grid coordinate is 15: the block of gated exponentials is stored, its column sums are added to the accumulator row, found at what the point before left, and the row is copied to the denominator's block.
-/
import proofs.«103395_j30580167147772_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block(s) and in the accumulator row (last store first), with the
    proof that from whole staging memrefs at the stated contents the body runs to the continuation holding the inputs
    as they were and every stored buffer with its pieces written. -/
noncomputable def runLast (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) :
    Σ' (L5 : List (View.Piece (Elt F) S128x256 .f32)) (L6 : List (View.Piece (Elt F) S1x256 .f32)), { LS : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__geom_gate_kernel i arg2 harg2 arg3 harg3 arg4 harg4 arg5 harg5 arg6 harg6 arg7 harg7 arg8 harg8 arg9 harg9) K } := by
  refine ⟨?_, ?_, ?_, fun E K => ?run⟩
  case run =>
    simp only [cc0__geom_gate_kernel_eq_skeleton]; unfold cc0__geom_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

/-- The stores into the block of gated exponentials tile it (one whole store), so they cover it. -/
theorem runLast_cover5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) (y : S128x256.Idx) :
    ∃ pc ∈ (runLast c i arg2 harg2 arg3 harg3 arg4 harg4 arg5 harg5 arg6 harg6 arg7 harg7 arg8 harg8 arg9 harg9 hcF hcL x0 x1 x2 x3 x4 xs).1, y ∈ pc.1.set :=
  View.cover_of_tiledL (runLast c i arg2 harg2 arg3 harg3 arg4 harg4 arg5 harg5 arg6 harg6 arg7 harg7 arg8 harg8 arg9 harg9 hcF hcL x0 x1 x2 x3 x4 xs).1 S128x256.size (by sl_kernel_rfl) y

/-- The stores into the accumulator row cover it. -/
theorem runLast_coverS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) (y : S1x256.Idx) :
    ∃ pc ∈ (runLast c i arg2 harg2 arg3 harg3 arg4 harg4 arg5 harg5 arg6 harg6 arg7 harg7 arg8 harg8 arg9 harg9 hcF hcL x0 x1 x2 x3 x4 xs).2.2.1, y ∈ pc.1.set :=
  View.cover_of_tiledL (runLast c i arg2 harg2 arg3 harg3 arg4 harg4 arg5 harg5 arg6 harg6 arg7 harg7 arg8 harg8 arg9 harg9 hcF hcL x0 x1 x2 x3 x4 xs).2.2.1 S1x256.size (by sl_kernel_rfl) y

/-- The store into the denominator's block covers it. -/
theorem runLast_cover6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) (y : S1x256.Idx) :
    ∃ pc ∈ (runLast c i arg2 harg2 arg3 harg3 arg4 harg4 arg5 harg5 arg6 harg6 arg7 harg7 arg8 harg8 arg9 harg9 hcF hcL x0 x1 x2 x3 x4 xs).2.1, y ∈ pc.1.set :=
  View.cover_of_tiledL (runLast c i arg2 harg2 arg3 harg3 arg4 harg4 arg5 harg5 arg6 harg6 arg7 harg7 arg8 harg8 arg9 harg9 hcF hcL x0 x1 x2 x3 x4 xs).2.1 S1x256.size (by sl_kernel_rfl) y

end Cert.KernelIdeal.Hand

end
-- ==== Proof.KI.Frame0.lean ====
/-
  The first call's proof data. After the body at grid point n (row block n % 16 of column block n / 16) the block of
  gated exponentials holds that point's store, the accumulator row holds the column sums of the row blocks 0 … n % 16
  of its column block (zeroed at n % 16 = 0, so nothing of the previous column block survives), and the denominator's
  block is stored only at n % 16 = 15, with the accumulator row. The body obligation follows the three cases.
-/
import proofs.«103395_j30580167147772_2_alg».proof.Proof.KI.RunFirst
import proofs.«103395_j30580167147772_2_alg».proof.Proof.KI.RunMid
import proofs.«103395_j30580167147772_2_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a list of stores leaves in a block of gated exponentials, in a denominator block, in the accumulator row. -/
def rd5 (L : List (View.Piece (Elt F) S128x256 .f32)) : Vec F S128x256 .f32 := outV5.read (Elt F) (outV5.writes (Elt F) outV5.junk L)
def rd6 (L : List (View.Piece (Elt F) S1x256 .f32)) : Vec F S1x256 .f32 := outV6.read (Elt F) (outV6.writes (Elt F) outV6.junk L)
def rdS (L : List (View.Piece (Elt F) S1x256 .f32)) : Vec F S1x256 .f32 := accV.read (Elt F) (accV.writes (Elt F) accV.junk L)

/-- The three cases' runs at grid point `t`, on the memrefs the pipeline passes and the input blocks there. -/
def firstAt (c : Dev nD) (t : Fin cfg0.N) (hF : atFirst (grid0.coords t)) (hL : ¬atLast (grid0.coords t)) :=
  runFirst (F := F) c (grid0.coords t) (m0_0 t) (h0_0 t) (m0_1 t) (h0_1 t) (m0_2 t) (h0_2 t) (m0_3 t) (h0_3 t) (m0_4 t) (h0_4 t) (m0_5 t) (h0_5 t) (m0_6 t) (h0_6 t) accM (Memref.isWhole_whole _) hF hL (blk0 V c 0 t) (blk0 V c 1 t) (blk0 V c 2 t) (blk0 V c 3 t) (blk0 V c 4 t)
def midAt (c : Dev nD) (t : Fin cfg0.N) (hF : ¬atFirst (grid0.coords t)) (hL : ¬atLast (grid0.coords t)) (xs : Vec F S1x256 .f32) :=
  runMid (F := F) c (grid0.coords t) (m0_0 t) (h0_0 t) (m0_1 t) (h0_1 t) (m0_2 t) (h0_2 t) (m0_3 t) (h0_3 t) (m0_4 t) (h0_4 t) (m0_5 t) (h0_5 t) (m0_6 t) (h0_6 t) accM (Memref.isWhole_whole _) hF hL (blk0 V c 0 t) (blk0 V c 1 t) (blk0 V c 2 t) (blk0 V c 3 t) (blk0 V c 4 t) xs
def lastAt (c : Dev nD) (t : Fin cfg0.N) (hF : ¬atFirst (grid0.coords t)) (hL : atLast (grid0.coords t)) (xs : Vec F S1x256 .f32) :=
  runLast (F := F) c (grid0.coords t) (m0_0 t) (h0_0 t) (m0_1 t) (h0_1 t) (m0_2 t) (h0_2 t) (m0_3 t) (h0_3 t) (m0_4 t) (h0_4 t) (m0_5 t) (h0_5 t) (m0_6 t) (h0_6 t) accM (Memref.isWhole_whole _) hF hL (blk0 V c 0 t) (blk0 V c 1 t) (blk0 V c 2 t) (blk0 V c 3 t) (blk0 V c 4 t) xs

/-- THE ACCUMULATION: after the body at position `n`, the block of gated exponentials, the denominator's block (a
    placeholder where the point does not store it) and the accumulator row. -/
def held0 (c : Dev nD) : (n : ℕ) → n < cfg0.N → Vec F S128x256 .f32 × Vec F S1x256 .f32 × Vec F S1x256 .f32
  | 0, hn => (rd5 (firstAt V c ⟨0, hn⟩ ((atFirst_iff ⟨0, hn⟩).mpr (Nat.zero_mod _)) (fun h => by have := (atLast_iff ⟨0, hn⟩).mp h; simp at this)).1, rd6 [],
      rdS (firstAt V c ⟨0, hn⟩ ((atFirst_iff ⟨0, hn⟩).mpr (Nat.zero_mod _)) (fun h => by have := (atLast_iff ⟨0, hn⟩).mp h; simp at this)).2.1)
  | n + 1, hn =>
    if h0 : (n + 1) % 16 = 0 then
      (rd5 (firstAt V c ⟨n + 1, hn⟩ ((atFirst_iff ⟨n + 1, hn⟩).mpr h0) (fun h => by have := (atLast_iff ⟨n + 1, hn⟩).mp h; dsimp only at this; omega)).1, rd6 [],
        rdS (firstAt V c ⟨n + 1, hn⟩ ((atFirst_iff ⟨n + 1, hn⟩).mpr h0) (fun h => by have := (atLast_iff ⟨n + 1, hn⟩).mp h; dsimp only at this; omega)).2.1)
    else if h15 : (n + 1) % 16 = 15 then
      (rd5 (lastAt V c ⟨n + 1, hn⟩ (fun h => h0 ((atFirst_iff ⟨n + 1, hn⟩).mp h)) ((atLast_iff ⟨n + 1, hn⟩).mpr h15) (held0 c n (Nat.lt_of_succ_lt hn)).2.2).1,
        rd6 (lastAt V c ⟨n + 1, hn⟩ (fun h => h0 ((atFirst_iff ⟨n + 1, hn⟩).mp h)) ((atLast_iff ⟨n + 1, hn⟩).mpr h15) (held0 c n (Nat.lt_of_succ_lt hn)).2.2).2.1,
        rdS (lastAt V c ⟨n + 1, hn⟩ (fun h => h0 ((atFirst_iff ⟨n + 1, hn⟩).mp h)) ((atLast_iff ⟨n + 1, hn⟩).mpr h15) (held0 c n (Nat.lt_of_succ_lt hn)).2.2).2.2.1)
    else
      (rd5 (midAt V c ⟨n + 1, hn⟩ (fun h => h0 ((atFirst_iff ⟨n + 1, hn⟩).mp h)) (fun h => h15 ((atLast_iff ⟨n + 1, hn⟩).mp h)) (held0 c n (Nat.lt_of_succ_lt hn)).2.2).1, rd6 [],
        rdS (midAt V c ⟨n + 1, hn⟩ (fun h => h0 ((atFirst_iff ⟨n + 1, hn⟩).mp h)) (fun h => h15 ((atLast_iff ⟨n + 1, hn⟩).mp h)) (held0 c n (Nat.lt_of_succ_lt hn)).2.2).2.1)

/-- `held0` at a point whose inner coordinate is 0. -/
theorem held0_first (c : Dev nD) (t : Fin cfg0.N) (h0 : t.val % 16 = 0) (hF : atFirst (grid0.coords t)) (hL : ¬atLast (grid0.coords t)) :
    held0 V c t.val t.isLt = (rd5 (firstAt V c t hF hL).1, rd6 [], rdS (firstAt V c t hF hL).2.1) := by
  obtain ⟨n, hn⟩ := t
  cases n with
  | zero => rfl
  | succ n => exact (dif_pos h0).trans rfl

/-- `held0` at a point whose inner coordinate is 15: over the accumulator row the point before left. -/
theorem held0_last (c : Dev nD) (t : Fin cfg0.N) (h0 : ¬t.val % 16 = 0) (h15 : t.val % 16 = 15) (hF : ¬atFirst (grid0.coords t)) (hL : atLast (grid0.coords t)) :
    held0 V c t.val t.isLt = (rd5 (lastAt V c t hF hL (held0 V c (t.val - 1) (Nat.lt_of_le_of_lt (Nat.sub_le _ _) t.isLt)).2.2).1,
      rd6 (lastAt V c t hF hL (held0 V c (t.val - 1) (Nat.lt_of_le_of_lt (Nat.sub_le _ _) t.isLt)).2.2).2.1,
      rdS (lastAt V c t hF hL (held0 V c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_pos h15).trans rfl)

/-- `held0` at a point whose inner coordinate is strictly between: over the accumulator row the point before left. -/
theorem held0_mid (c : Dev nD) (t : Fin cfg0.N) (h0 : ¬t.val % 16 = 0) (h15 : ¬t.val % 16 = 15) (hF : ¬atFirst (grid0.coords t)) (hL : ¬atLast (grid0.coords t)) :
    held0 V c t.val t.isLt = (rd5 (midAt V c t hF hL (held0 V c (t.val - 1) (Nat.lt_of_le_of_lt (Nat.sub_le _ _) t.isLt)).2.2).1, rd6 [],
      rdS (midAt V c t hF hL (held0 V c (t.val - 1) (Nat.lt_of_le_of_lt (Nat.sub_le _ _) t.isLt)).2.2).2.1) := by
  obtain ⟨n, hn⟩ := t
  cases n with
  | zero => exact absurd (Nat.zero_mod _) h0
  | succ n => exact (dif_neg h0).trans ((dif_neg h15).trans rfl)

/-- The call's invariant before position `n`: before the first point every scoped buffer the call does not stage at
    anything; afterwards the accumulator row at what the point before left. -/
def Inv0 (c : Dev nD) : (n : ℕ) → n ≤ cfg0.N → sProp 𝕄
  | 0, _ => Pipeline.ΦA spec0 c
  | n + 1, hn => iprop(iprop(owns (c : Thread nD τ) accM fullShare ((held0 V c n hn).2.2) ∗ rest0 c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop(iprop(owns (c : Thread nD τ) accM fullShare ((held0 V c n hn).2.2) ∗ rest0 c) ∗ (∃ r, prngReg c r)) := rfl

theorem Inv0_pos (c : Dev nD) (n : ℕ) (h : n ≤ cfg0.N) (hz : n ≠ 0) :
    Inv0 V c n h = iprop(iprop(owns (c : Thread nD τ) accM fullShare ((held0 V c (n - 1) (by omega)).2.2) ∗ rest0 c) ∗ (∃ r, prngReg c r)) := by
  cases n with
  | zero => exact absurd rfl hz
  | succ n => rfl

/-- The first call's proof data on core `c`: the arrays as the call finds them; after the body each input's buffer at
    its block, the two outputs' at `held0`'s components; the invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => (held0 V c t.val t.isLt).1
    | ⟨6, _⟩ => (held0 V c t.val t.isLt).2.1
  Φ t := Inv0 V c t.val (Nat.le_of_lt_succ t.isLt)
  q _ := fullShare
  owed _ := 0

theorem A0_eq (c : Dev nD) (w : Fin cfg0.W) : (dat0 V c).A w = V c (Pipeline.arrRef spec0 w) := by
  dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = (held0 V c t.val t.isLt).1 := by dsimp only [dat0]
theorem after0_6 (c : Dev nD) (t : Fin cfg0.N) : (dat0 V c).after 6 t = (held0 V c t.val t.isLt).2.1 := by dsimp only [dat0]

theorem before0_0 (c : Dev nD) (t : Fin cfg0.N) (d) : (dat0 V c).before 0 t d = blk0 V c 0 t := keep0_0_of V (dat0 V c) (A0_eq V c 0) (after0_0 V c) t d
theorem before0_1 (c : Dev nD) (t : Fin cfg0.N) (d) : (dat0 V c).before 1 t d = blk0 V c 1 t := keep0_1_of V (dat0 V c) (A0_eq V c 1) (after0_1 V c) t d
theorem before0_2 (c : Dev nD) (t : Fin cfg0.N) (d) : (dat0 V c).before 2 t d = blk0 V c 2 t := keep0_2_of V (dat0 V c) (A0_eq V c 2) (after0_2 V c) t d
theorem before0_3 (c : Dev nD) (t : Fin cfg0.N) (d) : (dat0 V c).before 3 t d = blk0 V c 3 t := keep0_3_of V (dat0 V c) (A0_eq V c 3) (after0_3 V c) t d
theorem before0_4 (c : Dev nD) (t : Fin cfg0.N) (d) : (dat0 V c).before 4 t d = blk0 V c 4 t := keep0_4_of V (dat0 V c) (A0_eq V c 4) (after0_4 V c) t d

end Cert.KernelIdeal.Hand

end
-- ==== Proof.KI.Body0.lean ====
/-
  The first call's body obligation at every grid point: which of the three cases the point is in is read off its
  position (inner coordinate 0, 15, or between); the accumulator row is handed to the body at what the point before
  left (at anything where it is about to be zeroed) and taken back at this point's contents.
-/
import proofs.«103395_j30580167147772_2_alg».proof.Proof.KI.Frame0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (m0_0 t) fullShare ((dat0 V c).before 0 t d))
    ∗ (∃ d, owns (c : Thread nD τ) (m0_1 t) fullShare ((dat0 V c).before 1 t d))
    ∗ (∃ d, owns (c : Thread nD τ) (m0_2 t) fullShare ((dat0 V c).before 2 t d))
    ∗ (∃ d, owns (c : Thread nD τ) (m0_3 t) fullShare ((dat0 V c).before 3 t d))
    ∗ (∃ d, owns (c : Thread nD τ) (m0_4 t) fullShare ((dat0 V c).before 4 t d))
    ∗ (∃ d, owns (c : Thread nD τ) (m0_5 t) fullShare ((dat0 V c).before 5 t d))
    ∗ (∃ d, owns (c : Thread nD τ) (m0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Inv0 V c (t.val + 1) t.isLt from rfl, Inv0_succ]
  have hN : t.val < 128 := lt_of_lt_of_eq t.isLt (show cfg0.N = 128 from N_0)
  rw [show (dat0 V c).leavesExact 0 t = owns (c : Thread nD τ) (m0_0 t) fullShare ((dat0 V c).after 0 t) from by
    unfold Dat.leavesExact; rw [live0_0 t], after0_0]
  rw [show (dat0 V c).leavesExact 1 t = owns (c : Thread nD τ) (m0_1 t) fullShare ((dat0 V c).after 1 t) from by
    unfold Dat.leavesExact; rw [live0_1 t], after0_1]
  rw [show (dat0 V c).leavesExact 2 t = owns (c : Thread nD τ) (m0_2 t) fullShare ((dat0 V c).after 2 t) from by
    unfold Dat.leavesExact; rw [live0_2 t], after0_2]
  rw [show (dat0 V c).leavesExact 3 t = owns (c : Thread nD τ) (m0_3 t) fullShare ((dat0 V c).after 3 t) from by
    unfold Dat.leavesExact; rw [live0_3 t], after0_3]
  rw [show (dat0 V c).leavesExact 4 t = owns (c : Thread nD τ) (m0_4 t) fullShare ((dat0 V c).after 4 t) from by
    unfold Dat.leavesExact; rw [live0_4 t], after0_4]
  rw [show (dat0 V c).leavesExact 5 t = owns (c : Thread nD τ) (m0_5 t) fullShare ((dat0 V c).after 5 t) from by
    unfold Dat.leavesExact; rw [live0_5 t], after0_5]
  by_cases h0 : t.val % 16 = 0
  · have hF : atFirst (grid0.coords t) := (atFirst_iff t).mpr h0
    have hL : ¬atLast (grid0.coords t) := fun h => by have := (atLast_iff t).mp h; omega
    rw [Dat.leavesExact_idle (dat0 V c) 6 t (idle0_6 t hL) (noFlush0_6 t hL)]
    rw [held0_first V c t h0 hF hL]
    unfold rd5 rdS firstAt; (try dsimp only)
    by_cases hz : t.val = 0
    · rw [Inv0_castSucc V c t, Inv0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst (F := F) c (grid0.coords t) _ _ _ _ _ _ _ _ _ _ _ _ _ _ _ _ hF hL (blk0 V c 0 t) (blk0 V c 1 t) (blk0 V c 2 t) (blk0 V c 3 t) (blk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (runFirst_coverS c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runFirst_cover5 c _ _ _ _ _ _ _ _ _ _ _ _ _ _ _ _ _ _ _ _ _ _ _ _)
      iexists _; iexact H6
    · rw [Inv0_castSucc V c t, Inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst (F := F) c (grid0.coords t) _ _ _ _ _ _ _ _ _ _ _ _ _ _ _ _ hF hL (blk0 V c 0 t) (blk0 V c 1 t) (blk0 V c 2 t) (blk0 V c 3 t) (blk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexists _; iexact HS
      iintro ⟨H0, H1, H2, H3, H4, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (runFirst_coverS c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runFirst_cover5 c _ _ _ _ _ _ _ _ _ _ _ _ _ _ _ _ _ _ _ _ _ _ _ _)
      iexists _; iexact H6
  · have hF : ¬atFirst (grid0.coords t) := fun h => h0 ((atFirst_iff t).mp h)
    have hz : t.val ≠ 0 := fun h => h0 (by rw [h])
    by_cases h15 : t.val % 16 = 15
    · have hL : atLast (grid0.coords t) := (atLast_iff t).mpr h15
      rw [show (dat0 V c).leavesExact 6 t = owns (c : Thread nD τ) (m0_6 t) fullShare ((dat0 V c).after 6 t) from by
        unfold Dat.leavesExact; rw [live0_6 t hL], after0_6]
      rw [held0_last V c t h0 h15 hF hL]
      unfold rd5 rd6 rdS lastAt; (try dsimp only)
      rw [Inv0_castSucc V c t, Inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast (F := F) c (grid0.coords t) _ _ _ _ _ _ _ _ _ _ _ _ _ _ _ _ hF hL (blk0 V c 0 t) (blk0 V c 1 t) (blk0 V c 2 t) (blk0 V c 3 t) (blk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, ⟨%e5, H5⟩, ⟨%e6, H6⟩, ⟨%es, HS⟩⟩
      isplitl [HS Hrest Hg]
      · isplitl [HS Hrest]
        · isplitl [HS]
          · unfold owns; iexists _; isplitr
            swap; · iexact HS
            ipureintro; exact View.read_writes_of_cover _ _ _ _ _ (runLast_coverS c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runLast_cover5 c _ _ _ _ _ _ _ _ _ _ _ _ _ _ _ _ _ _ _ _ _ _ _ _ _)
      unfold owns; iexists _; isplitr
      swap; · iexact H6
      ipureintro; exact View.read_writes_of_cover _ _ _ _ _ (runLast_cover6 c _ _ _ _ _ _ _ _ _ _ _ _ _ _ _ _ _ _ _ _ _ _ _ _ _)
    · have hL : ¬atLast (grid0.coords t) := fun h => h15 ((atLast_iff t).mp h)
      rw [Dat.leavesExact_idle (dat0 V c) 6 t (idle0_6 t hL) (noFlush0_6 t hL)]
      rw [held0_mid V c t h0 h15 hF hL]
      unfold rd5 rdS midAt; (try dsimp only)
      rw [Inv0_castSucc V c t, Inv0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid (F := F) c (grid0.coords t) _ _ _ _ _ _ _ _ _ _ _ _ _ _ _ _ hF hL (blk0 V c 0 t) (blk0 V c 1 t) (blk0 V c 2 t) (blk0 V c 3 t) (blk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (runMid_coverS c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (runMid_cover5 c _ _ _ _ _ _ _ _ _ _ _ _ _ _ _ _ _ _ _ _ _ _ _ _ _)
      iexists _; iexact H6

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What a call is handed at entry is the invariant before the first point. -/
theorem inv0_in (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After any point but the first the invariant gives the scoped buffers back at anything: what the accumulator row
    holds is forgotten. -/
theorem inv0_back (c : Dev nD) (t : Fin (cfg0.N + 1)) (ht : t.val ≠ 0) : (dat0 V c).Φ t ⊢ Pipeline.ΦA spec0 c := by
  rw [show (dat0 V c).Φ t = Inv0 V c t.val (Nat.le_of_lt_succ t.isLt) from rfl, Inv0_pos V c _ _ ht, PhiA0_eq]
  iintro ⟨⟨HS, Hrest⟩, Hg⟩
  isplitl [HS Hrest]
  · isplitl [HS]
    · iexists _; iexact HS
    iexact Hrest
  iexact Hg

/-- The same after the last point. -/
theorem inv0_out (c : Dev nD) : (dat0 V c).Φ (Fin.last cfg0.N) ⊢ Pipeline.ΦA spec0 c :=
  inv0_back V c _ (by rw [Fin.val_last]; have : cfg0.N = 128 := N_0; omega)

end Cert.KernelIdeal.Hand

end
-- ==== Proof.KI.RunW.lean ====
/-
  The second call's body on whole staging memrefs: one matrix product of the 512-row block of gated exponentials with
  the scaled value rows, stored whole into the output block.
-/
import proofs.«103395_j30580167147772_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rw0 : Rect S512x2048 := Rect.unit (s := S512x2048) ![0, 0] S512x2048.size inb_S512x2048_S512x2048_0_0
abbrev rw1 : Rect S2048x8 := Rect.unit (s := S2048x8) ![0, 0] S2048x8.size inb_S2048x8_S2048x8_0_0
abbrev rw2 : Rect S512x8 := Rect.unit (s := S512x8) ![0, 0] S512x8.size inb_S512x8_S512x8_0_0

/-- The output block after the body, from the two input blocks: its one store as a piece. -/
def outW (x0 : Vec F S512x2048 .f32) (x1 : Vec F S2048x8 .f32) : Vec F S512x8 .f32 :=
  View.canon [⟨rw2, k1_pay1 (View.ld x0 rw0) (View.ld x1 rw1)⟩]

/-- The one store tiles the block, so it covers it. -/
theorem coverW (p0 : Vec F S512x8 .f32) (y : S512x8.Idx) :
    ∃ pc ∈ ([⟨rw2, p0⟩] : List (View.Piece (Elt F) S512x8 .f32)), y ∈ pc.1.set :=
  View.cover_of_tiled [⟨rw2, p0⟩] S512x8.size (by rfl) y

set_option maxHeartbeats 2000000 in
/-- The body's triple: the inputs are handed back as found, the output block holds `outW` of them. -/
theorem soundW (c : Dev nD) (E : Set ℕ) (i : grid1.Coords) (arg1 : Memref sig .tc .vmem S512x2048 .f32) (harg1 : arg1.IsWhole) (arg2 : Memref sig .tc .vmem S2048x8 .f32) (harg2 : arg2.IsWhole) (arg3 : Memref sig .tc .vmem S512x8 .f32) (harg3 : arg3.IsWhole)
    (x0 : Vec F S512x2048 .f32) (x1 : Vec F S2048x8 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outW x0 x1)) -∗ K ⟨⟩))
      ⊢ wp frame (wpE (defs₀ (F := F)) Variants.none c none) E (cc1__wsum_kernel i arg1 harg1 arg2 harg2 arg3 harg3) K := by
  simp only [cc1__wsum_kernel_eq_skeleton]; unfold cc1__wsum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverW _)

end Cert.KernelIdeal.Hand

end
-- ==== Proof.KI.Frame1.lean ====
/-
  The second call's proof data and body obligation: at each of its 4 grid points the body finds the 512-row block of
  gated exponentials and the whole array of scaled value rows, and leaves their matrix product in the output block.
-/
import proofs.«103395_j30580167147772_2_alg».proof.Proof.KI.RunW

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second call's proof data on core `c`: the arrays as the call finds them; after the body each input's buffer
    at its block and the output's at the product of the two input blocks; the invariant the scoped buffers it does not
    stage at anything and the generator register at some state; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outW (blk1 V c 0 t) (blk1 V c 1 t)
  Φ _ := Pipeline.ΦA spec1 c
  q _ := fullShare
  owed _ := 0

theorem A1_eq (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outW (blk1 V c 0 t) (blk1 V c 1 t) := by dsimp only [dat1]

theorem before1_0 (c : Dev nD) (t : Fin cfg1.N) (d) : (dat1 V c).before 0 t d = blk1 V c 0 t := keep1_0_of V (dat1 V c) (A1_eq V c 0) (after1_0 V c) t d
theorem before1_1 (c : Dev nD) (t : Fin cfg1.N) (d) : (dat1 V c).before 1 t d = blk1 V c 1 t := keep1_1_of V (dat1 V c) (A1_eq V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (soundW c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as four segments — the host operations before the first call, the first call, the host operations
  between the calls, the second call — with the contents of every unscoped buffer named at each boundary: a host
  stretch leaves what its operations compute, a call leaves in its arrays what its write-backs fold to and everything
  else as found. Every weakly fair execution terminates with every unscoped buffer at the last boundary's contents;
  the argument arrays are among the buffers nothing writes.
-/
import proofs.«103395_j30580167147772_2_alg».proof.Proof.KI.Body0
import proofs.«103395_j30580167147772_2_alg».proof.Proof.KI.Frame1
import proofs.«103395_j30580167147772_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After the host operations before the first call. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first call: its arrays at what the write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem fin0 (c : Dev nD) (w : Fin cfg0.W) : (dat0 (E1 m ρ) c).arrAt w cfg0.N = E2 m ρ c (Pipeline.arrRef spec0 w) :=
  (B2_arr m ρ c w).symm
theorem keepOut0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the host operations between the calls. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the second call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem fin1 (c : Dev nD) (w : Fin cfg1.W) : (dat1 (E3 m ρ) c).arrAt w cfg1.N = E4 m ρ c (Pipeline.arrRef spec1 w) :=
  (B4_arr m ρ c w).symm
theorem keepOut1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ### No host operation and no call writes an argument array -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

/-- The geometric features are staged by the first call's first window and never written. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := (B2_arr m ρ c 0).trans (((dat0 (E1 m ρ) c).arrAt_in 0 rfl _).trans (A0_eq (E1 m ρ) c 0))
    _ = B0 m ρ c (Proc.devRef .tc main_arg1) := StableHlo.after_of_writes_sub hostOps0 _ hostOps0_writes (by decide)
    _ = m ((c : Thread nD τ).loc main_arg1) := rfl

theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

theorem B4_main_arg6 (c : Dev nD) : B4 m ρ c (Proc.devRef .tc main_arg6) = m ((c : Thread nD τ).loc main_arg6) :=
  calc B4 m ρ c (Proc.devRef .tc main_arg6)
    _ = B3 m ρ c (Proc.devRef .tc main_arg6) := B4_of_ne m ρ c main_arg6 (by decide)
    _ = B2 m ρ c (Proc.devRef .tc main_arg6) := StableHlo.after_of_writes_sub hostOps1 _ hostOps1_writes (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl

theorem B4_main_arg7 (c : Dev nD) : B4 m ρ c (Proc.devRef .tc main_arg7) = m ((c : Thread nD τ).loc main_arg7) :=
  calc B4 m ρ c (Proc.devRef .tc main_arg7)
    _ = B3 m ρ c (Proc.devRef .tc main_arg7) := B4_of_ne m ρ c main_arg7 (by decide)
    _ = B2 m ρ c (Proc.devRef .tc main_arg7) := StableHlo.after_of_writes_sub hostOps1 _ hostOps1_writes (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl

theorem B4_main_arg8 (c : Dev nD) : B4 m ρ c (Proc.devRef .tc main_arg8) = m ((c : Thread nD τ).loc main_arg8) :=
  calc B4 m ρ c (Proc.devRef .tc main_arg8)
    _ = B3 m ρ c (Proc.devRef .tc main_arg8) := B4_of_ne m ρ c main_arg8 (by decide)
    _ = B2 m ρ c (Proc.devRef .tc main_arg8) := StableHlo.after_of_writes_sub hostOps1 _ hostOps1_writes (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl

theorem B4_main_arg9 (c : Dev nD) : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := StableHlo.after_of_writes_sub hostOps1 _ hostOps1_writes (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl

/-! ## The proof data family and the thread state -/

abbrev admT : (p : Fin 2) → (pcfgs (F := F) p).Adm := fun p => (cfgs p).toPCfg_adm
/-- Both calls' proof data, each at the contents its call is entered from. -/
def pdats : (p : Fin 2) → (c : Dev nD) → Dat τ (Elt F) Unit ℕ (UR sig nD τ) ℕ (Pipeline.pin (pcfgs (F := F)) admT p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The calls as segments -/

set_option backward.isDefEq.respectTransparency.types false in
/-- Call 0 over the thread state: entered from every unscoped buffer at the contents before it, left at the contents
    after it; its arrays split out of the unscoped buffers and put back at what the write-backs leave; the scoped
    buffers and the generator register into the call's invariant and out; nothing owed; no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (admT (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h1.trans (inv0_in (E1 m ρ) c)
  hout c := by
    rw [Pipeline.ownSems0_none]
    have h1 : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (inv0_out (E1 m ρ) c).trans h1
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (fin0 m ρ c) (keepOut0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the contents
    after it; its arrays split out of the unscoped buffers and put back at what the write-backs leave; the scoped
    buffers and the generator register into the call's invariant and out; nothing owed; no semaphore of its own. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (fin1 m ρ c) (keepOut1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) admT (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, and every final memory holds each
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) admT (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B4_main_arg0 m ρ c),
      (h c _ (mem_uc main_arg1 (by decide))).trans (B4_main_arg1 m ρ c),
      (h c _ (mem_uc main_arg2 (by decide))).trans (B4_main_arg2 m ρ c),
      (h c _ (mem_uc main_arg3 (by decide))).trans (B4_main_arg3 m ρ c),
      (h c _ (mem_uc main_arg4 (by decide))).trans (B4_main_arg4 m ρ c),
      (h c _ (mem_uc main_arg5 (by decide))).trans (B4_main_arg5 m ρ c),
      (h c _ (mem_uc main_arg6 (by decide))).trans (B4_main_arg6 m ρ c),
      (h c _ (mem_uc main_arg7 (by decide))).trans (B4_main_arg7 m ρ c),
      (h c _ (mem_uc main_arg8 (by decide))).trans (B4_main_arg8 m ρ c),
      (h c _ (mem_uc main_arg9 (by decide))).trans (B4_main_arg9 m ρ c)⟩) (run_all m ρ)

end Cert.KernelIdeal.Hand

end
-- ==== Proof.Spec.lean ====
/-
  The mathematics of the gated relation attention, stated once over the argument arrays and over no program.

  Inputs: appearance features x[2048,128], geometric features geom[2048,2048,64], and the affine maps
  (Wv, bv) : 128 → 8, (Wk, bk), (Wq, bq) : 128 → 64, (Wg, bg) : 64 → 1. Everything is an extended real; a
  sum is EReal's, a quotient is `Ideal.div` (the product with the inverse off a zero divisor), `exp` is
  `Ideal.exp`.

    appear j s = Σ_d x j d · Wv d s + bv s                      the values
    key i e    = Σ_d x i d · Wk d e + bk e                      (`proj64` with Wk, bk)
    query j e  = Σ_d x j d · Wq d e + bq e                      (`proj64` with Wq, bq)
    logit i j  = (Σ_e key i e · query j e) · 1/8                1/8 = 1/√64
    gate i j   = max (Σ_d geom i j d · Wg d 0 + bg 0) 0         the rectified geometric weight
    wnom i j   = gate i j · exp (logit i j)
    denom j    = 0 + Σ_i wnom i j                               the column sums

  Two arrangements of the normalised weighted sum of the values:

    refOut i s = Σ_j (wnom i j / denom j) · appear j s          normalise the weights, then sum
    kerOut i s = Σ_j wnom i j · (appear j s / denom j)          scale the values, then sum

  They agree wherever no column sum is zero: off a zero divisor the quotient is the product with the
  inverse, so each term is  w · d⁻¹ · a  on one side and  w · (a · d⁻¹)  on the other, equal by the
  associativity and commutativity of the product of extended reals alone; no finiteness is used.
  AT a zero column sum they differ: every weight of that column is then zero, and  (0 / 0) · a = ⊥ · a
  while  0 · (a / 0) = 0 · (±∞) = 0.  The hypothesis `∀ j, denom j ≠ 0` is therefore necessary.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals over literal shapes of rank 1, 2 and 3. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-! ## The constant 1/8 -/

/-- The scale of the logits, 1/√64 = 1/8. -/
def scale : EReal := ((1 / 8 : ℝ) : EReal)

/-- The word `0x3E000000` denotes 2⁻³. -/
theorem ofBits_eighth : Ideal.ofBits .f32 0x3E000000#32 = scale := by
  unfold scale
  simp [Ideal.ofBits, Ideal.ieee, -EReal.coe_mul]; norm_num

/-- The word `0x42800000` denotes 64. -/
theorem ofBits_sixtyfour : Ideal.ofBits .f32 0x42800000#32 = ((64 : ℝ) : EReal) := by
  simp [Ideal.ofBits, Ideal.ieee, -EReal.coe_mul]; norm_num

/-- The word `0x3F800000` denotes 1. -/
theorem ofBits_one : Ideal.ofBits .f32 0x3F800000#32 = ((1 : ℝ) : EReal) := by
  simp [Ideal.ofBits, Ideal.ieee, -EReal.coe_mul]; norm_num

/-- √64 = 8. -/
theorem sqrt_sixtyfour : Ideal.sqrt ((64 : ℝ) : EReal) = ((8 : ℝ) : EReal) := by
  show (if (64 : ℝ) < 0 then (⊥ : EReal) else ((Real.sqrt 64 : ℝ) : EReal)) = _
  rw [if_neg (by norm_num), show (64 : ℝ) = 8 ^ 2 by norm_num, Real.sqrt_sq (by norm_num)]

/-- The quotient 1 / √64 computed from the words of 1 and 64 is the same 1/8. -/
theorem one_div_sqrt_sixtyfour :
    Ideal.div (Ideal.ofBits .f32 0x3F800000#32) (Ideal.sqrt (Ideal.ofBits .f32 0x42800000#32)) = scale := by
  rw [ofBits_one, ofBits_sixtyfour, sqrt_sixtyfour, Ideal.div_coe (by norm_num : (8 : ℝ) ≠ 0), ← EReal.coe_mul]
  unfold scale
  norm_num

/-! ## The intermediate arrays -/

/-- The values: the appearance features through (Wv, bv). -/
def appear (x : A2 2048 128) (Wv : A2 128 8) (bv : A1 8) (j : Fin 2048) (s : Fin 8) : EReal :=
  (∑ d : Fin 128, x (ix2 j d) * Wv (ix2 d s)) + bv (ix1 s)

/-- A key or query row: the appearance features through an affine map into 64 coordinates. -/
def proj64 (x : A2 2048 128) (W : A2 128 64) (b : A1 64) (i : Fin 2048) (e : Fin 64) : EReal :=
  (∑ d : Fin 128, x (ix2 i d) * W (ix2 d e)) + b (ix1 e)

/-- The appearance logit of the pair (i, j): key i against query j, scaled by 1/8. -/
def logit (x : A2 2048 128) (Wk : A2 128 64) (bk : A1 64) (Wq : A2 128 64) (bq : A1 64) (i j : Fin 2048) : EReal :=
  (∑ e : Fin 64, proj64 x Wk bk i e * proj64 x Wq bq j e) * scale

/-- The geometric weight of the pair (i, j), rectified. -/
def gate (geom : A3 2048 2048 64) (Wg : A2 64 1) (bg : A1 1) (i j : Fin 2048) : EReal :=
  max ((∑ d : Fin 64, geom (ix3 i j d) * Wg (ix2 d (0 : Fin 1))) + bg (ix1 (0 : Fin 1))) 0

/-- The unnormalised weight of the pair (i, j). -/
def wnom (x : A2 2048 128) (geom : A3 2048 2048 64) (Wk : A2 128 64) (bk : A1 64) (Wq : A2 128 64) (bq : A1 64)
    (Wg : A2 64 1) (bg : A1 1) (i j : Fin 2048) : EReal :=
  gate geom Wg bg i j * Ideal.exp (logit x Wk bk Wq bq i j)

/-- The normaliser of column j: the sum of the column's weights (onto a zero). -/
def denom (x : A2 2048 128) (geom : A3 2048 2048 64) (Wk : A2 128 64) (bk : A1 64) (Wq : A2 128 64) (bq : A1 64)
    (Wg : A2 64 1) (bg : A1 1) (j : Fin 2048) : EReal :=
  0 + ∑ i : Fin 2048, wnom x geom Wk bk Wq bq Wg bg i j

theorem denom_eq_sum (x : A2 2048 128) (geom : A3 2048 2048 64) (Wk : A2 128 64) (bk : A1 64) (Wq : A2 128 64)
    (bq : A1 64) (Wg : A2 64 1) (bg : A1 1) (j : Fin 2048) :
    denom x geom Wk bk Wq bq Wg bg j = ∑ i : Fin 2048, wnom x geom Wk bk Wq bq Wg bg i j := zero_add _

/-! ## The two arrangements of the result -/

/-- Normalise each weight by its column sum, then sum against the values. -/
def refOut (x : A2 2048 128) (geom : A3 2048 2048 64) (Wv : A2 128 8) (bv : A1 8) (Wk : A2 128 64) (bk : A1 64)
    (Wq : A2 128 64) (bq : A1 64) (Wg : A2 64 1) (bg : A1 1) (i : Fin 2048) (s : Fin 8) : EReal :=
  ∑ j : Fin 2048, Ideal.div (wnom x geom Wk bk Wq bq Wg bg i j) (denom x geom Wk bk Wq bq Wg bg j) * appear x Wv bv j s

/-- Divide each value row by its column sum, then sum the unnormalised weights against it. -/
def kerOut (x : A2 2048 128) (geom : A3 2048 2048 64) (Wv : A2 128 8) (bv : A1 8) (Wk : A2 128 64) (bk : A1 64)
    (Wq : A2 128 64) (bq : A1 64) (Wg : A2 64 1) (bg : A1 1) (i : Fin 2048) (s : Fin 8) : EReal :=
  ∑ j : Fin 2048, wnom x geom Wk bk Wq bq Wg bg i j * Ideal.div (appear x Wv bv j s) (denom x geom Wk bk Wq bq Wg bg j)

/-! ## The law that joins them -/

/-- Off a zero divisor, moving the divisor from one factor to the other changes nothing: both sides are the
    product of `w`, `a` and `d⁻¹`, and the product of extended reals is associative and commutative. -/
theorem div_mul_eq_mul_div {w d a : EReal} (hd : d ≠ 0) : Ideal.div w d * a = w * Ideal.div a d := by
  unfold Ideal.div
  rw [if_neg hd, if_neg hd, mul_assoc, mul_comm d⁻¹ a]

/-- The two arrangements agree where no column sum is zero. -/
theorem refOut_eq_kerOut (x : A2 2048 128) (geom : A3 2048 2048 64) (Wv : A2 128 8) (bv : A1 8) (Wk : A2 128 64)
    (bk : A1 64) (Wq : A2 128 64) (bq : A1 64) (Wg : A2 64 1) (bg : A1 1)
    (h : ∀ j : Fin 2048, denom x geom Wk bk Wq bq Wg bg j ≠ 0) (i : Fin 2048) (s : Fin 8) :
    refOut x geom Wv bv Wk bk Wq bq Wg bg i s = kerOut x geom Wv bv Wk bk Wq bq Wg bg i s :=
  Finset.sum_congr rfl fun j _ => div_mul_eq_mul_div (h j)

end Cert.Spec

end
-- ==== Proof.RefSpec.lean ====
/-
  The reference program's result, read index by index, is the specification's `refOut` of the argument arrays.

  Each stage of the reference (the generated read-at-an-index lemmas give one equation per operation) is read at
  an index built from its coordinates and identified with the array of the specification it computes: the value
  rows, the key and query rows, the scaled logits, the rectified geometric weights (whose operand is the
  geometric array flattened to 4194304 rows of 64 and back: row `i * 2048 + j`, so coordinate arithmetic
  recovers `(i, j, d)`), the unnormalised weights, the column sums, and last the sum over `j` of the normalised
  weight against the value row. The scale `1 / √64`, computed by the reference from the words of 1 and 64, is the
  specification's `1/8`.
-/
import proofs.«103395_j30580167147772_2_alg».proof.Proof.Gen.ReferenceIdeal.Read
import proofs.«103395_j30580167147772_2_alg».proof.Proof.Spec

noncomputable section

open scoped BigOperators

namespace Cert.RefSpec

open Cert.ReferenceIdeal Cert.ReferenceIdeal.Gen Cert.ReferenceIdeal.Read Idealize.ShloMosaic Idealize.ShloMosaic.ValueIdx

/-! ## Index equations: the composed index maps of the stages, at indices built from coordinates -/

theorem lidx_v0 (j : Fin 2048) (s : Fin 8) (k : Fin 128) : lidx_main_v0 (ix2 j s) k = ix2 j k :=
  funext fun a => by match a with | ⟨0, _⟩ => rfl | ⟨1, _⟩ => rfl
theorem ridx_v0 (j : Fin 2048) (s : Fin 8) (k : Fin 128) : ridx_main_v0 (ix2 j s) k = ix2 k s :=
  funext fun a => by match a with | ⟨0, _⟩ => rfl | ⟨1, _⟩ => rfl
theorem idx_v1_v2 (j : Fin 2048) (s : Fin 8) : idx_main_v1 (idx_main_v2 (ix2 j s)) = ix1 s :=
  funext fun a => by match a with | ⟨0, _⟩ => rfl

theorem lidx_v4 (i : Fin 2048) (e : Fin 64) (k : Fin 128) : lidx_main_v4 (ix2 i e) k = ix2 i k :=
  funext fun a => by match a with | ⟨0, _⟩ => rfl | ⟨1, _⟩ => rfl
theorem ridx_v4 (i : Fin 2048) (e : Fin 64) (k : Fin 128) : ridx_main_v4 (ix2 i e) k = ix2 k e :=
  funext fun a => by match a with | ⟨0, _⟩ => rfl | ⟨1, _⟩ => rfl
theorem idx_v5_v6 (i : Fin 2048) (e : Fin 64) : idx_main_v5 (idx_main_v6 (ix2 i e)) = ix1 e :=
  funext fun a => by match a with | ⟨0, _⟩ => rfl

theorem lidx_v8 (i : Fin 2048) (e : Fin 64) (k : Fin 128) : lidx_main_v8 (ix2 i e) k = ix2 i k :=
  funext fun a => by match a with | ⟨0, _⟩ => rfl | ⟨1, _⟩ => rfl
theorem ridx_v8 (i : Fin 2048) (e : Fin 64) (k : Fin 128) : ridx_main_v8 (ix2 i e) k = ix2 k e :=
  funext fun a => by match a with | ⟨0, _⟩ => rfl | ⟨1, _⟩ => rfl
theorem idx_v9_v10 (i : Fin 2048) (e : Fin 64) : idx_main_v9 (idx_main_v10 (ix2 i e)) = ix1 e :=
  funext fun a => by match a with | ⟨0, _⟩ => rfl

theorem lidx_v13 (i j : Fin 2048) (k : Fin 64) : lidx_main_v13 (ix2 i j) k = ix2 i k :=
  funext fun a => by match a with | ⟨0, _⟩ => rfl | ⟨1, _⟩ => rfl
theorem idx_v12_ridx_v13 (i j : Fin 2048) (k : Fin 64) : idx_main_v12 (ridx_main_v13 (ix2 i j) k) = ix2 j k :=
  funext fun a => by match a with | ⟨0, _⟩ => rfl | ⟨1, _⟩ => rfl

/-- Row `i * 2048 + j` of the flattened geometric array, column `k`, is entry `(i, j, k)`. -/
theorem idx_geom (i j : Fin 2048) (k : Fin 64) :
    idx_main_v18 (lidx_main_v19 (idx_main_v23 (ix2 i j)) k) = ix3 i j k :=
  funext fun a => by
    have hi := i.isLt; have hj := j.isLt; have hk := k.isLt
    match a with
    | ⟨0, _⟩ => exact Fin.ext (by show ((i.val * 2048 + j.val) / 1 * 64 + k.val) / 131072 = i.val; omega)
    | ⟨1, _⟩ => exact Fin.ext (by show ((i.val * 2048 + j.val) / 1 * 64 + k.val) / 64 % 2048 = j.val; omega)
    | ⟨2, _⟩ => exact Fin.ext (by show ((i.val * 2048 + j.val) / 1 * 64 + k.val) % 64 = k.val; omega)
theorem ridx_v19 (i j : Fin 2048) (k : Fin 64) : ridx_main_v19 (idx_main_v23 (ix2 i j)) k = ix2 k (0 : Fin 1) :=
  funext fun a => by match a with | ⟨0, _⟩ => rfl | ⟨1, _⟩ => exact Fin.ext rfl
theorem idx_v20_v21 (i j : Fin 2048) : idx_main_v20 (idx_main_v21 (idx_main_v23 (ix2 i j))) = ix1 (0 : Fin 1) :=
  funext fun a => by match a with | ⟨0, _⟩ => exact Fin.ext rfl

theorem idx_v27 (j : Fin 2048) (k : Fin 2048) : idx_main_v27 (ix1 j) k = ix2 k j :=
  funext fun a => by match a with | ⟨0, _⟩ => rfl | ⟨1, _⟩ => rfl
theorem idx_v28_v29 (i k : Fin 2048) : idx_main_v28 (idx_main_v29 (ix2 i k)) = ix1 k :=
  funext fun a => by match a with | ⟨0, _⟩ => rfl
theorem lidx_v31 (i : Fin 2048) (s : Fin 8) (k : Fin 2048) : lidx_main_v31 (ix2 i s) k = ix2 i k :=
  funext fun a => by match a with | ⟨0, _⟩ => rfl | ⟨1, _⟩ => rfl
theorem ridx_v31 (i : Fin 2048) (s : Fin 8) (k : Fin 2048) : ridx_main_v31 (ix2 i s) k = ix2 k s :=
  funext fun a => by match a with | ⟨0, _⟩ => rfl | ⟨1, _⟩ => rfl

/-! ## The stages -/

/-- The value rows. -/
theorem appear_eq (x0 : (⟨S2048x128, .f32⟩ : BufTy).Contents (Elt Ideal)) (x2 : (⟨S128x8, .f32⟩ : BufTy).Contents (Elt Ideal)) (x3 : (⟨S8, .f32⟩ : BufTy).Contents (Elt Ideal)) (j : Fin 2048) (s : Fin 8) :
    val_main_v3 (F := Ideal) x0 x2 x3 (ix2 j s) = Spec.appear x0 x2 x3 j s := by
  rw [val_main_v3_apply, val_main_v0_apply, val_main_v2_apply, val_main_v1_apply]
  simp only [lidx_v0, ridx_v0, idx_v1_v2, Ideal.addf_def]
  rfl

/-- The key rows. -/
theorem key_eq (x0 : (⟨S2048x128, .f32⟩ : BufTy).Contents (Elt Ideal)) (x4 : (⟨S128x64, .f32⟩ : BufTy).Contents (Elt Ideal)) (x5 : (⟨S64, .f32⟩ : BufTy).Contents (Elt Ideal)) (i : Fin 2048) (e : Fin 64) :
    val_main_v7 (F := Ideal) x0 x4 x5 (ix2 i e) = Spec.proj64 x0 x4 x5 i e := by
  rw [val_main_v7_apply, val_main_v4_apply, val_main_v6_apply, val_main_v5_apply]
  simp only [lidx_v4, ridx_v4, idx_v5_v6, Ideal.addf_def]
  rfl

/-- The query rows. -/
theorem query_eq (x0 : (⟨S2048x128, .f32⟩ : BufTy).Contents (Elt Ideal)) (x6 : (⟨S128x64, .f32⟩ : BufTy).Contents (Elt Ideal)) (x7 : (⟨S64, .f32⟩ : BufTy).Contents (Elt Ideal)) (j : Fin 2048) (e : Fin 64) :
    val_main_v11 (F := Ideal) x0 x6 x7 (ix2 j e) = Spec.proj64 x0 x6 x7 j e := by
  rw [val_main_v11_apply, val_main_v8_apply, val_main_v10_apply, val_main_v9_apply]
  simp only [lidx_v8, ridx_v8, idx_v9_v10, Ideal.addf_def]
  rfl

/-- The scale the reference computes, `1 / √64` from the words of 1 and 64, is 1/8. -/
theorem scale_eq (i : S2048x2048.Idx) : val_main_v16 (F := Ideal) i = Spec.scale := by
  rw [val_main_v16_apply, val_main_v15_apply, val_main_cst_0_apply, val_main_v14_apply, val_main_cst_apply]
  simp only [Ideal.hostDivf_def, Ideal.hostUnary_sqrt_def, Ideal.ofBits_def]
  exact Spec.one_div_sqrt_sixtyfour

/-- The scaled logits. -/
theorem logit_eq (x0 : (⟨S2048x128, .f32⟩ : BufTy).Contents (Elt Ideal)) (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal))
    (i j : Fin 2048) :
    val_main_v17 (F := Ideal) x0 x4 x5 x6 x7 (ix2 i j) = Spec.logit x0 x4 x5 x6 x7 i j := by
  rw [val_main_v17_apply, val_main_v13_apply, scale_eq]
  simp only [val_main_v12_apply, lidx_v13, idx_v12_ridx_v13, key_eq, query_eq, Ideal.mulf_def]
  rfl

/-- The rectified geometric weights. -/
theorem gate_eq (x1 : (⟨S2048x2048x64, .f32⟩ : BufTy).Contents (Elt Ideal)) (x8 : (⟨S64x1, .f32⟩ : BufTy).Contents (Elt Ideal)) (x9 : (⟨S1, .f32⟩ : BufTy).Contents (Elt Ideal)) (i j : Fin 2048) :
    val_main_v24 (F := Ideal) x1 x8 x9 (ix2 i j) = Spec.gate x1 x8 x9 i j := by
  rw [val_main_v24_apply, val_main_v23_apply, val_main_v22_apply, val_main_v19_apply, val_main_v21_apply,
    val_main_v20_apply, val_main_call0_v0_apply, val_main_call0_cst_apply]
  simp only [val_main_v18_apply, idx_geom, ridx_v19, idx_v20_v21, Ideal.addf_def, Ideal.maximumf_def, Ideal.ofBits_def,
    Ideal.ofBits_zero_f32]
  rfl

/-- The unnormalised weights. -/
theorem wnom_eq (x0 : (⟨S2048x128, .f32⟩ : BufTy).Contents (Elt Ideal)) (x1 : (⟨S2048x2048x64, .f32⟩ : BufTy).Contents (Elt Ideal)) (x4 : (⟨S128x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (i j : Fin 2048) :
    val_main_v26 (F := Ideal) x0 x1 x4 x5 x6 x7 x8 x9 (ix2 i j) = Spec.wnom x0 x1 x4 x5 x6 x7 x8 x9 i j := by
  rw [val_main_v26_apply, val_main_v25_apply, gate_eq, logit_eq]
  rfl

/-- The column sums. -/
theorem denom_eq (x0 : (⟨S2048x128, .f32⟩ : BufTy).Contents (Elt Ideal)) (x1 : (⟨S2048x2048x64, .f32⟩ : BufTy).Contents (Elt Ideal)) (x4 : (⟨S128x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (j : Fin 2048) :
    val_main_v27 (F := Ideal) x0 x1 x4 x5 x6 x7 x8 x9 (ix1 j) = Spec.denom x0 x1 x4 x5 x6 x7 x8 x9 j := by
  rw [val_main_v27_apply, val_main_cst_1_apply]
  simp only [idx_v27, wnom_eq, Ideal.ofBits_def, Ideal.ofBits_zero_f32]
  rfl

/-- The reference's result at `(i, s)`: the normalised weights of row `i` against column `s` of the values. -/
theorem result_eq (x0 : (⟨S2048x128, .f32⟩ : BufTy).Contents (Elt Ideal)) (x1 : (⟨S2048x2048x64, .f32⟩ : BufTy).Contents (Elt Ideal)) (x2 : (⟨S128x8, .f32⟩ : BufTy).Contents (Elt Ideal)) (x3 : (⟨S8, .f32⟩ : BufTy).Contents (Elt Ideal))
    (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal))
    (i : Fin 2048) (s : Fin 8) :
    val_main_v31 (F := Ideal) x0 x1 x2 x3 x4 x5 x6 x7 x8 x9 (ix2 i s) = Spec.refOut x0 x1 x2 x3 x4 x5 x6 x7 x8 x9 i s := by
  rw [val_main_v31_apply]
  simp only [lidx_v31, ridx_v31, val_main_v30_apply, val_main_v29_apply, val_main_v28_apply, idx_v28_v29, wnom_eq, denom_eq,
    appear_eq, Ideal.hostDivf_def]
  rfl

/-- The same as an equation of arrays. -/
theorem result_eq_fun (x0 : (⟨S2048x128, .f32⟩ : BufTy).Contents (Elt Ideal)) (x1 : (⟨S2048x2048x64, .f32⟩ : BufTy).Contents (Elt Ideal)) (x2 : (⟨S128x8, .f32⟩ : BufTy).Contents (Elt Ideal)) (x3 : (⟨S8, .f32⟩ : BufTy).Contents (Elt Ideal))
    (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) :
    val_main_v31 (F := Ideal) x0 x1 x2 x3 x4 x5 x6 x7 x8 x9
      = fun i : S2048x8.Idx => Spec.refOut x0 x1 x2 x3 x4 x5 x6 x7 x8 x9 (i 0) (i 1) := by
  funext i
  obtain ⟨a, b, rfl⟩ : ∃ (a : Fin 2048) (b : Fin 8), i = ix2 a b := ⟨i 0, i 1, eq_ix2 i⟩
  exact result_eq x0 x1 x2 x3 x4 x5 x6 x7 x8 x9 a b

end Cert.RefSpec

end
-- ==== Proof.PreSpec.lean ====
/-
  What the precondition gives the law: no column sum is zero.

  The precondition is a conjunction of one-bit facts, the last of which says that every entry of the row of column
  sums differs from zero. That row is computed by the same operations, in the same order, as the reference computes
  its own normaliser (the key and query rows, their scaled products, the rectified geometric weights, the exponential,
  the product, the sum over the first axis onto a zero), so it is the reference's stage for that sum, hence the
  specification's `denom` read at an index. A conjunction of bits that is one has every conjunct one; a reduction by
  `and` over all axes that is one has every element one; and the element at `(0, j)` is the comparison "column sum `j`
  is not `0`", which is one exactly when the two extended reals differ.
-/
import proofs.«103395_j30580167147772_2_alg».proof.Proof.Gen.Pre_finite_inputs
import proofs.«103395_j30580167147772_2_alg».proof.Proof.RefSpec
import Idealize.ShloMosaic.Lib.ReduceAll
import Idealize.ShloMosaic.Lib.Pipeline.Value
import Idealize.ShloMosaic.PureOps.Ideal.Laws

noncomputable section

open scoped BigOperators

namespace Cert.PreSpec

open Idealize.ShloMosaic Idealize.ShloMosaic.ValueIdx Cert.Pre_finite_inputs Cert.Pre_finite_inputs.Gen

/-- The scalar shape has one index. -/
instance : Subsingleton Cert.Pre_finite_inputs.S_.Idx := ⟨fun a b => funext fun d => d.elim0⟩

/-- A row `D` of 2048 extended reals, broadcast to one row of a `1 × 2048` array and compared entry by entry with a
    broadcast zero for "differs": if the conjunction of all the comparison bits is one, no entry of `D` is zero. -/
theorem ne_zero_of_all (D : FVec Ideal Cert.Pre_finite_inputs.S2048 .f32)
    (hb1 : Cert.Pre_finite_inputs.S2048.BroadcastsInDim Cert.Pre_finite_inputs.S1x2048 (![1] : Fin 1 → Fin Cert.Pre_finite_inputs.S1x2048.rank))
    (hb0 : Cert.Pre_finite_inputs.S_.BroadcastsInDim Cert.Pre_finite_inputs.S1x2048 (![] : Fin 0 → Fin Cert.Pre_finite_inputs.S1x2048.rank))
    (hr : Cert.Pre_finite_inputs.S1x2048.ReducesTo [0, 1] Cert.Pre_finite_inputs.S_) (hu : 0 < Cert.Pre_finite_inputs.S_.numel)
    (h : Host.reduce IntOp.andi (cmpf .une (broadcastInDim Cert.Pre_finite_inputs.S1x2048 ![1] hb1 D)
        (broadcastInDim Cert.Pre_finite_inputs.S1x2048 ![] hb0 (constant (F := Ideal) Cert.Pre_finite_inputs.S_ .f32 0x00000000#32)))
        (constantI Cert.Pre_finite_inputs.S_ 1 1#1) hr hu ix0 = 1#1) (j : Fin 2048) : D (ix1 j) ≠ 0 := by
  -- every comparison bit is one, in particular the one at (0, j)
  have h2 := Host.reduce_andi_all _ _ hr hu ix0 h (ix2 (0 : Fin 1) j)
  -- entry (0, j) of the broadcast row is entry j of the row; the broadcast zero is zero
  have e1 : broadcastInDim Cert.Pre_finite_inputs.S1x2048 ![1] hb1 D (ix2 (0 : Fin 1) j) = D (ix1 j) :=
    broadcastInDim_apply _ hb1 D _ (ix1 j) (fun a => match a with
      | ⟨0, _⟩ => by show j.val = if (2048 : Nat) = 1 then 0 else j.val; rw [if_neg (by decide)])
  have e0 : broadcastInDim Cert.Pre_finite_inputs.S1x2048 ![] hb0 (constant (F := Ideal) Cert.Pre_finite_inputs.S_ .f32 0x00000000#32)
      (ix2 (0 : Fin 1) j) = (0 : EReal) := Ideal.ofBits_zero_f32
  rw [cmpf_apply, e1, e0] at h2
  -- were the entry zero, the bit of "0 differs from 0" would be one
  intro hz
  rw [hz] at h2
  simp [Ideal.cmpf_def, Ideal.cmp] at h2

/-- Under the precondition no column sum of the unnormalised weights is zero. -/
theorem denom_ne_zero (a0 : FVec Ideal Cert.Pre_finite_inputs.S2048x128 .f32) (a1 : FVec Ideal Cert.Pre_finite_inputs.S2048x2048x64 .f32) (a2 : FVec Ideal Cert.Pre_finite_inputs.S128x8 .f32) (a3 : FVec Ideal Cert.Pre_finite_inputs.S8 .f32)
    (a4 : FVec Ideal Cert.Pre_finite_inputs.S128x64 .f32) (a5 : FVec Ideal Cert.Pre_finite_inputs.S64 .f32) (a6 : FVec Ideal Cert.Pre_finite_inputs.S128x64 .f32) (a7 : FVec Ideal Cert.Pre_finite_inputs.S64 .f32) (a8 : FVec Ideal Cert.Pre_finite_inputs.S64x1 .f32) (a9 : FVec Ideal Cert.Pre_finite_inputs.S1 .f32)
    (h : Cert.Pre_finite_inputs.fn (F := Ideal) a0 a1 a2 a3 a4 a5 a6 a7 a8 a9 = (fun _ => 1#1)) (j : Fin 2048) :
    Spec.denom a0 a1 a4 a5 a6 a7 a8 a9 j ≠ 0 := by
  -- the precondition's one bit, opened down to its last conjunction
  have h0 := congrFun h ix0
  dsimp only [Cert.Pre_finite_inputs.fn, fn_part1, fn_part2, fn_part3, fn_part4] at h0
  -- its last conjunct: all entries of the row of column sums differ from zero
  have h1 := (IntOp.andi_eq_one.1 h0).2
  clear h0 h
  have h2 := ne_zero_of_all _ _ _ _ _ h1 j
  clear h1
  -- the row of column sums is the reference's stage for its normaliser: the same operations of the same arrays
  have h3 : Cert.ReferenceIdeal.Read.val_main_v27 (F := Ideal) a0 a1 a4 a5 a6 a7 a8 a9 (ix1 j) ≠ 0 := h2
  rw [Cert.RefSpec.denom_eq] at h3
  exact h3

end Cert.PreSpec

end
-- ==== Proof.AlgOf.lean ====
/-
  The algebraic claim, assembled from its three parts.

  The specification gives two arrangements of the normalised weighted sum of the values: the reference's, which
  normalises each weight by its column sum and then sums against the values, and the kernel's, which divides each
  value row by its column sum and then sums the unnormalised weights against it. They agree wherever no column sum is
  zero, and the precondition says that none is. The reference's result is the first arrangement of its arguments. So,
  GIVEN that the kernel's result array ends at the second arrangement of its arguments, element by element (the
  hypothesis of the theorem below), both programs run, end with the first arrangement of the same arguments, and
  leave their arguments unchanged.
-/
import proofs.«103395_j30580167147772_2_alg».proof.Defs
import proofs.«103395_j30580167147772_2_alg».proof.Proof.Gen.KernelIdeal
import proofs.«103395_j30580167147772_2_alg».proof.Proof.Gen.ReferenceIdeal
import proofs.«103395_j30580167147772_2_alg».proof.Proof.Gen.Pre_finite_inputs
import proofs.«103395_j30580167147772_2_alg».proof.Proof.Gen.ReferenceIdeal.Run
import proofs.«103395_j30580167147772_2_alg».proof.Proof.Gen.ReferenceIdeal.Read
import proofs.«103395_j30580167147772_2_alg».proof.Proof.KI.Run
import proofs.«103395_j30580167147772_2_alg».proof.Proof.Spec
import proofs.«103395_j30580167147772_2_alg».proof.Proof.RefSpec
import proofs.«103395_j30580167147772_2_alg».proof.Proof.PreSpec

noncomputable section

namespace Cert.AlgOf

open Idealize.ShloMosaic Idealize.ShloMosaic.TcCoe Idealize.SL.Sem Idealize.ShloMosaic.ValueIdx

/-- If the kernel's result array holds, at every (i, s), the scale-the-values-then-sum arrangement of the argument
    arrays, then the kernel and the reference, from memories agreeing on the arguments and satisfying the
    precondition, both run and end with equal results and unchanged arguments: the common result is the
    normalise-then-sum arrangement, which the reference computes, and which equals the kernel's arrangement because
    the precondition makes every column sum differ from zero. -/
theorem algebraic_of
    (hk : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD) (i : Fin 2048) (s : Fin 8),
      (Cert.KernelIdeal.Hand.B4 (F := Ideal) m ρ c (Proc.devRef .tc Cert.KernelIdeal.main_v18) : Cert.KernelIdeal.S2048x8.Idx → EReal) (ix2 i s)
        = Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) i s) :
    Cert.algebraic_KernelIdeal_ReferenceIdeal := by
  intro m ρ m' ρ' hpre hagree
  refine ⟨fun c => (fun idx : Cert.ReferenceIdeal.S2048x8.Idx => Cert.Spec.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (idx 0) (idx 1)), ?_, ?_⟩
  · refine (θ_run Cert.KernelIdeal.defs _ _).mono (fun r h c => ⟨?_,
      (h c _ (Cert.KernelIdeal.Hand.mem_uc Cert.KernelIdeal.main_arg0 (by decide))).trans (Cert.KernelIdeal.Hand.B4_main_arg0 m ρ c),
      (h c _ (Cert.KernelIdeal.Hand.mem_uc Cert.KernelIdeal.main_arg1 (by decide))).trans (Cert.KernelIdeal.Hand.B4_main_arg1 m ρ c),
      (h c _ (Cert.KernelIdeal.Hand.mem_uc Cert.KernelIdeal.main_arg2 (by decide))).trans (Cert.KernelIdeal.Hand.B4_main_arg2 m ρ c),
      (h c _ (Cert.KernelIdeal.Hand.mem_uc Cert.KernelIdeal.main_arg3 (by decide))).trans (Cert.KernelIdeal.Hand.B4_main_arg3 m ρ c),
      (h c _ (Cert.KernelIdeal.Hand.mem_uc Cert.KernelIdeal.main_arg4 (by decide))).trans (Cert.KernelIdeal.Hand.B4_main_arg4 m ρ c),
      (h c _ (Cert.KernelIdeal.Hand.mem_uc Cert.KernelIdeal.main_arg5 (by decide))).trans (Cert.KernelIdeal.Hand.B4_main_arg5 m ρ c),
      (h c _ (Cert.KernelIdeal.Hand.mem_uc Cert.KernelIdeal.main_arg6 (by decide))).trans (Cert.KernelIdeal.Hand.B4_main_arg6 m ρ c),
      (h c _ (Cert.KernelIdeal.Hand.mem_uc Cert.KernelIdeal.main_arg7 (by decide))).trans (Cert.KernelIdeal.Hand.B4_main_arg7 m ρ c),
      (h c _ (Cert.KernelIdeal.Hand.mem_uc Cert.KernelIdeal.main_arg8 (by decide))).trans (Cert.KernelIdeal.Hand.B4_main_arg8 m ρ c),
      (h c _ (Cert.KernelIdeal.Hand.mem_uc Cert.KernelIdeal.main_arg9 (by decide))).trans (Cert.KernelIdeal.Hand.B4_main_arg9 m ρ c)⟩)
      (Cert.KernelIdeal.Hand.run_all (F := Ideal) m ρ)
    refine (h c _ (Cert.KernelIdeal.Hand.mem_uc Cert.KernelIdeal.main_v18 (by decide))).trans ?_
    funext idx
    obtain ⟨i, s, rfl⟩ : ∃ (i : Fin 2048) (s : Fin 8), idx = ix2 i s := ⟨idx 0, idx 1, eq_ix2 idx⟩
    refine (hk m ρ c i s).trans ?_
    exact (Cert.Spec.refOut_eq_kerOut _ _ _ _ _ _ _ _ _ _
      (fun j => Cert.PreSpec.denom_ne_zero _ _ _ _ _ _ _ _ _ _ (hpre c) j) i s).symm
  · refine (θ_run Cert.ReferenceIdeal.defs _ _).mono (fun _ h c => ⟨?_, (h c).2⟩)
      (Cert.ReferenceIdeal.Value.run (F := Ideal) m' ρ')
    rw [(h c).1, Cert.ReferenceIdeal.Read.val_main_v31_eq, Cert.RefSpec.result_eq_fun,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

end Cert.AlgOf

end
-- ==== Proof.KHost.lean ====
/-
  The kernel program's arithmetic outside its two kernel regions, read index by index.

  Before the first region the program computes, from the argument arrays alone,
    the value rows     appear j s = Σ_d x j d · Wv d s + bv s,
    the key rows       key i e    = Σ_d x i d · Wk d e + bk e,
    the query rows     query j e  = Σ_d x j d · Wq d e + bq e,
    the geometric weight vector laid out as a row (Wg transposed, [64,1] → [1,64]), and
    the geometric bias as a 1 × 1 array.
  Each of the three affine maps is a matrix product, the bias repeated along the rows, and an entrywise
  sum — the same three operations, on the same arrays, with which the reference program begins; so the
  array each one leaves is the reference's stage function of the kernel's arguments, and its entry at
  (row, column) is the specification's sum. No operation before the first region writes an argument
  array, so each argument still holds what it held.

  Between the two regions the program scales the value rows: the column sums arrive as a row [1,2048],
  are transposed to a column [2048,1], repeated along the 8 columns, and divide the value rows entrywise.
  Entry (j, s) of the result is therefore  appear j s / denom j, with whatever the two buffers hold at
  that moment; the other buffer the first region wrote is not touched.

  Every statement is about an ARBITRARY contents of the buffers before the operations run: nothing here
  depends on how those contents came about.
-/
import proofs.«103395_j30580167147772_2_alg».proof.Proof.Gen.KernelIdeal.Launch
import proofs.«103395_j30580167147772_2_alg».proof.Proof.Gen.KernelIdeal.Regions
import proofs.«103395_j30580167147772_2_alg».proof.Proof.Spec
import proofs.«103395_j30580167147772_2_alg».proof.Proof.RefSpec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KHost

open Cert.KernelIdeal Cert.KernelIdeal.Gen Idealize.ShloMosaic Idealize.ShloMosaic.ValueIdx Idealize.ShloMosaic.TcCoe
open Idealize.SL.Sem

/-! ## Before the first region: the arrays the operations leave, as whole-array terms -/

section Before

variable (W : Valuation τ sig (Elt Ideal))

/-- The value rows are the reference's value-row stage of the kernel's arguments: the same matrix product,
    the same repeated bias, the same entrywise sum. -/
theorem appear_term :
    (StableHlo.after hostOps0 W (Proc.devRef .tc main_v3) : S2048x8.Idx → EReal)
      = Cert.ReferenceIdeal.Read.val_main_v3 (F := Ideal) (W (Proc.devRef .tc main_arg0)) (W (Proc.devRef .tc main_arg2))
          (W (Proc.devRef .tc main_arg3)) := by
  dsimp only [hostOps0]
  after_results
  rfl

/-- The key rows are the reference's key-row stage of the kernel's arguments. -/
theorem key_term :
    (StableHlo.after hostOps0 W (Proc.devRef .tc main_v7) : S2048x64.Idx → EReal)
      = Cert.ReferenceIdeal.Read.val_main_v7 (F := Ideal) (W (Proc.devRef .tc main_arg0)) (W (Proc.devRef .tc main_arg4))
          (W (Proc.devRef .tc main_arg5)) := by
  dsimp only [hostOps0]
  after_results
  rfl

/-- The query rows are the reference's query-row stage of the kernel's arguments. -/
theorem query_term :
    (StableHlo.after hostOps0 W (Proc.devRef .tc main_v11) : S2048x64.Idx → EReal)
      = Cert.ReferenceIdeal.Read.val_main_v11 (F := Ideal) (W (Proc.devRef .tc main_arg0)) (W (Proc.devRef .tc main_arg6))
          (W (Proc.devRef .tc main_arg7)) := by
  dsimp only [hostOps0]
  after_results
  rfl

/-- The geometric weight vector as a row: the [64,1] argument transposed. -/
theorem wgRow_term :
    (StableHlo.after hostOps0 W (Proc.devRef .tc main_v12) : S1x64.Idx → EReal)
      = transpose S1x64 [1, 0] (W (Proc.devRef .tc main_arg8)) transposes_S64x1_S1x64_1_0 := by
  dsimp only [hostOps0]
  after_results

/-- The geometric bias as a 1 × 1 array: the one-entry argument with a unit axis added. -/
theorem bg11_term :
    (StableHlo.after hostOps0 W (Proc.devRef .tc main_v13) : S1x1.Idx → EReal)
      = shapeCast S1x1 (W (Proc.devRef .tc main_arg9)) shapeCasts_S1_S1x1 := by
  dsimp only [hostOps0]
  after_results
  rfl

/-! ## Before the first region: the entries -/

/-- Entry (j, s) of the value rows. -/
theorem appear_at (j : Fin 2048) (s : Fin 8) :
    StableHlo.after hostOps0 W (Proc.devRef .tc main_v3) (ix2 j s)
      = Cert.Spec.appear (W (Proc.devRef .tc main_arg0)) (W (Proc.devRef .tc main_arg2)) (W (Proc.devRef .tc main_arg3)) j s := by
  rw [appear_term]
  exact Cert.RefSpec.appear_eq _ _ _ j s

/-- Entry (i, e) of the key rows. -/
theorem key_at (i : Fin 2048) (e : Fin 64) :
    StableHlo.after hostOps0 W (Proc.devRef .tc main_v7) (ix2 i e)
      = Cert.Spec.proj64 (W (Proc.devRef .tc main_arg0)) (W (Proc.devRef .tc main_arg4)) (W (Proc.devRef .tc main_arg5)) i e := by
  rw [key_term]
  exact Cert.RefSpec.key_eq _ _ _ i e

/-- Entry (j, e) of the query rows. -/
theorem query_at (j : Fin 2048) (e : Fin 64) :
    StableHlo.after hostOps0 W (Proc.devRef .tc main_v11) (ix2 j e)
      = Cert.Spec.proj64 (W (Proc.devRef .tc main_arg0)) (W (Proc.devRef .tc main_arg6)) (W (Proc.devRef .tc main_arg7)) j e := by
  rw [query_term]
  exact Cert.RefSpec.query_eq _ _ _ j e

/-- Entry (0, d) of the geometric weight row is entry (d, 0) of the argument. -/
theorem wgRow_at (d : Fin 64) :
    StableHlo.after hostOps0 W (Proc.devRef .tc main_v12) (ix2 (0 : Fin 1) d)
      = W (Proc.devRef .tc main_arg8) (ix2 d (0 : Fin 1)) := by
  rw [wgRow_term]
  exact transpose_ix2_apply _ _ (0 : Fin 1) d

/-- The one entry of the 1 × 1 geometric bias is the one entry of the argument. -/
theorem bg11_at :
    StableHlo.after hostOps0 W (Proc.devRef .tc main_v13) (ix2 (0 : Fin 1) (0 : Fin 1))
      = W (Proc.devRef .tc main_arg9) (ix1 (0 : Fin 1)) := by
  rw [bg11_term]
  exact shapeCast_a_1a_apply _ _ (0 : Fin 1) (0 : Fin 1)

/-! ## Before the first region: what is left alone -/

/-- A buffer none of these operations writes keeps its contents. -/
theorem before_keeps (r : Ref sig .tc) (h : r ∉ hostOps0_W) :
    StableHlo.after hostOps0 W (Proc.devRef .tc r) = W (Proc.devRef .tc r) :=
  StableHlo.after_of_writes_sub hostOps0 W hostOps0_writes h

theorem before_arg0 : StableHlo.after hostOps0 W (Proc.devRef .tc main_arg0) = W (Proc.devRef .tc main_arg0) :=
  before_keeps W main_arg0 (by decide)
theorem before_arg1 : StableHlo.after hostOps0 W (Proc.devRef .tc main_arg1) = W (Proc.devRef .tc main_arg1) :=
  before_keeps W main_arg1 (by decide)
theorem before_arg2 : StableHlo.after hostOps0 W (Proc.devRef .tc main_arg2) = W (Proc.devRef .tc main_arg2) :=
  before_keeps W main_arg2 (by decide)
theorem before_arg3 : StableHlo.after hostOps0 W (Proc.devRef .tc main_arg3) = W (Proc.devRef .tc main_arg3) :=
  before_keeps W main_arg3 (by decide)
theorem before_arg4 : StableHlo.after hostOps0 W (Proc.devRef .tc main_arg4) = W (Proc.devRef .tc main_arg4) :=
  before_keeps W main_arg4 (by decide)
theorem before_arg5 : StableHlo.after hostOps0 W (Proc.devRef .tc main_arg5) = W (Proc.devRef .tc main_arg5) :=
  before_keeps W main_arg5 (by decide)
theorem before_arg6 : StableHlo.after hostOps0 W (Proc.devRef .tc main_arg6) = W (Proc.devRef .tc main_arg6) :=
  before_keeps W main_arg6 (by decide)
theorem before_arg7 : StableHlo.after hostOps0 W (Proc.devRef .tc main_arg7) = W (Proc.devRef .tc main_arg7) :=
  before_keeps W main_arg7 (by decide)
theorem before_arg8 : StableHlo.after hostOps0 W (Proc.devRef .tc main_arg8) = W (Proc.devRef .tc main_arg8) :=
  before_keeps W main_arg8 (by decide)
theorem before_arg9 : StableHlo.after hostOps0 W (Proc.devRef .tc main_arg9) = W (Proc.devRef .tc main_arg9) :=
  before_keeps W main_arg9 (by decide)

end Before

/-! ## Between the regions: the value rows divided by the column sums -/

section Between

variable (W' : Valuation τ sig (Elt Ideal))

/-- The scaled value rows as a whole-array term: the value rows over the column sums, the sums turned from a
    row into a column and repeated along the 8 columns. -/
theorem scaled_term :
    (StableHlo.after hostOps1 W' (Proc.devRef .tc main_v17) : S2048x8.Idx → EReal)
      = Host.divf (F := Ideal) (s := S2048x8) (φ := .f32) (W' (Proc.devRef .tc main_v3))
          (broadcastInDim S2048x8 ![0, 1] bcast_S2048x1_S2048x8_0_1
            (transpose S2048x1 [1, 0] (W' (Proc.devRef .tc main_v14_1) : S1x2048.Idx → EReal)
              transposes_S1x2048_S2048x1_1_0)) := by
  dsimp only [hostOps1]
  after_results

/-- A column [2048,1] repeated along 8 columns reads, at (j, s), the column's entry (j, 0). -/
theorem column_repeated_at (v : S2048x1.Idx → EReal) (j : Fin 2048) (s : Fin 8) :
    broadcastInDim S2048x8 ![0, 1] bcast_S2048x1_S2048x8_0_1 v (ix2 j s) = v (ix2 j (0 : Fin 1)) :=
  broadcastInDim_apply _ bcast_S2048x1_S2048x8_0_1 v (ix2 j s) (ix2 j (0 : Fin 1)) (fun a => match a with
    | ⟨0, _⟩ => by show j.val = if (2048 : Nat) = 1 then 0 else j.val; rw [if_neg (by decide)]
    | ⟨1, _⟩ => by show 0 = if (1 : Nat) = 1 then 0 else s.val; rw [if_pos rfl])

/-- Entry (j, s) of the scaled value rows: the value row's entry over column sum j. -/
theorem scaled_at (j : Fin 2048) (s : Fin 8) :
    StableHlo.after hostOps1 W' (Proc.devRef .tc main_v17) (ix2 j s)
      = Ideal.div (W' (Proc.devRef .tc main_v3) (ix2 j s)) (W' (Proc.devRef .tc main_v14_1) (ix2 (0 : Fin 1) j)) := by
  rw [scaled_term]
  show Ideal.div (W' (Proc.devRef .tc main_v3) (ix2 j s))
      (broadcastInDim S2048x8 ![0, 1] bcast_S2048x1_S2048x8_0_1
        (transpose S2048x1 [1, 0] (W' (Proc.devRef .tc main_v14_1) : S1x2048.Idx → EReal)
          transposes_S1x2048_S2048x1_1_0) (ix2 j s)) = _
  rw [column_repeated_at, transpose_ix2_apply]

/-- A buffer none of these operations writes keeps its contents. -/
theorem between_keeps (r : Ref sig .tc) (h : r ∉ hostOps1_W) :
    StableHlo.after hostOps1 W' (Proc.devRef .tc r) = W' (Proc.devRef .tc r) :=
  StableHlo.after_of_writes_sub hostOps1 W' hostOps1_writes h

/-- The first region's other result is not touched. -/
theorem between_v14_0 : StableHlo.after hostOps1 W' (Proc.devRef .tc main_v14_0) = W' (Proc.devRef .tc main_v14_0) :=
  between_keeps W' main_v14_0 (by decide)
/-- Nor are the column sums themselves. -/
theorem between_v14_1 : StableHlo.after hostOps1 W' (Proc.devRef .tc main_v14_1) = W' (Proc.devRef .tc main_v14_1) :=
  between_keeps W' main_v14_1 (by decide)
/-- Nor the unscaled value rows. -/
theorem between_v3 : StableHlo.after hostOps1 W' (Proc.devRef .tc main_v3) = W' (Proc.devRef .tc main_v3) :=
  between_keeps W' main_v3 (by decide)

end Between

end Cert.KHost

end
-- ==== Proof.KI.Pieces.lean ====
/-
  What each case of the first call's body leaves, read back as values: the block of gated exponentials is the body's
  one product term of the five input blocks; the accumulator row is the row it was handed (the zero row where the body
  has just zeroed it) plus the block's column sums; at the last inner coordinate the denominator's block is a copy of
  that row.
-/
import proofs.«103395_j30580167147772_2_alg».proof.Proof.KI.Frame0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem mid_o5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) :
    rd5 (runMid c i arg2 harg2 arg3 harg3 arg4 harg4 arg5 harg5 arg6 harg6 arg7 harg7 arg8 harg8 arg9 harg9 hcF hcL x0 x1 x2 x3 x4 xs).1 = k0_pay3 x0 x3 x4 x1 x2 := by
  unfold rd5
  rw [View.read_writes_eq_canon _ _ _ (runMid_cover5 c i arg2 harg2 arg3 harg3 arg4 harg4 arg5 harg5 arg6 harg6 arg7 harg7 arg8 harg8 arg9 harg9 hcF hcL x0 x1 x2 x3 x4 xs)]
  unfold runMid
  dsimp only
  try sl_unfold_words
  rw [View.canon_unit_zero hz2]
  try sl_unfold_words
  simp only [View.readAt_eq_ld, harg2.read_unread, harg3.read_unread, harg4.read_unread, harg5.read_unread, harg6.read_unread, harg9.read_unread, View.ld_unit_zero (S := S128x256x64) hz3, View.ld_unit_zero (S := S128x64) hz2, View.ld_unit_zero (S := S256x64) hz2, View.ld_unit_zero (S := S1x64) hz2, View.ld_unit_zero (S := S1x1) hz2, View.ld_unit_zero (S := S1x256) hz2, View.ld_unit_zero (S := S128x256) hz2]

theorem mid_oS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : ¬atLast i)
    (x0 : Vec F S128x256x64 .f32) (x1 : Vec F S128x64 .f32) (x2 : Vec F S256x64 .f32) (x3 : Vec F S1x64 .f32) (x4 : Vec F S1x1 .f32) (xs : Vec F S1x256 .f32) :
    rdS (runMid c i arg2 harg2 arg3 harg3 arg4 harg4 arg5 harg5 arg6 harg6 arg7 harg7 arg8 harg8 arg9 harg9 hcF hcL x0 x1 x2 x3 x4 xs).2.1 = k0_pay1 (k0_pay4 x0 x3 x4 x1 x2 xs) := by
  unfold rdS
  rw [View.read_writes_eq_canon _ _ _ (runMid_coverS c i arg2 harg2 arg3 harg3 arg4 harg4 arg5 harg5 arg6 harg6 arg7 harg7 arg8 harg8 arg9 harg9 hcF hcL x0 x1 x2 x3 x4 xs)]
  unfold runMid
  dsimp only
  try sl_unfold_words
  rw [View.canon_unit_zero hz2]
  try sl_unfold_words
  simp only [View.readAt_eq_ld, harg2.read_unread, harg3.read_unread, harg4.read_unread, harg5.read_unread, harg6.read_unread, harg9.read_unread, View.ld_unit_zero (S := S128x256x64) hz3, View.ld_unit_zero (S := S128x64) hz2, View.ld_unit_zero (S := S256x64) hz2, View.ld_unit_zero (S := S1x64) hz2, View.ld_unit_zero (S := S1x1) hz2, View.ld_unit_zero (S := S1x256) hz2, View.ld_unit_zero (S := S128x256) hz2]

theorem first_o5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) :
    rd5 (runFirst c i arg2 harg2 arg3 harg3 arg4 harg4 arg5 harg5 arg6 harg6 arg7 harg7 arg8 harg8 arg9 harg9 hcF hcL x0 x1 x2 x3 x4).1 = k0_pay3 x0 x3 x4 x1 x2 := by
  unfold rd5
  rw [View.read_writes_eq_canon _ _ _ (runFirst_cover5 c i arg2 harg2 arg3 harg3 arg4 harg4 arg5 harg5 arg6 harg6 arg7 harg7 arg8 harg8 arg9 harg9 hcF hcL x0 x1 x2 x3 x4)]
  unfold runFirst
  dsimp only
  try sl_unfold_words
  rw [View.canon_unit_zero hz2]
  try sl_unfold_words
  simp only [View.readAt_eq_ld, harg2.read_unread, harg3.read_unread, harg4.read_unread, harg5.read_unread, harg6.read_unread, harg9.read_unread, View.ld_unit_zero (S := S128x256x64) hz3, View.ld_unit_zero (S := S128x64) hz2, View.ld_unit_zero (S := S256x64) hz2, View.ld_unit_zero (S := S1x64) hz2, View.ld_unit_zero (S := S1x1) hz2, View.ld_unit_zero (S := S1x256) hz2, View.ld_unit_zero (S := S128x256) hz2]

theorem first_oS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : atFirst i) (hcL : ¬atLast i)
    (x0 : Vec F S128x256x64 .f32) (x1 : Vec F S128x64 .f32) (x2 : Vec F S256x64 .f32) (x3 : Vec F S1x64 .f32) (x4 : Vec F S1x1 .f32) :
    rdS (runFirst c i arg2 harg2 arg3 harg3 arg4 harg4 arg5 harg5 arg6 harg6 arg7 harg7 arg8 harg8 arg9 harg9 hcF hcL x0 x1 x2 x3 x4).2.1 = k0_pay1 (k0_pay4 x0 x3 x4 x1 x2 k0_pay2) := by
  unfold rdS
  rw [View.read_writes_eq_canon _ _ _ (runFirst_coverS c i arg2 harg2 arg3 harg3 arg4 harg4 arg5 harg5 arg6 harg6 arg7 harg7 arg8 harg8 arg9 harg9 hcF hcL x0 x1 x2 x3 x4)]
  unfold runFirst
  dsimp only
  try sl_unfold_words
  rw [View.canon_cons_unit_zero (S := S1x256) hz2]
  try sl_unfold_words
  rw [View.readCov_unit_zero (S := S1x256) _ hz2]
  simp only [View.readAt_eq_ld, harg2.read_unread, harg3.read_unread, harg4.read_unread, harg5.read_unread, harg6.read_unread, harg9.read_unread, View.ld_unit_zero (S := S128x256x64) hz3, View.ld_unit_zero (S := S128x64) hz2, View.ld_unit_zero (S := S256x64) hz2, View.ld_unit_zero (S := S1x64) hz2, View.ld_unit_zero (S := S1x1) hz2, View.ld_unit_zero (S := S1x256) hz2, View.ld_unit_zero (S := S128x256) hz2]

theorem last_o5 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) :
    rd5 (runLast c i arg2 harg2 arg3 harg3 arg4 harg4 arg5 harg5 arg6 harg6 arg7 harg7 arg8 harg8 arg9 harg9 hcF hcL x0 x1 x2 x3 x4 xs).1 = k0_pay3 x0 x3 x4 x1 x2 := by
  unfold rd5
  rw [View.read_writes_eq_canon _ _ _ (runLast_cover5 c i arg2 harg2 arg3 harg3 arg4 harg4 arg5 harg5 arg6 harg6 arg7 harg7 arg8 harg8 arg9 harg9 hcF hcL x0 x1 x2 x3 x4 xs)]
  unfold runLast
  dsimp only
  try sl_unfold_words
  rw [View.canon_unit_zero hz2]
  try sl_unfold_words
  simp only [View.readAt_eq_ld, harg2.read_unread, harg3.read_unread, harg4.read_unread, harg5.read_unread, harg6.read_unread, harg9.read_unread, View.ld_unit_zero (S := S128x256x64) hz3, View.ld_unit_zero (S := S128x64) hz2, View.ld_unit_zero (S := S256x64) hz2, View.ld_unit_zero (S := S1x64) hz2, View.ld_unit_zero (S := S1x1) hz2, View.ld_unit_zero (S := S1x256) hz2, View.ld_unit_zero (S := S128x256) hz2]

theorem last_oS (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) :
    rdS (runLast c i arg2 harg2 arg3 harg3 arg4 harg4 arg5 harg5 arg6 harg6 arg7 harg7 arg8 harg8 arg9 harg9 hcF hcL x0 x1 x2 x3 x4 xs).2.2.1 = k0_pay1 (k0_pay4 x0 x3 x4 x1 x2 xs) := by
  unfold rdS
  rw [View.read_writes_eq_canon _ _ _ (runLast_coverS c i arg2 harg2 arg3 harg3 arg4 harg4 arg5 harg5 arg6 harg6 arg7 harg7 arg8 harg8 arg9 harg9 hcF hcL x0 x1 x2 x3 x4 xs)]
  unfold runLast
  dsimp only
  try sl_unfold_words
  rw [View.canon_unit_zero hz2]
  try sl_unfold_words
  simp only [View.readAt_eq_ld, harg2.read_unread, harg3.read_unread, harg4.read_unread, harg5.read_unread, harg6.read_unread, harg9.read_unread, View.ld_unit_zero (S := S128x256x64) hz3, View.ld_unit_zero (S := S128x64) hz2, View.ld_unit_zero (S := S256x64) hz2, View.ld_unit_zero (S := S1x64) hz2, View.ld_unit_zero (S := S1x1) hz2, View.ld_unit_zero (S := S1x256) hz2, View.ld_unit_zero (S := S128x256) hz2]

theorem last_o6 (c : Dev nD) (i : grid0.Coords) (arg2 : Memref sig .tc .vmem S128x256x64 .f32) (harg2 : arg2.IsWhole) (arg3 : Memref sig .tc .vmem S128x64 .f32) (harg3 : arg3.IsWhole) (arg4 : Memref sig .tc .vmem S256x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256 .f32) (harg9 : arg9.IsWhole) (hcF : ¬atFirst i) (hcL : atLast i)
    (x0 : Vec F S128x256x64 .f32) (x1 : Vec F S128x64 .f32) (x2 : Vec F S256x64 .f32) (x3 : Vec F S1x64 .f32) (x4 : Vec F S1x1 .f32) (xs : Vec F S1x256 .f32) :
    rd6 (runLast c i arg2 harg2 arg3 harg3 arg4 harg4 arg5 harg5 arg6 harg6 arg7 harg7 arg8 harg8 arg9 harg9 hcF hcL x0 x1 x2 x3 x4 xs).2.1 = k0_pay1 (k0_pay4 x0 x3 x4 x1 x2 xs) := by
  unfold rd6
  rw [View.read_writes_eq_canon _ _ _ (runLast_cover6 c i arg2 harg2 arg3 harg3 arg4 harg4 arg5 harg5 arg6 harg6 arg7 harg7 arg8 harg8 arg9 harg9 hcF hcL x0 x1 x2 x3 x4 xs)]
  unfold runLast
  dsimp only
  try sl_unfold_words
  rw [View.canon_unit_zero hz2]
  try sl_unfold_words
  rw [View.readCov_unit_zero (S := S1x256) _ hz2]
  try sl_unfold_words
  simp only [View.readAt_eq_ld, harg2.read_unread, harg3.read_unread, harg4.read_unread, harg5.read_unread, harg6.read_unread, harg9.read_unread, View.ld_unit_zero (S := S128x256x64) hz3, View.ld_unit_zero (S := S128x64) hz2, View.ld_unit_zero (S := S256x64) hz2, View.ld_unit_zero (S := S1x64) hz2, View.ld_unit_zero (S := S1x1) hz2, View.ld_unit_zero (S := S1x256) hz2, View.ld_unit_zero (S := S128x256) hz2]

end Cert.KernelIdeal.Hand

end
-- ==== Proof.KI.Accum.lean ====
/-
  The first call's accumulation in closed form, at any float instance: after the body at grid point n the block of
  gated exponentials is the body's product term of the point's five input blocks, and the accumulator row is the
  zero row plus the column sums of the blocks of the points n - n % 16, …, n (the row blocks 0 … n % 16 of the current
  column block), added in that order.
-/
import proofs.«103395_j30580167147772_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of gated exponentials the body computes at point `t`. -/
def wblk (c : Dev nD) (t : Fin cfg0.N) : Vec F S128x256 .f32 :=
  k0_pay3 (blk0 V c 0 t) (blk0 V c 3 t) (blk0 V c 4 t) (blk0 V c 1 t) (blk0 V c 2 t)

/-- The accumulator row after the body at point `t`, from the row before it. -/
def rowStep (c : Dev nD) (t : Fin cfg0.N) (xs : Vec F S1x256 .f32) : Vec F S1x256 .f32 :=
  k0_pay1 (k0_pay4 (blk0 V c 0 t) (blk0 V c 3 t) (blk0 V c 4 t) (blk0 V c 1 t) (blk0 V c 2 t) xs)

/-- The accumulator row after point `n`: restarted from the zero row where the inner coordinate is 0. -/
def accRow (c : Dev nD) : (n : ℕ) → n < cfg0.N → Vec F S1x256 .f32
  | 0, h => rowStep V c ⟨0, h⟩ k0_pay2
  | n + 1, h => if (n + 1) % 16 = 0 then rowStep V c ⟨n + 1, h⟩ k0_pay2 else rowStep V c ⟨n + 1, h⟩ (accRow c n (Nat.lt_of_succ_lt h))

theorem val_first (c : Dev nD) (t : Fin cfg0.N) (hF : atFirst (grid0.coords t)) (hL : ¬atLast (grid0.coords t)) :
    rd5 (firstAt V c t hF hL).1 = wblk V c t ∧ rdS (firstAt V c t hF hL).2.1 = rowStep V c t k0_pay2 := by
  unfold firstAt wblk rowStep
  exact ⟨first_o5 .., first_oS ..⟩

theorem val_mid (c : Dev nD) (t : Fin cfg0.N) (hF : ¬atFirst (grid0.coords t)) (hL : ¬atLast (grid0.coords t)) (xs : Vec F S1x256 .f32) :
    rd5 (midAt V c t hF hL xs).1 = wblk V c t ∧ rdS (midAt V c t hF hL xs).2.1 = rowStep V c t xs := by
  unfold midAt wblk rowStep
  exact ⟨mid_o5 .., mid_oS ..⟩

theorem val_last (c : Dev nD) (t : Fin cfg0.N) (hF : ¬atFirst (grid0.coords t)) (hL : atLast (grid0.coords t)) (xs : Vec F S1x256 .f32) :
    rd5 (lastAt V c t hF hL xs).1 = wblk V c t ∧ rd6 (lastAt V c t hF hL xs).2.1 = rowStep V c t xs
      ∧ rdS (lastAt V c t hF hL xs).2.2.1 = rowStep V c t xs := by
  unfold lastAt wblk rowStep
  exact ⟨last_o5 .., last_o6 .., last_oS ..⟩

/-- What the staging buffers and the accumulator row hold after point `n`, in closed form — by induction on the point. -/
theorem held0_val (c : Dev nD) : ∀ (n : ℕ) (h : n < cfg0.N),
    held0 V c n h = (wblk V c ⟨n, h⟩, (if n % 16 = 15 then accRow V c n h else rd6 []), accRow V c n h)
  | 0, h => by
    have hF : atFirst (grid0.coords ⟨0, h⟩) := (atFirst_iff ⟨0, h⟩).mpr (Nat.zero_mod _)
    have hL : ¬atLast (grid0.coords ⟨0, h⟩) := fun hl => by have := (atLast_iff ⟨0, h⟩).mp hl; simp at this
    refine (held0_first V c ⟨0, h⟩ (Nat.zero_mod _) hF hL).trans ?_
    rw [(val_first V c ⟨0, h⟩ hF hL).1, (val_first V c ⟨0, h⟩ hF hL).2]
    have h15 : ¬(0 % 16 = 15) := by decide
    simp only [accRow, if_neg h15]
  | n + 1, h => by
    have ih := held0_val c n (Nat.lt_of_succ_lt h)
    by_cases h0 : (n + 1) % 16 = 0
    · have hF : atFirst (grid0.coords ⟨n + 1, h⟩) := (atFirst_iff ⟨n + 1, h⟩).mpr h0
      have hL : ¬atLast (grid0.coords ⟨n + 1, h⟩) := fun hl => by have := (atLast_iff ⟨n + 1, h⟩).mp hl; dsimp only at this; omega
      have h15 : ¬(n + 1) % 16 = 15 := by omega
      refine (held0_first V c ⟨n + 1, h⟩ h0 hF hL).trans ?_
      rw [(val_first V c ⟨n + 1, h⟩ hF hL).1, (val_first V c ⟨n + 1, h⟩ hF hL).2]
      simp only [accRow, if_pos h0, if_neg h15]
    · have hF : ¬atFirst (grid0.coords ⟨n + 1, h⟩) := fun hf => h0 ((atFirst_iff ⟨n + 1, h⟩).mp hf)
      have hx : (held0 V c ((⟨n + 1, h⟩ : Fin cfg0.N).val - 1) (Nat.lt_of_le_of_lt (Nat.sub_le _ _) (⟨n + 1, h⟩ : Fin cfg0.N).isLt)).2.2
          = accRow V c n (Nat.lt_of_succ_lt h) := congrArg (fun p => p.2.2) ih
      by_cases h15 : (n + 1) % 16 = 15
      · have hL : atLast (grid0.coords ⟨n + 1, h⟩) := (atLast_iff ⟨n + 1, h⟩).mpr h15
        refine (held0_last V c ⟨n + 1, h⟩ h0 h15 hF hL).trans ?_
        rw [(val_last V c ⟨n + 1, h⟩ hF hL _).1, (val_last V c ⟨n + 1, h⟩ hF hL _).2.1, (val_last V c ⟨n + 1, h⟩ hF hL _).2.2, hx]
        simp only [accRow, if_neg h0, if_pos h15]
      · have hL : ¬atLast (grid0.coords ⟨n + 1, h⟩) := fun hl => h15 ((atLast_iff ⟨n + 1, h⟩).mp hl)
        refine (held0_mid V c ⟨n + 1, h⟩ h0 h15 hF hL).trans ?_
        rw [(val_mid V c ⟨n + 1, h⟩ hF hL _).1, (val_mid V c ⟨n + 1, h⟩ hF hL _).2, hx]
        simp only [accRow, if_neg h0, if_neg h15]

end Cert.KernelIdeal.Hand

end
-- ==== Proof.Pay0.lean ====
/-
  The first kernel body's arithmetic read at one element, at the ideal values (every float an extended real, every
  operation exact, a change of format the identity).

  For a block of 128 rows i and 256 columns j the body forms
    gate(i, j)   = max (∑ d, geom(i, j, d) * wg(0, d) + bg(0, 0)) 0        (a lane sum over the 64 features, then a ramp),
    logit(i, j)  = (∑ e, k(i, e) * q(j, e)) * c                            (a 128 × 64 by 64 × 256 product; c the literal 0.125),
    block(i, j)  = gate(i, j) * exp (logit(i, j)),
  and adds the block's column sums, taken as a product with a row of ones, to a running 1 × 256 accumulator. This file
  states each of those at explicit coordinates: the block at (p, q), the accumulator's update at (0, q), the zero row the
  accumulator starts from, and the cast of the accumulator to its own shape.
-/
import proofs.«103395_j30580167147772_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The operand indices of the two matrix products

For a plain matrix product (contract the left operand's columns with the right operand's rows) the left operand is read
at (row of the output, contraction coordinate) and the right operand at (contraction coordinate, column of the output).
First the 128 × 64 by 64 × 256 product of the logits, then the 1 × 128 by 128 × 256 product of the column sums. -/
/-- The left operand's row coordinate at output index `i` is `i`'s row. -/
theorem logit_lhs_0 (i : S128x256.Idx) (q : dot_S128x64_S64x256_S128x256_1_0_0_1_n_n.contr.Idx) :
    (dot_S128x64_S64x256_S128x256_1_0_0_1_n_n.lhsIdx i q 0).val = (i 0).val := by
  unfold DotDims.lhsIdx
  rw [dif_neg (show ¬(0 : Fin S128x64.rank) ∈ dot_S128x64_S64x256_S128x256_1_0_0_1_n_n.lhsBatch by decide), dif_pos (show (0 : Fin S128x64.rank) ∈ dot_S128x64_S64x256_S128x256_1_0_0_1_n_n.lhsNonContracting by decide)]
  rfl
/-- The left operand's column coordinate is the contraction coordinate. -/
theorem logit_lhs_1 (i : S128x256.Idx) (q : dot_S128x64_S64x256_S128x256_1_0_0_1_n_n.contr.Idx) :
    (dot_S128x64_S64x256_S128x256_1_0_0_1_n_n.lhsIdx i q 1).val = (q ⟨0, by decide⟩).val :=
  dot_S128x64_S64x256_S128x256_1_0_0_1_n_n.lhsIdx_val_of_single rfl i q
/-- The right operand's row coordinate is the contraction coordinate. -/
theorem logit_rhs_0 (i : S128x256.Idx) (q : dot_S128x64_S64x256_S128x256_1_0_0_1_n_n.contr.Idx) :
    (dot_S128x64_S64x256_S128x256_1_0_0_1_n_n.rhsIdx i q 0).val = (q ⟨0, by decide⟩).val :=
  dot_S128x64_S64x256_S128x256_1_0_0_1_n_n.rhsIdx_val_of_single rfl i q
/-- The right operand's column coordinate at output index `i` is `i`'s column. -/
theorem logit_rhs_1 (i : S128x256.Idx) (q : dot_S128x64_S64x256_S128x256_1_0_0_1_n_n.contr.Idx) :
    (dot_S128x64_S64x256_S128x256_1_0_0_1_n_n.rhsIdx i q 1).val = (i 1).val := by
  unfold DotDims.rhsIdx
  rw [dif_neg (show ¬(1 : Fin S64x256.rank) ∈ dot_S128x64_S64x256_S128x256_1_0_0_1_n_n.rhsBatch by decide), dif_pos (show (1 : Fin S64x256.rank) ∈ dot_S128x64_S64x256_S128x256_1_0_0_1_n_n.rhsNonContracting by decide)]
  rfl

/-- The left operand's row coordinate at output index `i` is `i`'s row. -/
theorem colsum_lhs_0 (i : S1x256.Idx) (q : dot_S1x128_S128x256_S1x256_1_0_0_1_n_n.contr.Idx) :
    (dot_S1x128_S128x256_S1x256_1_0_0_1_n_n.lhsIdx i q 0).val = (i 0).val := by
  unfold DotDims.lhsIdx
  rw [dif_neg (show ¬(0 : Fin S1x128.rank) ∈ dot_S1x128_S128x256_S1x256_1_0_0_1_n_n.lhsBatch by decide), dif_pos (show (0 : Fin S1x128.rank) ∈ dot_S1x128_S128x256_S1x256_1_0_0_1_n_n.lhsNonContracting by decide)]
  rfl
/-- The left operand's column coordinate is the contraction coordinate. -/
theorem colsum_lhs_1 (i : S1x256.Idx) (q : dot_S1x128_S128x256_S1x256_1_0_0_1_n_n.contr.Idx) :
    (dot_S1x128_S128x256_S1x256_1_0_0_1_n_n.lhsIdx i q 1).val = (q ⟨0, by decide⟩).val :=
  dot_S1x128_S128x256_S1x256_1_0_0_1_n_n.lhsIdx_val_of_single rfl i q
/-- The right operand's row coordinate is the contraction coordinate. -/
theorem colsum_rhs_0 (i : S1x256.Idx) (q : dot_S1x128_S128x256_S1x256_1_0_0_1_n_n.contr.Idx) :
    (dot_S1x128_S128x256_S1x256_1_0_0_1_n_n.rhsIdx i q 0).val = (q ⟨0, by decide⟩).val :=
  dot_S1x128_S128x256_S1x256_1_0_0_1_n_n.rhsIdx_val_of_single rfl i q
/-- The right operand's column coordinate at output index `i` is `i`'s column. -/
theorem colsum_rhs_1 (i : S1x256.Idx) (q : dot_S1x128_S128x256_S1x256_1_0_0_1_n_n.contr.Idx) :
    (dot_S1x128_S128x256_S1x256_1_0_0_1_n_n.rhsIdx i q 1).val = (i 1).val := by
  unfold DotDims.rhsIdx
  rw [dif_neg (show ¬(1 : Fin S128x256.rank) ∈ dot_S1x128_S128x256_S1x256_1_0_0_1_n_n.rhsBatch by decide), dif_pos (show (1 : Fin S128x256.rank) ∈ dot_S1x128_S128x256_S1x256_1_0_0_1_n_n.rhsNonContracting by decide)]
  rfl

/-! ## The gate: a lane sum, a bias, a ramp -/

/-- A sum over the last axis of a 128 × 256 × 64 vector, read at (p, q), is the sum over d of the vector at
    (p, q, d): the reduced index with the coordinate d put back on axis 2 is (p, q, d). -/
theorem laneSum_apply (src : FVec Ideal S128x256x64 .f32) (p : Fin 128) (q : Fin 256) :
    multiReduction (F := Ideal) .add [2] S128x256 src 0x00000000#32 reduces_S128x256x64_S128x256 (.inl rfl) rfl (ix2 p q)
      = ∑ d : Fin 64, src (ix3 p q d) := by
  refine (Ideal.multiReduction_add_single src 0x00000000#32 reduces_S128x256x64_S128x256 (.inl rfl) rfl (ix2 p q)).trans ?_
  refine Finset.sum_congr rfl fun d _ => congrArg src ?_
  funext a
  match a with
  | ⟨0, _⟩ => rfl
  | ⟨1, _⟩ => rfl
  | ⟨2, _⟩ => rfl

/-- The 1 × 64 weight row, viewed 1 × 1 × 64 and repeated over the 128 × 256 block, reads at (p, q, d) the row's
    entry (0, d): the broadcast keeps the last coordinate and the added unit axis carries nothing. -/
theorem wgRow_apply (v4 : Vec Ideal S1x64 .f32) (p : Fin 128) (q : Fin 256) (d : Fin 64) :
    broadcastTo S128x256x64 (shapeCast S1x1x64 (shapeCast S1x64 v4 shapeCasts_S1x64_S1x64) shapeCasts_S1x64_S1x1x64)
        broadcasts_S1x1x64_S128x256x64 (ix3 p q d) = v4 (ix2 0 d) := by
  rw [shapeCast_self]
  refine (broadcastTo_apply _ broadcasts_S1x1x64_S128x256x64 (ix3 p q d) (ix3 (0 : Fin 1) (0 : Fin 1) d) fun a => ?_).trans ?_
  · match a with
    | ⟨0, _⟩ => rfl
    | ⟨1, _⟩ => rfl
    | ⟨2, _⟩ => rfl
  · exact shapeCast_ab_1ab_apply v4 shapeCasts_S1x64_S1x1x64 0 0 d

/-- So the lane sum of the block times the repeated weight row is, at (p, q), `∑ d, v3 (p, q, d) * v4 (0, d)`. -/
theorem gate_apply (v3 : Vec Ideal S128x256x64 .f32) (v4 : Vec Ideal S1x64 .f32) (p : Fin 128) (q : Fin 256) :
    multiReduction (F := Ideal) .add [2] S128x256
        (mulf (F := Ideal) v3 (broadcastTo S128x256x64
          (shapeCast S1x1x64 (shapeCast S1x64 v4 shapeCasts_S1x64_S1x64) shapeCasts_S1x64_S1x1x64)
          broadcasts_S1x1x64_S128x256x64))
        0x00000000#32 reduces_S128x256x64_S128x256 (.inl rfl) rfl (ix2 p q)
      = ∑ d : Fin 64, v3 (ix3 p q d) * v4 (ix2 0 d) := by
  refine (laneSum_apply _ p q).trans (Finset.sum_congr rfl fun d _ => ?_)
  rw [mulf_apply, wgRow_apply]

/-- The exponential of a vector at an index is the exponential of the element. -/
theorem exp_apply {s : Shape} {φ : FTy} (a : FVec Ideal s φ) (i : s.Idx) : exp a i = Ideal.exp (a i) := rfl

/-- The bias, extracted from its 1 × 1 vector at position (0, 0), is that vector's one entry. -/
theorem bgScalar_eq (v7 : Vec Ideal S1x1 .f32) : extractAt ![0, 0] v7 inpos_S1x1_p0_0 = v7 (ix2 0 0) := by
  unfold extractAt
  refine congrArg v7 (funext fun a => ?_)
  match a with
  | ⟨0, _⟩ => rfl
  | ⟨1, _⟩ => rfl

/-! ## The logits: a product with a transposed operand -/

/-- The 128 × 64 by 64 × 256 product into a zero block, at (p, q), is `∑ e, L (p, e) * R (e, q)`: the contraction
    index set has one axis of extent 64 and the sum is re-indexed through its one coordinate. -/
theorem matmulA_apply (L : FVec Ideal S128x64 .bf16) (R : FVec Ideal S64x256 .bf16) (p : Fin 128) (q : Fin 256) :
    matmul (F := Ideal) dot_S128x64_S64x256_S128x256_1_0_0_1_n_n none L R (constant (F := Ideal) S128x256 .f32 0x00000000#32) (ix2 p q)
      = ∑ e : Fin 64, L (ix2 p e) * R (ix2 e q) := by
  refine (Ideal.matmul_constant_zero_apply dot_S128x64_S64x256_S128x256_1_0_0_1_n_n none _ _ (ix2 p q)).trans ?_
  rw [← Equiv.sum_comp (contrEquiv1 dot_S128x64_S64x256_S128x256_1_0_0_1_n_n 64 rfl rfl).symm]
  refine Finset.sum_congr rfl fun k _ => ?_
  have hk := contrEquiv1_symm_val dot_S128x64_S64x256_S128x256_1_0_0_1_n_n 64 rfl rfl k
  have el : dot_S128x64_S64x256_S128x256_1_0_0_1_n_n.lhsIdx (ix2 p q) ((contrEquiv1 dot_S128x64_S64x256_S128x256_1_0_0_1_n_n 64 rfl rfl).symm k) = ix2 p k :=
    funext fun a => Fin.ext (by
      match a with
      | ⟨0, _⟩ => exact logit_lhs_0 _ _
      | ⟨1, _⟩ => exact (logit_lhs_1 _ _).trans hk)
  have er : dot_S128x64_S64x256_S128x256_1_0_0_1_n_n.rhsIdx (ix2 p q) ((contrEquiv1 dot_S128x64_S64x256_S128x256_1_0_0_1_n_n 64 rfl rfl).symm k) = ix2 k q :=
    funext fun a => Fin.ext (by
      match a with
      | ⟨0, _⟩ => exact (logit_rhs_0 _ _).trans hk
      | ⟨1, _⟩ => exact logit_rhs_1 _ _)
  rw [el, er]

/-- The right operand is the 256 × 64 block of queries narrowed and transposed: at (e, q) it is the block at (q, e). -/
theorem qT_apply (v19 : Vec Ideal S256x64 .f32) (e : Fin 64) (q : Fin 256) :
    transpose S64x256 [1, 0] (truncf (F := Ideal) .bf16 (shapeCast S256x64 v19 shapeCasts_S256x64_S256x64) bitsLt_bf16_f32)
        transposes_S256x64_p1_0_S64x256 (ix2 e q) = v19 (ix2 q e) := by
  refine (transpose_ix2_apply _ transposes_S256x64_p1_0_S64x256 e q).trans ?_
  rw [truncf_apply, shapeCast_self]

/-- So the product of the narrowed keys with the narrowed, transposed queries is, at (p, q),
    `∑ e, v16 (p, e) * v19 (q, e)`: row p of the keys against row q of the queries. -/
theorem logit_apply (v16 : Vec Ideal S128x64 .f32) (v19 : Vec Ideal S256x64 .f32) (p : Fin 128) (q : Fin 256) :
    matmul (F := Ideal) dot_S128x64_S64x256_S128x256_1_0_0_1_n_n none
        (truncf (F := Ideal) .bf16 (shapeCast S128x64 v16 shapeCasts_S128x64_S128x64) bitsLt_bf16_f32)
        (transpose S64x256 [1, 0] (truncf (F := Ideal) .bf16 (shapeCast S256x64 v19 shapeCasts_S256x64_S256x64) bitsLt_bf16_f32)
          transposes_S256x64_p1_0_S64x256)
        (constant (F := Ideal) S128x256 .f32 0x00000000#32) (ix2 p q)
      = ∑ e : Fin 64, v16 (ix2 p e) * v19 (ix2 q e) := by
  refine (matmulA_apply _ _ p q).trans (Finset.sum_congr rfl fun e _ => ?_)
  rw [qT_apply, truncf_apply, shapeCast_self]

/-! ## The block at (p, q) -/

/-- The 128 × 256 block at (p, q): the ramp of the biased lane sum, times the exponential of the scaled logit. The
    zero literal of the ramp is the extended real 0; the scale stays the literal word 0x3E000000 (0.125), unevaluated. -/
theorem k0_pay3_apply (v3 : Vec Ideal S128x256x64 .f32) (v4 : Vec Ideal S1x64 .f32) (v7 : Vec Ideal S1x1 .f32)
    (v16 : Vec Ideal S128x64 .f32) (v19 : Vec Ideal S256x64 .f32) (p : Fin 128) (q : Fin 256) :
    k0_pay3 (F := Ideal) v3 v4 v7 v16 v19 (ix2 p q)
      = max ((∑ d : Fin 64, v3 (ix3 p q d) * v4 (ix2 0 d)) + v7 (ix2 0 0)) 0
        * Ideal.exp ((∑ e : Fin 64, v16 (ix2 p e) * v19 (ix2 q e)) * Ideal.ofBits .f32 0x3E000000#32) := by
  unfold k0_pay3
  rw [mulf_apply, maximumf_apply, addf_apply, broadcast_apply, broadcast_apply, exp_apply, mulf_apply, broadcast_apply]
  rw [gate_apply, bgScalar_eq, logit_apply]
  simp only [Ideal.ofBits_def, Ideal.ofBits_zero_f32]

/-! ## The accumulator: column sums by a row of ones -/

/-- The word 0x3F800000 denotes the extended real 1. -/
theorem one_f32 : Ideal.ofBits .f32 0x3F800000#32 = 1 := IdealRules.sign_bit.ideal_onePat .f32

/-- A row of ones times a 128 × 256 block, into a zero row, is at (0, q) the sum over the block's rows p of
    one times the block at (p, q). -/
theorem onesRow_apply (X : FVec Ideal S128x256 .f32) (u : Fin 1) (q : Fin 256) :
    matmul (F := Ideal) dot_S1x128_S128x256_S1x256_1_0_0_1_n_n none (broadcast S1x128 (Scalar.ofBits (F := Ideal) .f32 0x3F800000#32)) X
        (constant (F := Ideal) S1x256 .f32 0x00000000#32) (ix2 u q)
      = ∑ p : Fin 128, Ideal.ofBits .f32 0x3F800000#32 * X (ix2 p q) := by
  refine (Ideal.matmul_constant_zero_apply dot_S1x128_S128x256_S1x256_1_0_0_1_n_n none _ _ (ix2 u q)).trans ?_
  rw [← Equiv.sum_comp (contrEquiv1 dot_S1x128_S128x256_S1x256_1_0_0_1_n_n 128 rfl rfl).symm]
  refine Finset.sum_congr rfl fun k _ => ?_
  have hk := contrEquiv1_symm_val dot_S1x128_S128x256_S1x256_1_0_0_1_n_n 128 rfl rfl k
  have el : dot_S1x128_S128x256_S1x256_1_0_0_1_n_n.lhsIdx (ix2 u q) ((contrEquiv1 dot_S1x128_S128x256_S1x256_1_0_0_1_n_n 128 rfl rfl).symm k) = ix2 u k :=
    funext fun a => Fin.ext (by
      match a with
      | ⟨0, _⟩ => exact colsum_lhs_0 _ _
      | ⟨1, _⟩ => exact (colsum_lhs_1 _ _).trans hk)
  have er : dot_S1x128_S128x256_S1x256_1_0_0_1_n_n.rhsIdx (ix2 u q) ((contrEquiv1 dot_S1x128_S128x256_S1x256_1_0_0_1_n_n 128 rfl rfl).symm k) = ix2 k q :=
    funext fun a => Fin.ext (by
      match a with
      | ⟨0, _⟩ => exact (colsum_rhs_0 _ _).trans hk
      | ⟨1, _⟩ => exact colsum_rhs_1 _ _)
  rw [el, er]
  rfl

/-- The accumulator's update at (0, q), with the ones still written as the literal word: the old value plus the sum over
    the block's rows of one times the block at (p, q). -/
theorem k0_pay4_apply (v3 : Vec Ideal S128x256x64 .f32) (v4 : Vec Ideal S1x64 .f32) (v7 : Vec Ideal S1x1 .f32)
    (v16 : Vec Ideal S128x64 .f32) (v19 : Vec Ideal S256x64 .f32) (v30 : Vec Ideal S1x256 .f32) (q : Fin 256) :
    k0_pay4 (F := Ideal) v3 v4 v7 v16 v19 v30 (ix2 0 q)
      = v30 (ix2 0 q) + ∑ p : Fin 128, Ideal.ofBits .f32 0x3F800000#32 * k0_pay3 (F := Ideal) v3 v4 v7 v16 v19 (ix2 p q) := by
  unfold k0_pay4
  rw [addf_apply, onesRow_apply]

/-- The same with the ones multiplied away: the old value plus the block's column sum. -/
theorem k0_pay4_apply_sum (v3 : Vec Ideal S128x256x64 .f32) (v4 : Vec Ideal S1x64 .f32) (v7 : Vec Ideal S1x1 .f32)
    (v16 : Vec Ideal S128x64 .f32) (v19 : Vec Ideal S256x64 .f32) (v30 : Vec Ideal S1x256 .f32) (q : Fin 256) :
    k0_pay4 (F := Ideal) v3 v4 v7 v16 v19 v30 (ix2 0 q)
      = v30 (ix2 0 q) + ∑ p : Fin 128, k0_pay3 (F := Ideal) v3 v4 v7 v16 v19 (ix2 p q) := by
  rw [k0_pay4_apply]
  simp only [one_f32, one_mul]

/-- And with the block's element written out. -/
theorem k0_pay4_apply_full (v3 : Vec Ideal S128x256x64 .f32) (v4 : Vec Ideal S1x64 .f32) (v7 : Vec Ideal S1x1 .f32)
    (v16 : Vec Ideal S128x64 .f32) (v19 : Vec Ideal S256x64 .f32) (v30 : Vec Ideal S1x256 .f32) (q : Fin 256) :
    k0_pay4 (F := Ideal) v3 v4 v7 v16 v19 v30 (ix2 0 q)
      = v30 (ix2 0 q) + ∑ p : Fin 128,
          (max ((∑ d : Fin 64, v3 (ix3 p q d) * v4 (ix2 0 d)) + v7 (ix2 0 0)) 0
            * Ideal.exp ((∑ e : Fin 64, v16 (ix2 p e) * v19 (ix2 q e)) * Ideal.ofBits .f32 0x3E000000#32)) := by
  rw [k0_pay4_apply_sum]
  simp only [k0_pay3_apply]

/-! ## The accumulator's first value and its cast -/

/-- The row the accumulator starts from is zero everywhere. -/
theorem k0_pay2_apply (u : Fin 1) (q : Fin 256) : k0_pay2 (F := Ideal) (ix2 u q) = 0 := by
  unfold k0_pay2
  rw [shapeCast_self, broadcast_apply]
  exact Ideal.ofBits_zero_f32

/-- As a whole row. -/
theorem k0_pay2_eq : k0_pay2 (F := Ideal) = fun _ => (0 : EReal) := by
  funext j
  exact (congrArg (k0_pay2 (F := Ideal)) (eq_ix2 j)).trans (k0_pay2_apply (j 0) (j 1))

/-- The cast of the accumulator to its own shape is the identity. -/
theorem k0_pay1_eq (v32 : FVec Ideal S1x256 .f32) : k0_pay1 (F := Ideal) v32 = v32 := by
  unfold k0_pay1
  exact shapeCast_self _ _

end Cert.KernelIdeal.Pay

end
-- ==== Proof.KI.RowSum.lean ====
/-
  The accumulator row over the extended reals, entry by entry: each point adds the column sums of its block of gated
  exponentials to the row, and the row restarts from zero where the inner grid coordinate is 0.
-/
import proofs.«103395_j30580167147772_2_alg».proof.Proof.KI.Accum
import proofs.«103395_j30580167147772_2_alg».proof.Proof.Pay0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- Column `q`'s sum over the 128 rows of the block of gated exponentials at point `t`. -/
def colsum (c : Dev nD) (t : Fin cfg0.N) (q : Fin 256) : EReal := ∑ p : Fin 128, (wblk V c t (ix2 p q) : EReal)

theorem rowStep_apply (c : Dev nD) (t : Fin cfg0.N) (xs : Vec Ideal S1x256 .f32) (q : Fin 256) :
    (rowStep V c t xs (ix2 (0 : Fin 1) q) : EReal) = xs (ix2 (0 : Fin 1) q) + colsum V c t q := by
  unfold rowStep colsum wblk
  rw [k0_pay1_eq]
  exact k0_pay4_apply_sum _ _ _ _ _ _ q

/-- The row's entry `q` after position `n` (0 past the grid), and the column sum added there. -/
def rowN (c : Dev nD) (q : Fin 256) (n : ℕ) : EReal := if h : n < cfg0.N then (accRow V c n h (ix2 (0 : Fin 1) q) : EReal) else 0
def csN (c : Dev nD) (q : Fin 256) (n : ℕ) : EReal := if h : n < cfg0.N then colsum V c ⟨n, h⟩ q else 0

theorem rowN_zero (c : Dev nD) (q : Fin 256) : rowN V c q 0 = 0 + csN V c q 0 := by
  have h : 0 < cfg0.N := by rw [show cfg0.N = 128 from N_0]; decide
  unfold rowN csN
  rw [dif_pos h, dif_pos h]
  show (rowStep V c ⟨0, h⟩ (k0_pay2 (F := Ideal)) (ix2 (0 : Fin 1) q) : EReal) = _
  rw [rowStep_apply, k0_pay2_apply]

theorem rowN_succ (c : Dev nD) (q : Fin 256) (n : ℕ) (h : n + 1 < 128) :
    rowN V c q (n + 1) = if (n + 1) % 16 = 0 then 0 + csN V c q (n + 1) else rowN V c q n + csN V c q (n + 1) := by
  have hN : cfg0.N = 128 := N_0
  have h1 : n + 1 < cfg0.N := by rw [hN]; exact h
  have h0 : n < cfg0.N := Nat.lt_of_succ_lt h1
  unfold rowN csN
  rw [dif_pos h1, dif_pos h1, dif_pos h0]
  by_cases hm : (n + 1) % 16 = 0
  · rw [if_pos hm]
    show ((if (n + 1) % 16 = 0 then rowStep V c ⟨n + 1, h1⟩ (k0_pay2 (F := Ideal)) else rowStep V c ⟨n + 1, h1⟩ (accRow V c n _)) (ix2 (0 : Fin 1) q) : EReal) = _
    rw [if_pos hm, rowStep_apply, k0_pay2_apply]
  · rw [if_neg hm]
    show ((if (n + 1) % 16 = 0 then rowStep V c ⟨n + 1, h1⟩ (k0_pay2 (F := Ideal)) else rowStep V c ⟨n + 1, h1⟩ (accRow V c n _)) (ix2 (0 : Fin 1) q) : EReal) = _
    rw [if_neg hm, rowStep_apply]

end Cert.KernelIdeal.Hand

end
-- ==== Proof.Blocks.lean ====
/-
  Where the two calls' blocks sit in their arrays.

  The first call walks an 8 × 16 grid: at point `t` (outer coordinate `t / 16`, inner coordinate `t % 16`) it reads rows
  128 (t % 16) … + 127 and columns 256 (t / 16) … + 255 of the 2048 × 2048 × 64 geometry array, the same rows of the
  keys, the same columns (as rows) of the queries, and the two small operands whole; it writes the same rows and
  columns of the first result and, at the last inner coordinate, the same columns of the 1 × 2048 second result. The
  second call walks 4 points: at point `t` it reads rows 512 t … + 511 of the weights and the other operand whole, and
  writes the same rows of its result. This file states each block read at explicit coordinates, the same for an output
  block read off any whole-array function, which indices each output block holds, and that the written blocks cover
  their arrays.
-/
import proofs.«103395_j30580167147772_2_alg».proof.Proof.KI.Base
import Idealize.ShloMosaic.Lib.Pipeline.Value
import Idealize.ShloMosaic.Lib.ValueIdx

noncomputable section

namespace Cert.KernelIdeal.Blk

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]

/-! ## The index maps over the two grids

The first call's grid is 8 × 16; point `t` has outer coordinate `t / 16` and inner coordinate `t % 16`. The geometry
block, the keys' block and the first result's block move down the rows with the inner coordinate; the geometry block,
the queries' block and both results' blocks move along the columns with the outer coordinate; the two small operands do
not move. The second call's grid is 4 points; its weights' block and its result's block move down the rows with the
point and its other operand does not move. Each fact is decided over the grid. -/

theorem idx0 : ∀ t : Fin cfg0.N,
    win0_0.index t (0 : Fin 3) = t.val % 16 ∧ win0_0.index t (1 : Fin 3) = t.val / 16 ∧ win0_0.index t (2 : Fin 3) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val % 16 ∧ win0_5.index t (1 : Fin 2) = t.val / 16
    ∧ win0_6.index t (0 : Fin 2) = 0 ∧ win0_6.index t (1 : Fin 2) = t.val / 16 :=
  (by decide +kernel : ∀ t : Fin grid0.N, _)

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the first call's row block at point `t`, as a row of a 2048-row array. -/
abbrev rowAt (t : Fin cfg0.N) (p : Fin 128) : Fin 2048 := ⟨128 * (t.val % 16) + p.val, by have := p.isLt; omega⟩
/-- Column `q` of the first call's column block at point `t`, as a column of a 2048-column array. -/
abbrev colAt (t : Fin cfg0.N) (q : Fin 256) : Fin 2048 :=
  ⟨256 * (t.val / 16) + q.val, by have := q.isLt; have := t.isLt; have hN : cfg0.N = 128 := N_0; omega⟩
/-- Row `r` of the second call's row block at point `t`, as a row of a 2048-row array. -/
abbrev rowAt1 (t : Fin cfg1.N) (r : Fin 512) : Fin 2048 :=
  ⟨512 * t.val + r.val, by have := r.isLt; have := t.isLt; have hN : cfg1.N = 4 := N_1; omega⟩

/-! ## The input blocks, read off the arrays -/

section Reads
variable (V : (c : Dev nD) → (b : Ref sig .tc) → Buf (Elt F) ((c : Thread nD τ).loc b))

/-- The geometry block at point `t`: element (p, q, d) is the array's (128 (t % 16) + p, 256 (t / 16) + q, d). -/
theorem blk0_0_apply (c : Dev nD) (t : Fin cfg0.N) (p : Fin 128) (q : Fin 256) (d : Fin 64) :
    (blk0 V c 0 t : Vec F S128x256x64 .f32) (ix3 p q d)
      = (V c main_arg1 : S2048x2048x64.Idx → Elt F .f32) (ix3 (rowAt t p) (colAt t q) d) := by
  obtain ⟨e0, e1, e2, -⟩ := idx0 t
  unfold blk0
  rw [View.read_apply]
  show V c main_arg1 _ = V c main_arg1 _
  congr 1
  funext a
  apply Fin.ext
  match a with
  | ⟨0, _⟩ => show win0_0.index t (0 : Fin 3) * 128 + 1 * p.val = 128 * (t.val % 16) + p.val; omega
  | ⟨1, _⟩ => show win0_0.index t (1 : Fin 3) * 256 + 1 * q.val = 256 * (t.val / 16) + q.val; omega
  | ⟨2, _⟩ => show win0_0.index t (2 : Fin 3) * 64 + 1 * d.val = d.val; omega

/-- The keys' block at point `t`: element (p, e) is the array's (128 (t % 16) + p, e). -/
theorem blk0_1_apply (c : Dev nD) (t : Fin cfg0.N) (p : Fin 128) (e : Fin 64) :
    (blk0 V c 1 t : Vec F S128x64 .f32) (ix2 p e)
      = (V c main_v7 : S2048x64.Idx → Elt F .f32) (ix2 (rowAt t p) e) := by
  obtain ⟨-, -, -, e0, e1, -⟩ := idx0 t
  unfold blk0
  rw [View.read_apply]
  show V c main_v7 _ = V c main_v7 _
  congr 1
  funext a
  apply Fin.ext
  match a with
  | ⟨0, _⟩ => show win0_1.index t (0 : Fin 2) * 128 + 1 * p.val = 128 * (t.val % 16) + p.val; omega
  | ⟨1, _⟩ => show win0_1.index t (1 : Fin 2) * 64 + 1 * e.val = e.val; omega

/-- The queries' block at point `t`: element (q, e) is the array's (256 (t / 16) + q, e). -/
theorem blk0_2_apply (c : Dev nD) (t : Fin cfg0.N) (q : Fin 256) (e : Fin 64) :
    (blk0 V c 2 t : Vec F S256x64 .f32) (ix2 q e)
      = (V c main_v11 : S2048x64.Idx → Elt F .f32) (ix2 (colAt t q) e) := by
  obtain ⟨-, -, -, -, -, e0, e1, -⟩ := idx0 t
  unfold blk0
  rw [View.read_apply]
  show V c main_v11 _ = V c main_v11 _
  congr 1
  funext a
  apply Fin.ext
  match a with
  | ⟨0, _⟩ => show win0_2.index t (0 : Fin 2) * 256 + 1 * q.val = 256 * (t.val / 16) + q.val; omega
  | ⟨1, _⟩ => show win0_2.index t (1 : Fin 2) * 64 + 1 * e.val = e.val; omega

/-- The weight row's block is the whole 1 × 64 array at every point. -/
theorem blk0_3_eq (c : Dev nD) (t : Fin cfg0.N) :
    (blk0 V c 3 t : Vec F S1x64 .f32) = (V c main_v12 : S1x64.Idx → Elt F .f32) := by
  obtain ⟨-, -, -, -, -, -, -, e0, e1, -⟩ := idx0 t
  funext j
  unfold blk0
  rw [View.read_apply]
  show V c main_v12 _ = V c main_v12 j
  congr 1
  funext a
  apply Fin.ext
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- The bias's block is the whole 1 × 1 array at every point. -/
theorem blk0_4_eq (c : Dev nD) (t : Fin cfg0.N) :
    (blk0 V c 4 t : Vec F S1x1 .f32) = (V c main_v13 : S1x1.Idx → Elt F .f32) := by
  obtain ⟨-, -, -, -, -, -, -, -, -, e0, e1, -⟩ := idx0 t
  funext j
  unfold blk0
  rw [View.read_apply]
  show V c main_v13 _ = V c main_v13 j
  congr 1
  funext a
  apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega

/-- The second call's weights block at point `t`: element (r, j) is the array's (512 t + r, j). -/
theorem blk1_0_apply (c : Dev nD) (t : Fin cfg1.N) (r : Fin 512) (j : Fin 2048) :
    (blk1 V c 0 t : Vec F S512x2048 .f32) (ix2 r j)
      = (V c main_v14_0 : S2048x2048.Idx → Elt F .f32) (ix2 (rowAt1 t r) j) := by
  obtain ⟨e0, e1, -⟩ := idx1 t
  unfold blk1
  rw [View.read_apply]
  show V c main_v14_0 _ = V c main_v14_0 _
  congr 1
  funext a
  apply Fin.ext
  match a with
  | ⟨0, _⟩ => show win1_0.index t (0 : Fin 2) * 512 + 1 * r.val = 512 * t.val + r.val; omega
  | ⟨1, _⟩ => show win1_0.index t (1 : Fin 2) * 2048 + 1 * j.val = j.val; omega

/-- The second call's other operand's block is the whole 2048 × 8 array at every point. -/
theorem blk1_1_eq (c : Dev nD) (t : Fin cfg1.N) :
    (blk1 V c 1 t : Vec F S2048x8 .f32) = (V c main_v17 : S2048x8.Idx → Elt F .f32) := by
  obtain ⟨-, -, e0, e1, -⟩ := idx1 t
  funext j
  unfold blk1
  rw [View.read_apply]
  show V c main_v17 _ = V c main_v17 j
  congr 1
  funext a
  apply Fin.ext
  match a with
  | ⟨0, _⟩ => show win1_1.index t (0 : Fin 2) * 2048 + 1 * (j 0).val = (j 0).val; omega
  | ⟨1, _⟩ => show win1_1.index t (1 : Fin 2) * 8 + 1 * (j 1).val = (j 1).val; omega

end Reads

/-! ## An output block, read off a whole-array function -/

/-- Block `t` of a 2048 × 2048 function through the first result's window: element (p, q) is the function at
    (128 (t % 16) + p, 256 (t / 16) + q). -/
theorem read0_5_apply (c : Dev nD) (G : Buf (Elt F) ((cfg0.win 5).arr.view.loc (c.tc : Thread nD τ)))
    (t : Fin cfg0.N) (p : Fin 128) (q : Fin 256) :
    (((cfg0.win 5).blk t).view.read (Elt F) G : Vec F S128x256 .f32) (ix2 p q)
      = (G : S2048x2048.Idx → Elt F .f32) (ix2 (rowAt t p) (colAt t q)) := by
  obtain ⟨-, -, -, -, -, -, -, -, -, -, -, e0, e1, -⟩ := idx0 t
  rw [View.read_apply]
  show G _ = G _
  congr 1
  funext a
  apply Fin.ext
  match a with
  | ⟨0, _⟩ => show win0_5.index t (0 : Fin 2) * 128 + 1 * p.val = 128 * (t.val % 16) + p.val; omega
  | ⟨1, _⟩ => show win0_5.index t (1 : Fin 2) * 256 + 1 * q.val = 256 * (t.val / 16) + q.val; omega

/-- Block `t` of a 1 × 2048 function through the second result's window: element (0, q) is the function at
    (0, 256 (t / 16) + q). -/
theorem read0_6_apply (c : Dev nD) (G : Buf (Elt F) ((cfg0.win 6).arr.view.loc (c.tc : Thread nD τ)))
    (t : Fin cfg0.N) (u : Fin 1) (q : Fin 256) :
    (((cfg0.win 6).blk t).view.read (Elt F) G : Vec F S1x256 .f32) (ix2 u q)
      = (G : S1x2048.Idx → Elt F .f32) (ix2 u (colAt t q)) := by
  obtain ⟨-, -, -, -, -, -, -, -, -, -, -, -, -, e0, e1⟩ := idx0 t
  rw [View.read_apply]
  show G _ = G _
  congr 1
  funext a
  apply Fin.ext
  match a with
  | ⟨0, _⟩ => show win0_6.index t (0 : Fin 2) * 1 + 1 * u.val = u.val; omega
  | ⟨1, _⟩ => show win0_6.index t (1 : Fin 2) * 256 + 1 * q.val = 256 * (t.val / 16) + q.val; omega

/-- Block `t` of a 2048 × 8 function through the second call's result window: element (r, s) is the function at
    (512 t + r, s). -/
theorem read1_2_apply (c : Dev nD) (G : Buf (Elt F) ((cfg1.win 2).arr.view.loc (c.tc : Thread nD τ)))
    (t : Fin cfg1.N) (r : Fin 512) (s : Fin 8) :
    (((cfg1.win 2).blk t).view.read (Elt F) G : Vec F S512x8 .f32) (ix2 r s)
      = (G : S2048x8.Idx → Elt F .f32) (ix2 (rowAt1 t r) s) := by
  obtain ⟨-, -, -, -, e0, e1⟩ := idx1 t
  rw [View.read_apply]
  show G _ = G _
  congr 1
  funext a
  apply Fin.ext
  match a with
  | ⟨0, _⟩ => show win1_2.index t (0 : Fin 2) * 512 + 1 * r.val = 512 * t.val + r.val; omega
  | ⟨1, _⟩ => show win1_2.index t (1 : Fin 2) * 8 + 1 * s.val = s.val; omega

/-! ## Which indices a block holds, and the covers -/

/-- An index of the 2048 × 2048 array is in point `t`'s block of the first result iff its row is in the row block and
    its column in the column block. -/
theorem mem_blk0_5 (t : Fin cfg0.N) (i : S2048x2048.Idx) :
    i ∈ ((cfg0.win 5).blk t).view.set ↔
      (128 * (t.val % 16) ≤ (i 0).val ∧ (i 0).val < 128 * (t.val % 16) + 128)
        ∧ (256 * (t.val / 16) ≤ (i 1).val ∧ (i 1).val < 256 * (t.val / 16) + 256) := by
  obtain ⟨-, -, -, -, -, -, -, -, -, -, -, e0, e1, -⟩ := idx0 t
  show i ∈ ((View.whole main_v14_0).slice (win0_5.rect t)).set ↔ _
  rw [View.set_slice_whole, Rect.mem_set_unit]
  constructor
  · intro h
    have b0 : win0_5.index t (0 : Fin 2) * 128 ≤ (i 0).val ∧ (i 0).val < win0_5.index t (0 : Fin 2) * 128 + 128 := h 0
    have b1 : win0_5.index t (1 : Fin 2) * 256 ≤ (i 1).val ∧ (i 1).val < win0_5.index t (1 : Fin 2) * 256 + 256 := h 1
    omega
  · intro h a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 256 ≤ (i 1).val ∧ (i 1).val < win0_5.index t (1 : Fin 2) * 256 + 256; omega

/-- An index of the 1 × 2048 array is in point `t`'s block of the second result iff its column is in the column block. -/
theorem mem_blk0_6 (t : Fin cfg0.N) (i : S1x2048.Idx) :
    i ∈ ((cfg0.win 6).blk t).view.set ↔ (256 * (t.val / 16) ≤ (i 1).val ∧ (i 1).val < 256 * (t.val / 16) + 256) := by
  obtain ⟨-, -, -, -, -, -, -, -, -, -, -, -, -, e0, e1⟩ := idx0 t
  have hi0 : (i 0).val < 1 := (i 0).isLt
  show i ∈ ((View.whole main_v14_1).slice (win0_6.rect t)).set ↔ _
  rw [View.set_slice_whole, Rect.mem_set_unit]
  constructor
  · intro h
    have b1 : win0_6.index t (1 : Fin 2) * 256 ≤ (i 1).val ∧ (i 1).val < win0_6.index t (1 : Fin 2) * 256 + 256 := h 1
    omega
  · intro h a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 256 ≤ (i 1).val ∧ (i 1).val < win0_6.index t (1 : Fin 2) * 256 + 256; omega

/-- An index of the 2048 × 8 array is in point `t`'s block of the second call's result iff its row is in the row block. -/
theorem mem_blk1_2 (t : Fin cfg1.N) (i : S2048x8.Idx) :
    i ∈ ((cfg1.win 2).blk t).view.set ↔ (512 * t.val ≤ (i 0).val ∧ (i 0).val < 512 * t.val + 512) := by
  obtain ⟨-, -, -, -, e0, e1⟩ := idx1 t
  have hi1 : (i 1).val < 8 := (i 1).isLt
  show i ∈ ((View.whole main_v18).slice (win1_2.rect t)).set ↔ _
  rw [View.set_slice_whole, Rect.mem_set_unit]
  constructor
  · intro h
    have b0 : win1_2.index t (0 : Fin 2) * 512 ≤ (i 0).val ∧ (i 0).val < win1_2.index t (0 : Fin 2) * 512 + 512 := h 0
    omega
  · intro h a
    match a with
    | ⟨0, _⟩ => show win1_2.index t (0 : Fin 2) * 512 ≤ (i 0).val ∧ (i 0).val < win1_2.index t (0 : Fin 2) * 512 + 512; omega
    | ⟨1, _⟩ => show win1_2.index t (1 : Fin 2) * 8 ≤ (i 1).val ∧ (i 1).val < win1_2.index t (1 : Fin 2) * 8 + 8; omega

/-- Every index of the first result is in the block of the point whose inner coordinate is its row block and whose outer
    coordinate is its column block; every point writes that window back. -/
theorem cover0_5 (c : Dev nD) : ∀ i : ((cfg0.win 5).arr.view.loc (c.tc : Thread nD τ)).2.ty.Idx,
    ∃ t : Fin cfg0.N, (cfg0.win 5).flush t = true ∧ i ∈ ((cfg0.win 5).blk t).view.set := by
  intro i
  have h0 : ((i : S2048x2048.Idx) 0).val < 2048 := ((i : S2048x2048.Idx) 0).isLt
  have h1 : ((i : S2048x2048.Idx) 1).val < 2048 := ((i : S2048x2048.Idx) 1).isLt
  have hN : cfg0.N = 128 := N_0
  refine ⟨⟨16 * (((i : S2048x2048.Idx) 1).val / 256) + ((i : S2048x2048.Idx) 0).val / 128, by omega⟩, flush0_5 _, ?_⟩
  rw [mem_blk0_5]
  show (128 * ((16 * (((i : S2048x2048.Idx) 1).val / 256) + ((i : S2048x2048.Idx) 0).val / 128) % 16) ≤ ((i : S2048x2048.Idx) 0).val
      ∧ ((i : S2048x2048.Idx) 0).val < 128 * ((16 * (((i : S2048x2048.Idx) 1).val / 256) + ((i : S2048x2048.Idx) 0).val / 128) % 16) + 128)
    ∧ (256 * ((16 * (((i : S2048x2048.Idx) 1).val / 256) + ((i : S2048x2048.Idx) 0).val / 128) / 16) ≤ ((i : S2048x2048.Idx) 1).val
      ∧ ((i : S2048x2048.Idx) 1).val < 256 * ((16 * (((i : S2048x2048.Idx) 1).val / 256) + ((i : S2048x2048.Idx) 0).val / 128) / 16) + 256)
  omega

/-- Every index of the second result is in the block of the last inner point of its column block, and that point writes
    the window back. -/
theorem cover0_6 (c : Dev nD) : ∀ i : ((cfg0.win 6).arr.view.loc (c.tc : Thread nD τ)).2.ty.Idx,
    ∃ t : Fin cfg0.N, (cfg0.win 6).flush t = true ∧ i ∈ ((cfg0.win 6).blk t).view.set := by
  intro i
  have h1 : ((i : S1x2048.Idx) 1).val < 2048 := ((i : S1x2048.Idx) 1).isLt
  have hN : cfg0.N = 128 := N_0
  refine ⟨⟨16 * (((i : S1x2048.Idx) 1).val / 256) + 15, by omega⟩, (flush0_6 _).mpr ?_, ?_⟩
  · show (16 * (((i : S1x2048.Idx) 1).val / 256) + 15) % 16 = 15
    omega
  · rw [mem_blk0_6]
    show 256 * ((16 * (((i : S1x2048.Idx) 1).val / 256) + 15) / 16) ≤ ((i : S1x2048.Idx) 1).val
      ∧ ((i : S1x2048.Idx) 1).val < 256 * ((16 * (((i : S1x2048.Idx) 1).val / 256) + 15) / 16) + 256
    omega

/-- Every index of the second call's result is in the block of the point that is its row block; every point writes that
    window back. -/
theorem cover1_2 (c : Dev nD) : ∀ i : ((cfg1.win 2).arr.view.loc (c.tc : Thread nD τ)).2.ty.Idx,
    ∃ t : Fin cfg1.N, (cfg1.win 2).flush t = true ∧ i ∈ ((cfg1.win 2).blk t).view.set := by
  intro i
  have h0 : ((i : S2048x8.Idx) 0).val < 2048 := ((i : S2048x8.Idx) 0).isLt
  have hN : cfg1.N = 4 := N_1
  refine ⟨⟨((i : S2048x8.Idx) 0).val / 512, by omega⟩, flush1_2 _, ?_⟩
  rw [mem_blk1_2]
  show 512 * (((i : S2048x8.Idx) 0).val / 512) ≤ ((i : S2048x8.Idx) 0).val
    ∧ ((i : S2048x8.Idx) 0).val < 512 * (((i : S2048x8.Idx) 0).val / 512) + 512
  omega

end Cert.KernelIdeal.Blk

end
-- ==== Proof.SumLaws.lean ====
/-
  Sums, arranged the way a blocked computation meets them.

  (1) A running sum that restarts every 16 steps. A sequence `row` starts at `0 + cs 0`; at a step whose number is a
      multiple of 16 it restarts at `0 + cs n`, and at any other step it adds `cs n` to what it held. Then at step `n` it
      holds the sum of `cs` over the steps of the current stretch, from the last multiple of 16 up to `n`; at the last
      step of a stretch, `16 J + 15`, that is the sum of the sixteen terms `cs (16 J + k)`. Stated for sequences whose
      recurrence is only known below a bound `N`, and, as the case of no bound, for all steps.
  (2) A sum over 2048 rows is the sum over 16 blocks of the sums over the 128 rows of each block: row `r` is row
      `r % 128` of block `r / 128`.
  (3) The result of the scaled-values arrangement from three facts about the arrays it is computed from: the weights
      are the specification's, the normalisers are the column sums of the weights, and the scaled values are the
      values divided by the normalisers.
-/
import proofs.«103395_j30580167147772_2_alg».proof.Proof.Spec

noncomputable section

open scoped BigOperators

namespace Cert.SumLaws

open Idealize.ShloMosaic

/-! ## A running sum that restarts every 16 steps -/

/-- Below the bound `N`, the running sum at step `n` is the sum over the current stretch: the `n % 16 + 1` terms from
    step `n - n % 16` on. -/
theorem acc_closed_lt (N : ℕ) (row cs : ℕ → EReal) (h0 : row 0 = 0 + cs 0)
    (hs : ∀ n, n + 1 < N → row (n + 1) = if (n + 1) % 16 = 0 then 0 + cs (n + 1) else row n + cs (n + 1)) :
    ∀ n, n < N → row n = ∑ k ∈ Finset.range (n % 16 + 1), cs (n - n % 16 + k) := by
  intro n
  induction n with
  | zero =>
    intro _
    rw [h0, zero_add]
    simp
  | succ n ih =>
    intro hn
    rw [hs n hn]
    by_cases hm : (n + 1) % 16 = 0
    · -- a restart: the stretch is the one step n + 1
      rw [if_pos hm, hm, zero_add]
      simp
    · -- the stretch of step n, one term longer
      rw [if_neg hm, ih (by omega)]
      have e1 : (n + 1) % 16 = n % 16 + 1 := by omega
      rw [e1]
      have e2 : n + 1 - (n % 16 + 1) = n - n % 16 := by omega
      have e3 : n - n % 16 + (n % 16 + 1) = n + 1 := by omega
      rw [e2, Finset.sum_range_succ (fun k => cs (n - n % 16 + k)) (n % 16 + 1), e3]

/-- At the last step of stretch `J` the running sum is the sum of that stretch's sixteen terms. -/
theorem acc_block_end_lt (N : ℕ) (row cs : ℕ → EReal) (h0 : row 0 = 0 + cs 0)
    (hs : ∀ n, n + 1 < N → row (n + 1) = if (n + 1) % 16 = 0 then 0 + cs (n + 1) else row n + cs (n + 1))
    (J : ℕ) (hJ : 16 * J + 15 < N) : row (16 * J + 15) = ∑ k : Fin 16, cs (16 * J + k.val) := by
  rw [acc_closed_lt N row cs h0 hs _ hJ]
  have e1 : (16 * J + 15) % 16 = 15 := by omega
  rw [e1]
  have e2 : 16 * J + 15 - 15 = 16 * J := by omega
  rw [e2]
  exact Finset.sum_range (fun k => cs (16 * J + k))

/-- The same with no bound: the recurrence at every step gives the closed form at every step. -/
theorem acc_closed (row cs : ℕ → EReal) (h0 : row 0 = 0 + cs 0)
    (hs : ∀ n, row (n + 1) = if (n + 1) % 16 = 0 then 0 + cs (n + 1) else row n + cs (n + 1)) :
    ∀ n, row n = ∑ k ∈ Finset.range (n % 16 + 1), cs (n - n % 16 + k) :=
  fun n => acc_closed_lt (n + 1) row cs h0 (fun m _ => hs m) n (Nat.lt_succ_self n)

theorem acc_block_end (row cs : ℕ → EReal) (h0 : row 0 = 0 + cs 0)
    (hs : ∀ n, row (n + 1) = if (n + 1) % 16 = 0 then 0 + cs (n + 1) else row n + cs (n + 1)) (J : ℕ) :
    row (16 * J + 15) = ∑ k : Fin 16, cs (16 * J + k.val) :=
  acc_block_end_lt (16 * J + 16) row cs h0 (fun m _ => hs m) J (by omega)

/-! ## 2048 rows as 16 blocks of 128 -/

/-- Row `p` of block `k` is row `128 k + p`; row `r` is row `r % 128` of block `r / 128`. -/
def blockEquiv : Fin 16 × Fin 128 ≃ Fin 2048 where
  toFun x := ⟨128 * x.1.val + x.2.val, by have := x.1.isLt; have := x.2.isLt; omega⟩
  invFun r := (⟨r.val / 128, by have := r.isLt; omega⟩, ⟨r.val % 128, by omega⟩)
  left_inv x := by
    rcases x with ⟨k, p⟩
    have hk := k.isLt
    have hp := p.isLt
    refine Prod.ext (Fin.ext ?_) (Fin.ext ?_)
    · show (128 * k.val + p.val) / 128 = k.val
      omega
    · show (128 * k.val + p.val) % 128 = p.val
      omega
  right_inv r := Fin.ext (by
    show 128 * (r.val / 128) + r.val % 128 = r.val
    omega)

/-- The sum over the 2048 rows, block by block. -/
theorem sum_blocks (g : Fin 2048 → EReal) :
    ∑ k : Fin 16, ∑ p : Fin 128, g ⟨128 * k.val + p.val, by have := k.isLt; have := p.isLt; omega⟩ = ∑ r : Fin 2048, g r := by
  rw [← Equiv.sum_comp blockEquiv g, Fintype.sum_prod_type]
  rfl

/-! ## The scaled-values arrangement from its three ingredients -/

/-- Weights `W` that are the specification's, normalisers `D` that are their column sums, and scaled values `A'` that
    are the values over the normalisers: the sum over `j` of `W i j * A' j s` is the specification's `kerOut`. -/
theorem kerOut_of (x : Spec.A2 2048 128) (geom : Spec.A3 2048 2048 64) (Wv : Spec.A2 128 8) (bv : Spec.A1 8)
    (Wk : Spec.A2 128 64) (bk : Spec.A1 64) (Wq : Spec.A2 128 64) (bq : Spec.A1 64) (Wg : Spec.A2 64 1) (bg : Spec.A1 1)
    (W : Fin 2048 → Fin 2048 → EReal) (D : Fin 2048 → EReal) (A' : Fin 2048 → Fin 8 → EReal)
    (hW : ∀ i j, W i j = Spec.wnom x geom Wk bk Wq bq Wg bg i j)
    (hD : ∀ j, D j = ∑ i : Fin 2048, W i j)
    (hA : ∀ j s, A' j s = Ideal.div (Spec.appear x Wv bv j s) (D j)) (i : Fin 2048) (s : Fin 8) :
    (∑ j : Fin 2048, W i j * A' j s) = Spec.kerOut x geom Wv bv Wk bk Wq bq Wg bg i s := by
  have hD' : ∀ j, D j = Spec.denom x geom Wk bk Wq bq Wg bg j := fun j => by
    rw [hD, Spec.denom_eq_sum]
    exact Finset.sum_congr rfl fun i _ => hW i j
  unfold Spec.kerOut
  exact Finset.sum_congr rfl fun j _ => by rw [hW, hA, hD']

/-- The same against the normalise-then-sum arrangement, where no normaliser is zero. -/
theorem refOut_of (x : Spec.A2 2048 128) (geom : Spec.A3 2048 2048 64) (Wv : Spec.A2 128 8) (bv : Spec.A1 8)
    (Wk : Spec.A2 128 64) (bk : Spec.A1 64) (Wq : Spec.A2 128 64) (bq : Spec.A1 64) (Wg : Spec.A2 64 1) (bg : Spec.A1 1)
    (W : Fin 2048 → Fin 2048 → EReal) (D : Fin 2048 → EReal) (A' : Fin 2048 → Fin 8 → EReal)
    (hW : ∀ i j, W i j = Spec.wnom x geom Wk bk Wq bq Wg bg i j)
    (hD : ∀ j, D j = ∑ i : Fin 2048, W i j)
    (hA : ∀ j s, A' j s = Ideal.div (Spec.appear x Wv bv j s) (D j))
    (hne : ∀ j : Fin 2048, Spec.denom x geom Wk bk Wq bq Wg bg j ≠ 0) (i : Fin 2048) (s : Fin 8) :
    (∑ j : Fin 2048, W i j * A' j s) = Spec.refOut x geom Wv bv Wk bk Wq bq Wg bg i s :=
  (kerOut_of x geom Wv bv Wk bk Wq bq Wg bg W D A' hW hD hA i s).trans
    (Spec.refOut_eq_kerOut x geom Wv bv Wk bk Wq bq Wg bg hne i s).symm

end Cert.SumLaws

end
-- ==== Proof.Val0.lean ====
/-
  What the first call leaves in its two result arrays, over the extended reals. Entry (r, col) of the first is the gate
  max(Σ_d geom[r,col,d]·wg[d] + bg, 0) times exp((Σ_e k[r,e]·q[col,e])·(1/8)), read off the arrays the call finds; entry
  col of the second is the sum of the first array's column col over all 2048 rows: the accumulator row collects, over
  the 16 row blocks of a column block, the 128-row column sums of each block.
-/
import proofs.«103395_j30580167147772_2_alg».proof.Proof.KI.RowSum
import proofs.«103395_j30580167147772_2_alg».proof.Proof.Blocks
import proofs.«103395_j30580167147772_2_alg».proof.Proof.SumLaws

set_option maxRecDepth 16384

noncomputable section

namespace Cert.KernelIdeal.Val0

open Cert.KernelIdeal Cert.KernelIdeal.Gen Cert.KernelIdeal.Hand Cert.KernelIdeal.Blk Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The arrays the first call is entered with, as functions into the extended reals. -/
abbrev geomA (c : Dev nD) : S2048x2048x64.Idx → EReal := V c main_arg1
abbrev keyA (c : Dev nD) : S2048x64.Idx → EReal := V c main_v7
abbrev qryA (c : Dev nD) : S2048x64.Idx → EReal := V c main_v11
abbrev wgA (c : Dev nD) : S1x64.Idx → EReal := V c main_v12
abbrev bgA (c : Dev nD) : S1x1.Idx → EReal := V c main_v13

/-- The gated exponential at row `r`, column `col`, from the arrays the first call is entered with. -/
def g5 (c : Dev nD) (r col : Fin 2048) : EReal :=
  max ((∑ d : Fin 64, geomA V c (ix3 r col d) * wgA V c (ix2 (0 : Fin 1) d)) + bgA V c (ix2 (0 : Fin 1) (0 : Fin 1))) 0
    * Ideal.exp ((∑ e : Fin 64, keyA V c (ix2 r e) * qryA V c (ix2 col e)) * Ideal.ofBits .f32 0x3E000000#32)

/-- The block the body computes at point `t` is the block of `g5` at the point's rows and columns. -/
theorem wblk_apply (c : Dev nD) (t : Fin cfg0.N) (p : Fin 128) (q : Fin 256) :
    (wblk V c t (ix2 p q) : EReal) = g5 V c (rowAt t p) (colAt t q) := by
  unfold wblk g5
  rw [k0_pay3_apply]
  simp only [blk0_0_apply, blk0_1_apply, blk0_2_apply, blk0_3_eq, blk0_4_eq, geomA, keyA, qryA, wgA, bgA]

/-- The first result array after the call. -/
def G5 (c : Dev nD) : S2048x2048.Idx → EReal := fun idx => g5 V c (idx 0) (idx 1)

theorem flushed5 (c : Dev nD) (t : Fin cfg0.N) (hf : (cfg0.win 5).flush t = true) :
    (dat0 V c).flushed 5 t = ((cfg0.win 5).blk t).view.read (Elt Ideal) (G5 V c) := by
  show (cfg0.win 5).cut (grid0.coords t) ((dat0 V c).after 5 t) = _
  rw [after0_5, held0_val]
  funext y
  obtain ⟨p, q, rfl⟩ : ∃ (p : Fin 128) (q : Fin 256), y = ix2 p q := ⟨y 0, y 1, eq_ix2 y⟩
  rw [read0_5_apply c]
  exact wblk_apply V c t p q

theorem final5 (c : Dev nD) : (dat0 V c).arrAt 5 cfg0.N = G5 V c :=
  (dat0 V c).arrAt_eq_of_cover 5 (G5 V c) (flushed5 V c) (cover0_5 c)

/-- The second result array after the call: the first's column sums. -/
def G6 (c : Dev nD) : S1x2048.Idx → EReal := fun idx => ∑ r : Fin 2048, g5 V c r (idx 1)

theorem csN_block (c : Dev nD) (q : Fin 256) (J : ℕ) (hJ : 16 * J + 15 < 128) (k : Fin 16) :
    csN V c q (16 * J + k.val) = ∑ p : Fin 128, g5 V c ⟨128 * k.val + p.val, by have := k.isLt; have := p.isLt; omega⟩ ⟨256 * J + q.val, by have := q.isLt; omega⟩ := by
  have hN : cfg0.N = 128 := N_0
  have hk := k.isLt
  have h : 16 * J + k.val < cfg0.N := by omega
  unfold csN
  rw [dif_pos h]
  unfold colsum
  refine Finset.sum_congr rfl fun p _ => ?_
  rw [wblk_apply]
  congr 1
  · apply Fin.ext; show 128 * ((16 * J + k.val) % 16) + p.val = 128 * k.val + p.val; omega
  · apply Fin.ext; show 256 * ((16 * J + k.val) / 16) + q.val = 256 * J + q.val; omega

theorem flushed6 (c : Dev nD) (t : Fin cfg0.N) (hf : (cfg0.win 6).flush t = true) :
    (dat0 V c).flushed 6 t = ((cfg0.win 6).blk t).view.read (Elt Ideal) (G6 V c) := by
  have hN : cfg0.N = 128 := N_0
  have ht := t.isLt
  have h15 : t.val % 16 = 15 := (flush0_6 t).mp hf
  show (cfg0.win 6).cut (grid0.coords t) ((dat0 V c).after 6 t) = _
  rw [after0_6, held0_val]
  funext y
  obtain ⟨u, q, rfl⟩ : ∃ (u : Fin 1) (q : Fin 256), y = ix2 u q := ⟨y 0, y 1, eq_ix2 y⟩
  obtain rfl : u = 0 := Subsingleton.elim _ _
  rw [read0_6_apply c]
  show ((if t.val % 16 = 15 then accRow V c t.val t.isLt else rd6 []) (ix2 (0 : Fin 1) q) : EReal) = ∑ r : Fin 2048, g5 V c r (colAt t q)
  rw [if_pos h15]
  have hJ : 16 * (t.val / 16) + 15 < 128 := by omega
  have key := Cert.SumLaws.acc_block_end_lt 128 (rowN V c q) (csN V c q) (rowN_zero V c q) (fun n hn => rowN_succ V c q n hn) (t.val / 16) hJ
  have htv : 16 * (t.val / 16) + 15 = t.val := by omega
  rw [htv] at key
  have hrow : rowN V c q t.val = (accRow V c t.val t.isLt (ix2 (0 : Fin 1) q) : EReal) := by
    unfold rowN; rw [dif_pos t.isLt]
  rw [← hrow, key]
  rw [← Cert.SumLaws.sum_blocks (fun r => g5 V c r (colAt t q))]
  refine Finset.sum_congr rfl fun k _ => ?_
  rw [csN_block V c q (t.val / 16) hJ k]

theorem final6 (c : Dev nD) : (dat0 V c).arrAt 6 cfg0.N = G6 V c :=
  (dat0 V c).arrAt_eq_of_cover 6 (G6 V c) (flushed6 V c) (cover0_6 c)

end Cert.KernelIdeal.Val0

end
-- ==== Proof.Pay1.lean ====
/-
  The second kernel body's arithmetic read at one element, at the ideal values (every float an extended real, every
  operation exact, a change of format the identity).

  The body multiplies a 512 × 2048 block of weights by the 2048 × 8 matrix of scaled features, accumulating into a zero
  block; both operands are first narrowed to bf16, which changes nothing here. So element (r, s) of the result is the
  plain sum over j of the block's (r, j) times the matrix's (j, s).
-/
import proofs.«103395_j30580167147772_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The operand indices of the 512 × 2048 by 2048 × 8 product

For a plain matrix product (contract the left operand's columns with the right operand's rows) the left operand is read
at (row of the output, contraction coordinate) and the right operand at (contraction coordinate, column of the output). -/
/-- The left operand's row coordinate at output index `i` is `i`'s row. -/
theorem wsum_lhs_0 (i : S512x8.Idx) (q : dot_S512x2048_S2048x8_S512x8_1_0_0_1_n_n.contr.Idx) :
    (dot_S512x2048_S2048x8_S512x8_1_0_0_1_n_n.lhsIdx i q 0).val = (i 0).val := by
  unfold DotDims.lhsIdx
  rw [dif_neg (show ¬(0 : Fin S512x2048.rank) ∈ dot_S512x2048_S2048x8_S512x8_1_0_0_1_n_n.lhsBatch by decide), dif_pos (show (0 : Fin S512x2048.rank) ∈ dot_S512x2048_S2048x8_S512x8_1_0_0_1_n_n.lhsNonContracting by decide)]
  rfl
/-- The left operand's column coordinate is the contraction coordinate. -/
theorem wsum_lhs_1 (i : S512x8.Idx) (q : dot_S512x2048_S2048x8_S512x8_1_0_0_1_n_n.contr.Idx) :
    (dot_S512x2048_S2048x8_S512x8_1_0_0_1_n_n.lhsIdx i q 1).val = (q ⟨0, by decide⟩).val :=
  dot_S512x2048_S2048x8_S512x8_1_0_0_1_n_n.lhsIdx_val_of_single rfl i q
/-- The right operand's row coordinate is the contraction coordinate. -/
theorem wsum_rhs_0 (i : S512x8.Idx) (q : dot_S512x2048_S2048x8_S512x8_1_0_0_1_n_n.contr.Idx) :
    (dot_S512x2048_S2048x8_S512x8_1_0_0_1_n_n.rhsIdx i q 0).val = (q ⟨0, by decide⟩).val :=
  dot_S512x2048_S2048x8_S512x8_1_0_0_1_n_n.rhsIdx_val_of_single rfl i q
/-- The right operand's column coordinate at output index `i` is `i`'s column. -/
theorem wsum_rhs_1 (i : S512x8.Idx) (q : dot_S512x2048_S2048x8_S512x8_1_0_0_1_n_n.contr.Idx) :
    (dot_S512x2048_S2048x8_S512x8_1_0_0_1_n_n.rhsIdx i q 1).val = (i 1).val := by
  unfold DotDims.rhsIdx
  rw [dif_neg (show ¬(1 : Fin S2048x8.rank) ∈ dot_S512x2048_S2048x8_S512x8_1_0_0_1_n_n.rhsBatch by decide), dif_pos (show (1 : Fin S2048x8.rank) ∈ dot_S512x2048_S2048x8_S512x8_1_0_0_1_n_n.rhsNonContracting by decide)]
  rfl

/-! ## The product at an element -/

/-- Element (r, s) of the body's result is `∑ j, v0 (r, j) * v3 (j, s)`: the contraction index set has one axis of
    extent 2048, the sum is re-indexed through its one coordinate, and the two format changes and the two casts to the
    same shape are the identity. -/
theorem k1_pay1_apply (v0 : Vec Ideal S512x2048 .f32) (v3 : Vec Ideal S2048x8 .f32) (r : Fin 512) (s : Fin 8) :
    k1_pay1 (F := Ideal) v0 v3 (ix2 r s) = ∑ j : Fin 2048, v0 (ix2 r j) * v3 (ix2 j s) := by
  unfold k1_pay1
  rw [shapeCast_self, shapeCast_self]
  refine (Ideal.matmul_constant_zero_apply dot_S512x2048_S2048x8_S512x8_1_0_0_1_n_n none _ _ (ix2 r s)).trans ?_
  rw [← Equiv.sum_comp (contrEquiv1 dot_S512x2048_S2048x8_S512x8_1_0_0_1_n_n 2048 rfl rfl).symm]
  refine Finset.sum_congr rfl fun k _ => ?_
  have hk := contrEquiv1_symm_val dot_S512x2048_S2048x8_S512x8_1_0_0_1_n_n 2048 rfl rfl k
  have el : dot_S512x2048_S2048x8_S512x8_1_0_0_1_n_n.lhsIdx (ix2 r s) ((contrEquiv1 dot_S512x2048_S2048x8_S512x8_1_0_0_1_n_n 2048 rfl rfl).symm k) = ix2 r k :=
    funext fun a => Fin.ext (by
      match a with
      | ⟨0, _⟩ => exact wsum_lhs_0 _ _
      | ⟨1, _⟩ => exact (wsum_lhs_1 _ _).trans hk)
  have er : dot_S512x2048_S2048x8_S512x8_1_0_0_1_n_n.rhsIdx (ix2 r s) ((contrEquiv1 dot_S512x2048_S2048x8_S512x8_1_0_0_1_n_n 2048 rfl rfl).symm k) = ix2 k s :=
    funext fun a => Fin.ext (by
      match a with
      | ⟨0, _⟩ => exact (wsum_rhs_0 _ _).trans hk
      | ⟨1, _⟩ => exact wsum_rhs_1 _ _)
  rw [el, er]
  rfl

/-- The same at an index not yet split into its coordinates. -/
theorem k1_pay1_apply_idx (v0 : Vec Ideal S512x2048 .f32) (v3 : Vec Ideal S2048x8 .f32) (i : S512x8.Idx) :
    k1_pay1 (F := Ideal) v0 v3 i = ∑ j : Fin 2048, v0 (ix2 (i 0) j) * v3 (ix2 j (i 1)) :=
  (congrArg (k1_pay1 (F := Ideal) v0 v3) (eq_ix2 i)).trans (k1_pay1_apply v0 v3 (i 0) (i 1))

end Cert.KernelIdeal.Pay

end
-- ==== Proof.Val1.lean ====
/-
  What the second call leaves in its result array, at the ideal values: entry (r, s) is the sum over j of the weights'
  entry (r, j) times the scaled value rows' entry (j, s), the two arrays as the call finds them.

  The call walks 4 points; at point t its body multiplies rows 512 t … 512 t + 511 of the weights by the whole
  2048 × 8 array of scaled value rows and stores the product as rows 512 t … 512 t + 511 of the result. One element
  of that product is a plain sum over the 2048 contraction coordinates, the block's row r is the array's row
  512 t + r, and the four written blocks tile the 2048 rows; so the array ends holding the whole product.
-/
import proofs.«103395_j30580167147772_2_alg».proof.Proof.KI.Frame1
import proofs.«103395_j30580167147772_2_alg».proof.Proof.Blocks
import proofs.«103395_j30580167147772_2_alg».proof.Proof.Pay1
import Idealize.ShloMosaic.Lib.Pipeline.Value
import Idealize.ShloMosaic.Lib.ValueIdx

noncomputable section

open scoped BigOperators

namespace Cert.KernelIdeal.Val1

open Cert.KernelIdeal Cert.KernelIdeal.Gen Cert.KernelIdeal.Hand Cert.KernelIdeal.Blk Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The weights (the first call's 2048 × 2048 result) as the second call finds them, as an array of extended reals. -/
abbrev weights (c : Dev nD) : S2048x2048.Idx → EReal := V c main_v14_0
/-- The scaled value rows as the second call finds them, as an array of extended reals. -/
abbrev rows (c : Dev nD) : S2048x8.Idx → EReal := V c main_v17

/-- The product of the weights and the scaled value rows, as the call finds them: entry (r, s) is
    `∑ j, weights (r, j) * rows (j, s)`. -/
def G8 (c : Dev nD) : Buf (Elt Ideal) ((cfg1.win 2).arr.view.loc (c.tc : Thread nD τ)) :=
  (fun idx : S2048x8.Idx => ∑ j : Fin 2048, weights V c (ix2 (idx 0 : Fin 2048) j) * rows V c (ix2 j (idx 1 : Fin 8)) :
    S2048x8.Idx → EReal)

/-- Its entry at explicit coordinates. -/
theorem G8_apply (c : Dev nD) (r : Fin 2048) (s : Fin 8) :
    (G8 V c : S2048x8.Idx → EReal) (ix2 r s) = ∑ j : Fin 2048, weights V c (ix2 r j) * rows V c (ix2 j s) := rfl

theorem hz : (![0, 0] : Fin 2 → Nat) = fun _ => 0 := funext fun a => by fin_cases a <;> rfl

/-- One element of the body's product, over any two operands that are the weights' rows 512 t … and the whole array of
    scaled value rows: it is that element of block `t` of `G8`. -/
theorem point_eq (c : Dev nD) (t : Fin cfg1.N) (x0 : Vec Ideal S512x2048 .f32) (x1 : Vec Ideal S2048x8 .f32)
    (h0 : ∀ (r : Fin 512) (j : Fin 2048), x0 (ix2 r j) = (V c main_v14_0 : S2048x2048.Idx → EReal) (ix2 (rowAt1 t r) j))
    (h1 : x1 = (V c main_v17 : S2048x8.Idx → EReal)) (r : Fin 512) (s : Fin 8) :
    k1_pay1 (F := Ideal) x0 x1 (ix2 r s)
      = (((cfg1.win 2).blk t).view.read (Elt Ideal) (G8 V c) : Vec Ideal S512x8 .f32) (ix2 r s) := by
  rw [k1_pay1_apply, read1_2_apply, G8_apply]
  subst h1
  exact Finset.sum_congr rfl fun j _ => by rw [h0]

/-- What point `t` writes back is block `t` of `G8`. -/
theorem flushed_eq (c : Dev nD) (t : Fin cfg1.N) (hf : (cfg1.win 2).flush t = true) :
    (dat1 V c).flushed 2 t = ((cfg1.win 2).blk t).view.read (Elt Ideal) (G8 V c) := by
  show (cfg1.win 2).cut (grid1.coords t) ((dat1 V c).after 2 t) = _
  rw [after1_2]
  unfold outW
  rw [View.canon_unit_zero hz]
  simp only [View.ld_unit_zero (S := S512x2048) hz, View.ld_unit_zero (S := S2048x8) hz]
  funext y
  obtain ⟨r, s, rfl⟩ : ∃ (r : Fin 512) (s : Fin 8), y = ix2 r s := ⟨y 0, y 1, eq_ix2 y⟩
  exact point_eq V c t (blk1 V c 0 t) (blk1 V c 1 t) (fun r j => blk1_0_apply V c t r j) (blk1_1_eq V c t) r s

/-- The result array after the call's last point: the whole product. -/
theorem final1 (c : Dev nD) : (dat1 V c).arrAt 2 cfg1.N = G8 V c :=
  (dat1 V c).arrAt_eq_of_cover 2 (G8 V c) (flushed_eq V c) (cover1_2 c)

end Cert.KernelIdeal.Val1

end
-- ==== Proof.KGlue.lean ====
/-
  The contents named at the boundaries of the kernel program's four segments, tied to the argument arrays.

  The program runs: host operations, first call, host operations, second call. What the first call is entered
  with, in the five buffers its body reads, is the geometric array as launched and — from the host operations
  before it, read at an index — the key rows, the query rows, the geometric weight row and the 1 × 1 geometric
  bias of the specification, each of the ARGUMENT arrays as launched (no host operation writes an argument).
  What the second call is entered with is, in its left operand, the first call's first result array untouched,
  and in its right operand the value rows over the first call's second result array (the column sums), entry by
  entry: the host operations between the calls transpose, repeat and divide, and the value rows are no array of
  the first call, so they come through it unchanged. What the program ends with in its result buffer is what the
  second call's write-backs leave there.

  Last, the result itself. The second call leaves the product of its two operands: entry (i, s) is the sum over j of
  the weight (i, j) times the scaled value (j, s). The weights are what the first call left in its first array,
  the gated exponential of the entries it was entered with — which, those entries being the specification's key,
  query, geometric weight and bias of the arguments and the word of the scale being 1/8, is the specification's
  unnormalised weight. The scaled value (j, s) is the value (j, s) over what the first call left in its second
  array at column j, the sum of the weights of column j. These are the three ingredients of the scaled-values
  arrangement, so the result is the specification's `kerOut` of the argument arrays.

  Each equation goes through the boundary lemmas (a call's arrays at what its write-backs leave, every other
  buffer as entered; a host stretch's results read at an index, everything else kept) and never opens a
  boundary's contents.
-/
import proofs.«103395_j30580167147772_2_alg».proof.Proof.KI.Run
import proofs.«103395_j30580167147772_2_alg».proof.Proof.KHost
import proofs.«103395_j30580167147772_2_alg».proof.Proof.Val0
import proofs.«103395_j30580167147772_2_alg».proof.Proof.Val1
import proofs.«103395_j30580167147772_2_alg».proof.Proof.SumLaws

noncomputable section

open scoped BigOperators

namespace Cert.KGlue

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-! ## What the first call is entered with -/

/-- The geometric array is as launched. -/
theorem geom_entered : E1 m ρ c main_arg1 = m ((c : Thread nD τ).loc main_arg1) :=
  Cert.KHost.before_arg1 (B0 m ρ c)

/-- Entry (r, e) of the key rows. -/
theorem key_entered (r : Fin 2048) (e : Fin 64) :
    E1 m ρ c main_v7 (ix2 r e)
      = Cert.Spec.proj64 (m ((c : Thread nD τ).loc main_arg0)) (m ((c : Thread nD τ).loc main_arg4))
          (m ((c : Thread nD τ).loc main_arg5)) r e :=
  Cert.KHost.key_at (B0 m ρ c) r e

/-- Entry (j, e) of the query rows. -/
theorem query_entered (j : Fin 2048) (e : Fin 64) :
    E1 m ρ c main_v11 (ix2 j e)
      = Cert.Spec.proj64 (m ((c : Thread nD τ).loc main_arg0)) (m ((c : Thread nD τ).loc main_arg6))
          (m ((c : Thread nD τ).loc main_arg7)) j e :=
  Cert.KHost.query_at (B0 m ρ c) j e

/-- Entry (0, d) of the geometric weight row is entry (d, 0) of the argument. -/
theorem wgRow_entered (d : Fin 64) :
    E1 m ρ c main_v12 (ix2 (0 : Fin 1) d) = m ((c : Thread nD τ).loc main_arg8) (ix2 d (0 : Fin 1)) :=
  Cert.KHost.wgRow_at (B0 m ρ c) d

/-- The one entry of the 1 × 1 geometric bias is the one entry of the argument. -/
theorem bg11_entered :
    E1 m ρ c main_v13 (ix2 (0 : Fin 1) (0 : Fin 1)) = m ((c : Thread nD τ).loc main_arg9) (ix1 (0 : Fin 1)) :=
  Cert.KHost.bg11_at (B0 m ρ c)

/-! ## What the second call is entered with -/

/-- After the first call the value rows are as it found them: they are no array of the call. -/
theorem appear_through (j : Fin 2048) (s : Fin 8) :
    B2 m ρ c (Proc.devRef .tc main_v3) (ix2 j s)
      = Cert.Spec.appear (m ((c : Thread nD τ).loc main_arg0)) (m ((c : Thread nD τ).loc main_arg2))
          (m ((c : Thread nD τ).loc main_arg3)) j s :=
  (congrFun (B2_of_ne m ρ c main_v3 (by decide)) (ix2 j s)).trans (Cert.KHost.appear_at (B0 m ρ c) j s)

/-- After the first call its second result array holds what the write-backs leave. -/
theorem colsum_left : B2 m ρ c (Proc.devRef .tc main_v14_1) = (dat0 (E1 m ρ) c).arrAt 6 cfg0.N :=
  B2_arr m ρ c 6

/-- The second call's left operand is the first call's first result array, untouched between the calls. -/
theorem weights_entered : E3 m ρ c main_v14_0 = (dat0 (E1 m ρ) c).arrAt 5 cfg0.N :=
  (Cert.KHost.between_v14_0 (B2 m ρ c)).trans (B2_arr m ρ c 5)

/-- Entry (j, s) of the second call's right operand: the value row's entry over column sum j. -/
theorem scaled_entered (j : Fin 2048) (s : Fin 8) :
    E3 m ρ c main_v17 (ix2 j s)
      = Ideal.div (Cert.Spec.appear (m ((c : Thread nD τ).loc main_arg0)) (m ((c : Thread nD τ).loc main_arg2))
            (m ((c : Thread nD τ).loc main_arg3)) j s)
          ((dat0 (E1 m ρ) c).arrAt 6 cfg0.N (ix2 (0 : Fin 1) j)) :=
  (Cert.KHost.scaled_at (B2 m ρ c) j s).trans
    (congrArg₂ Ideal.div (appear_through m ρ c j s) (congrFun (colsum_left m ρ c) (ix2 (0 : Fin 1) j)))

/-! ## What the program ends with -/

/-- The result buffer holds what the second call's write-backs leave. -/
theorem result_left : B4 m ρ c (Proc.devRef .tc main_v18) = (dat1 (E3 m ρ) c).arrAt 2 cfg1.N :=
  B4_arr m ρ c 2

/-! ## The result is the specification's scaled-values arrangement -/

/-- The gated exponential over ANY five arrays that are the ones the first call is entered with is the
    specification's unnormalised weight of the arguments: the geometric array is the argument, the weight row and
    the bias read the arguments' entries, the key and query rows are the specification's, and the word of the
    scale denotes 1/8. -/
theorem weight_spec (G : S2048x2048x64.Idx → EReal) (wg : S1x64.Idx → EReal) (bg : S1x1.Idx → EReal)
    (K Q : S2048x64.Idx → EReal)
    (hG : G = E1 m ρ c main_arg1) (hwg : wg = E1 m ρ c main_v12) (hbg : bg = E1 m ρ c main_v13)
    (hK : K = E1 m ρ c main_v7) (hQ : Q = E1 m ρ c main_v11) (i j : Fin 2048) :
    max ((∑ d : Fin 64, G (ix3 i j d) * wg (ix2 (0 : Fin 1) d)) + bg (ix2 (0 : Fin 1) (0 : Fin 1))) 0
      * Ideal.exp ((∑ e : Fin 64, K (ix2 i e) * Q (ix2 j e)) * Ideal.ofBits .f32 0x3E000000#32)
      = Cert.Spec.wnom (m ((c : Thread nD τ).loc main_arg0)) (m ((c : Thread nD τ).loc main_arg1))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) i j := by
  subst hG hwg hbg hK hQ
  unfold Cert.Spec.wnom Cert.Spec.gate Cert.Spec.logit
  rw [geom_entered m ρ c, bg11_entered m ρ c, Cert.Spec.ofBits_eighth]
  simp only [wgRow_entered m ρ c, key_entered m ρ c, query_entered m ρ c]

/-- What the first call leaves at (i, j) of its first array is the specification's unnormalised weight. -/
theorem weight_eq (i j : Fin 2048) :
    Cert.KernelIdeal.Val0.g5 (E1 m ρ) c i j
      = Cert.Spec.wnom (m ((c : Thread nD τ).loc main_arg0)) (m ((c : Thread nD τ).loc main_arg1))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) i j := by
  unfold Cert.KernelIdeal.Val0.g5
  exact weight_spec m ρ c (Cert.KernelIdeal.Val0.geomA (E1 m ρ) c) (Cert.KernelIdeal.Val0.wgA (E1 m ρ) c)
    (Cert.KernelIdeal.Val0.bgA (E1 m ρ) c) (Cert.KernelIdeal.Val0.keyA (E1 m ρ) c) (Cert.KernelIdeal.Val0.qryA (E1 m ρ) c)
    rfl rfl rfl rfl rfl i j

/-- Entry (i, s) of the result buffer after the whole program: the sum over j of the weight (i, j) times the value
    (j, s) over the column sum j — the specification's scaled-values arrangement of the argument arrays. -/
theorem kernel_result (i : Fin 2048) (s : Fin 8) :
    B4 m ρ c (Proc.devRef .tc main_v18) (ix2 i s)
      = Cert.Spec.kerOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) i s := by
  -- the result buffer is the product the second call leaves
  have h8 : B4 m ρ c (Proc.devRef .tc main_v18) = Cert.KernelIdeal.Val1.G8 (E3 m ρ) c :=
    (result_left m ρ c).trans (Cert.KernelIdeal.Val1.final1 (E3 m ρ) c)
  -- its left operand is the first call's array of gated exponentials
  have h5 : E3 m ρ c main_v14_0 = Cert.KernelIdeal.Val0.G5 (E1 m ρ) c :=
    (weights_entered m ρ c).trans (Cert.KernelIdeal.Val0.final5 (E1 m ρ) c)
  -- the first call's second array holds their column sums
  have h6 : (dat0 (E1 m ρ) c).arrAt 6 cfg0.N = Cert.KernelIdeal.Val0.G6 (E1 m ρ) c :=
    Cert.KernelIdeal.Val0.final6 (E1 m ρ) c
  -- so its right operand is the value over the column sum
  have hA : ∀ (j : Fin 2048) (s : Fin 8), E3 m ρ c main_v17 (ix2 j s)
      = Ideal.div (Cert.Spec.appear (m ((c : Thread nD τ).loc main_arg0)) (m ((c : Thread nD τ).loc main_arg2))
          (m ((c : Thread nD τ).loc main_arg3)) j s) (∑ r : Fin 2048, Cert.KernelIdeal.Val0.g5 (E1 m ρ) c r j) :=
    fun j s => (scaled_entered m ρ c j s).trans (congrArg (Ideal.div _) (congrFun h6 (ix2 (0 : Fin 1) j)))
  have e1 : B4 m ρ c (Proc.devRef .tc main_v18) (ix2 i s)
      = ∑ j : Fin 2048, Cert.KernelIdeal.Val1.weights (E3 m ρ) c (ix2 i j) * Cert.KernelIdeal.Val1.rows (E3 m ρ) c (ix2 j s) :=
    (congrFun h8 (ix2 i s)).trans (Cert.KernelIdeal.Val1.G8_apply (E3 m ρ) c i s)
  have e2 : (∑ j : Fin 2048, Cert.KernelIdeal.Val1.weights (E3 m ρ) c (ix2 i j) * Cert.KernelIdeal.Val1.rows (E3 m ρ) c (ix2 j s))
      = ∑ j : Fin 2048, Cert.KernelIdeal.Val0.g5 (E1 m ρ) c i j
          * Ideal.div (Cert.Spec.appear (m ((c : Thread nD τ).loc main_arg0)) (m ((c : Thread nD τ).loc main_arg2))
              (m ((c : Thread nD τ).loc main_arg3)) j s) (∑ r : Fin 2048, Cert.KernelIdeal.Val0.g5 (E1 m ρ) c r j) :=
    Finset.sum_congr rfl fun j _ =>
      congrArg₂ (fun a b : EReal => a * b) (congrFun h5 (ix2 i j)) (hA j s)
  exact e1.trans (e2.trans (Cert.SumLaws.kerOut_of _ _ _ _ _ _ _ _ _ _ (fun i j => Cert.KernelIdeal.Val0.g5 (E1 m ρ) c i j)
    (fun j => ∑ r : Fin 2048, Cert.KernelIdeal.Val0.g5 (E1 m ρ) c r j)
    (fun j s => Ideal.div (Cert.Spec.appear (m ((c : Thread nD τ).loc main_arg0)) (m ((c : Thread nD τ).loc main_arg2))
          (m ((c : Thread nD τ).loc main_arg3)) j s) (∑ r : Fin 2048, Cert.KernelIdeal.Val0.g5 (E1 m ρ) c r j))
    (weight_eq m ρ c) (fun _ => rfl) (fun _ _ => rfl) i s))

end Cert.KGlue

end
-- ==== Proof.lean ====
/-
  The certificate's five claims. The word-level kernel program and its idealization each run to the end, fault nowhere
  and leave their argument arrays as launched: both are the same four-segment run (host operations, the call that
  streams the geometric features, host operations, the weighted-sum call), proved once for any float instance. The
  reference is a straight line of host operations. The ideal pass rewrote nothing. At the ideal instance both
  programs end with Σ_j wnom[i,j] · appear[j,s] / denom[j]: the reference divides each weight by its column's
  denominator before the product, the kernel divides each value row by it, and over the extended reals the two
  quotients agree term by term wherever the denominator is not zero, which the precondition states.
-/
import proofs.«103395_j30580167147772_2_alg».proof.Defs
import proofs.«103395_j30580167147772_2_alg».proof.Proof.Gen.Kernel
import proofs.«103395_j30580167147772_2_alg».proof.Proof.Gen.KernelIdeal
import proofs.«103395_j30580167147772_2_alg».proof.Proof.Gen.ReferenceIdeal
import proofs.«103395_j30580167147772_2_alg».proof.Proof.Gen.ReferenceIdeal.Run
import proofs.«103395_j30580167147772_2_alg».proof.Proof.Gen.ReferenceIdeal.Read
import proofs.«103395_j30580167147772_2_alg».proof.Proof.Gen.Pre_finite_inputs
import proofs.«103395_j30580167147772_2_alg».proof.Proof.KB.Run
import proofs.«103395_j30580167147772_2_alg».proof.Proof.KI.Run
import proofs.«103395_j30580167147772_2_alg».proof.Proof.AlgOf
import proofs.«103395_j30580167147772_2_alg».proof.Proof.KGlue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array is the weighted sum with each value row divided by its denominator; under the
    precondition that is the reference's weighted sum of normalised weights. -/
theorem algebraic : Cert.algebraic_KernelIdeal_ReferenceIdeal :=
  Cert.AlgOf.algebraic_of fun m ρ c i s => Cert.KGlue.kernel_result m ρ c i s

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
